-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x1024x256 : Shape := ⟨3, ![8, 1024, 256]⟩
abbrev S256x256 : Shape := ⟨2, ![256, 256]⟩
abbrev S256 : Shape := ⟨1, ![256]⟩
abbrev S512x256 : Shape := ⟨2, ![512, 256]⟩
abbrev S256x512 : Shape := ⟨2, ![256, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S256 .f32) (main_arg8 : FVec F S256x512 .f32) (main_arg9 : FVec F S512 .f32) (main_arg10 : FVec F S512 .f32) (main_arg11 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S512x256 .f32) (main_arg5 : FVec F S256 .f32) (main_arg6 : FVec F S256x256 .f32) (main_arg7 : FVec F S256 .f32) (main_arg8 : FVec F S256x512 .f32) (main_arg9 : FVec F S512 .f32) (main_arg10 : FVec F S512 .f32) (main_arg11 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x1024x512 .f32) (main_arg1 : FVec F S8x1024x256 .f32) (main_arg2 : FVec F S256x256 .f32) (main_arg3 : FVec F S256 .f32) (main_arg4 : FVec F S512x256 .f32) (main_arg5 : FVec F S256 .f32) (main_arg6 : FVec F S256x256 .f32) (main_arg7 : FVec F S256 .f32) (main_arg8 : FVec F S256x512 .f32) (main_arg9 : FVec F S512 .f32) (main_arg10 : FVec F S512 .f32) (main_arg11 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S8x1024x512 : Shape := ⟨3, ![8, 1024, 512]⟩
abbrev S8x1024x256 : Shape := ⟨3, ![8, 1024, 256]⟩
abbrev S256x256 : Shape := ⟨2, ![256, 256]⟩
abbrev S256 : Shape := ⟨1, ![256]⟩
abbrev S512x256 : Shape := ⟨2, ![512, 256]⟩
abbrev S256x512 : Shape := ⟨2, ![256, 512]⟩
abbrev S512 : Shape := ⟨1, ![512]⟩
abbrev S8192x512 : Shape := ⟨2, ![8192, 512]⟩
abbrev S8192x256 : Shape := ⟨2, ![8192, 256]⟩
abbrev S1x256 : Shape := ⟨2, ![1, 256]⟩
abbrev S1x512 : Shape := ⟨2, ![1, 512]⟩
abbrev S2x256x256 : Shape := ⟨3, ![2, 256, 256]⟩
abbrev S1024x512 : Shape := ⟨2, ![1024, 512]⟩
abbrev S1024x256 : Shape := ⟨2, ![1024, 256]⟩
abbrev S1x256x256 : Shape := ⟨3, ![1, 256, 256]⟩
abbrev S_ : Shape := ⟨0, ![]⟩
abbrev S2x1x512 : Shape := ⟨3, ![2, 1, 512]⟩
abbrev S1x1x512 : Shape := ⟨3, ![1, 1, 512]⟩

abbrev nBuf : Space → Nat
  | .hbm => 46
  | .vmem => 38
  | .smem => 0
  | _ => 0

abbrev bufTy : (tb : Table) → Fin (tcTables nBuf tb) → BufTy
  | .hbm, ⟨0, _⟩ => ⟨S8x1024x512, .f32⟩
  | .hbm, ⟨1, _⟩ => ⟨S8x1024x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S8192x512, .f32⟩
  | .hbm, ⟨13, _⟩ => ⟨S8192x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S8192x256, .f32⟩
  | .hbm, ⟨21, _⟩ => ⟨S2x256x256, .f32⟩
  | .hbm, ⟨22, _⟩ => ⟨S_, .f32⟩
  | .hbm, ⟨23, _⟩ => ⟨S256x256, .f32⟩
  | .hbm, ⟨24, _⟩ => ⟨S8192x512, .f32⟩
  | .hbm, ⟨25, _⟩ => ⟨S2x1x512, .f32⟩
  | .hbm, ⟨26, _⟩ => ⟨S2x1x512, .f32⟩
  | .hbm, ⟨27, _⟩ => ⟨S_, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S_, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S8192x512, .f32⟩
  | .hbm, ⟨45, _⟩ => ⟨S8x1024x512, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1x256x256, .f32⟩
  | .local _ .vmem, ⟨13, _⟩ => ⟨S1x256x256, .f32⟩
  | .local _ .vmem, ⟨14, _⟩ => ⟨S256x256, .f32⟩
  | .local _ .vmem, ⟨15, _⟩ => ⟨S1024x256, .f32⟩
  | .local _ .vmem, ⟨16, _⟩ => ⟨S1024x256, .f32⟩
  | .local _ .vmem, ⟨17, _⟩ => ⟨S256x256, .f32⟩
  | .local _ .vmem, ⟨18, _⟩ => ⟨S256x512, .f32⟩
  | .local _ .vmem, ⟨19, _⟩ => ⟨S1x512, .f32⟩
  | .local _ .vmem, ⟨20, _⟩ => ⟨S1024x512, .f32⟩
  | .local _ .vmem, ⟨21, _⟩ => ⟨S1024x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1024x512, .f32⟩
  | .local _ .vmem, ⟨37, _⟩ => ⟨S1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_cst : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_cst_0 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_25 : BitVec 32 := 0#32
  let v41 : BitVec 1 := Scalar.cmpi .ne v40 c0_i32_25
  v41

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_22 : BitVec 32 := 0#32
  let v34 : BitVec 1 := Scalar.cmpi .ne v33 c0_i32_22
  v34

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S8x1024x512_S8192x512 : S8x1024x512.ShapeCasts S8192x512
  shapeCasts_S8x1024x256_S8192x256 : S8x1024x256.ShapeCasts S8192x256
  shapeCasts_S256_S1x256 : S256.ShapeCasts S1x256
  shapeCasts_S512_S1x512 : S512.ShapeCasts S1x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  reducesTo_S2x256x256_S256x256_d0 : S2x256x256.ReducesTo [0] S256x256
  h_S_ : 0 < S_.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  broadcasts_S1x512_S1024x512 : S1x512.Broadcasts S1024x512
  reduces_S1024x512_S512 : S1024x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  reducesTo_S2x1x512_S1x512_d0 : S2x1x512.ReducesTo [0] S1x512
  bcast_S_S1x512 : S_.BroadcastsInDim S1x512 (![] : Fin 0 → Fin S1x512.rank)
  shapeCasts_S8192x512_S8x1024x512 : S8192x512.ShapeCasts S8x1024x512
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S1024x256_S256x256_0_0_1_1_n_n_wf : DotDims.WF S1024x256 S1024x256 S256x256 [0] [0] [1] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x256.size a
  hwx0_8 : ∀ i : grid0.Coords, EltTy.bits .f32 = 32 ∨ (Rect.block (s := S8192x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x256.size a ≤ S2x256x256.size a
  hwx0_9 : ∀ i : grid0.Coords, EltTy.bits .f32 = 32 ∨ (Rect.block (s := S2x256x256) S1x256x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x512.size a ≤ S2x1x512.size a
  hwx1_5 : ∀ i : grid1.Coords, EltTy.bits .f32 = 32 ∨ (Rect.block (s := S2x1x512) S1x1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x512.size a ≤ S2x1x512.size a
  hwx1_6 : ∀ i : grid1.Coords, EltTy.bits .f32 = 32 ∨ (Rect.block (s := S2x1x512) S1x1x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .f32 = 32 ∨ (Rect.block (s := S8192x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S8192x512.size a
  hwx2_6 : ∀ i : grid2.Coords, EltTy.bits .f32 = 32 ∨ (Rect.block (s := S8192x512) S1024x512.size (cc2_transform_6 i) (hinb2_6 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S1x256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v8_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S1024x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1x1x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_2) S1x1x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v10_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x1024x512 : Shape := ⟨3, ![8, 1024, 512]⟩
abbrev S8x1024x256 : Shape := ⟨3, ![8, 1024, 256]⟩
abbrev S256x256 : Shape := ⟨2, ![256, 256]⟩
abbrev S256 : Shape := ⟨1, ![256]⟩
abbrev S512x256 : Shape := ⟨2, ![512, 256]⟩
abbrev S256x512 : Shape := ⟨2, ![256, 512]⟩
abbrev S512 : Shape := ⟨1, ![512]⟩
abbrev S8192x512 : Shape := ⟨2, ![8192, 512]⟩
abbrev S8192x256 : Shape := ⟨2, ![8192, 256]⟩
abbrev S1x256 : Shape := ⟨2, ![1, 256]⟩
abbrev S256x8192 : Shape := ⟨2, ![256, 8192]⟩
abbrev S8192x8192 : Shape := ⟨2, ![8192, 8192]⟩
abbrev S_ : Shape := ⟨0, ![]⟩
abbrev S1x512 : Shape := ⟨2, ![1, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S8192x512, .f32⟩
  | .hbm, ⟨13, _⟩ => ⟨S8192x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | .hbm, ⟨26, _⟩ => ⟨S256x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x256, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .i32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S1x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S1x512, .f32⟩
  | .hbm, ⟨75, _⟩ => ⟨S8192x512, .f32⟩
  | .hbm, ⟨76, _⟩ => ⟨S8192x512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]

class Facts₀ : Prop where
  shapeCasts_S8x1024x512_S8192x512 : S8x1024x512.ShapeCasts S8192x512
  shapeCasts_S8x1024x256_S8192x256 : S8x1024x256.ShapeCasts S8192x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S512_d0 : S8192x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  shapeCasts_S8192x512_S8x1024x512 : S8192x512.ShapeCasts S8x1024x512
  dot_S8192x256_S256x256_S8192x256_1_0_0_1_n_n_wf : DotDims.WF S8192x256 S256x256 S8192x256 [1] [0] [0] [1] [] []
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x512_S8192x512_1_0_0_1_n_n_wf : DotDims.WF S8192x256 S256x512 S8192x512 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf

class Facts : Prop extends Facts₀ where

variable [Facts]
-- ==== Proof.KRun.lean ====
/-
  The run of the whole program as a list of segments: four stretches of host operations around three kernel launches.
  The buffer contents at every boundary are a fold from the launch memory — a host stretch applies its operations, a launch
  replaces its windows' arrays by what its write-backs leave —; each launch is a region record over the thread state
  "every unscoped buffer at the boundary's contents, the generator register at some state, nothing owed", built from that
  launch's half (its proof data, body obligation and invariant), which this module takes as hypotheses; and the run ends
  with every unscoped buffer at the last boundary's contents.
-/
import proofs.«154593_j40999757807684_2_alg».proof.Proof.Gen.KernelIdeal.Launch
import proofs.«154593_j40999757807684_2_alg».proof.Proof.Gen.KernelIdeal.Skeleton
import proofs.«154593_j40999757807684_2_alg».proof.Proof.Gen.KernelIdeal.Points
import proofs.«154593_j40999757807684_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof data of launch 0 at entry contents `V` from what the body leaves in each window's staging buffer and the
    invariant between points: the arrays are `V`'s, held at full shares, nothing owed. -/
abbrev mk0 (V : (c : Dev nD) → (b : Ref sig .tc) → Buf (Elt F) ((c : Thread nD τ).loc b)) (c : Dev nD)
    (after : (w : Fin cfg0.W) → Fin cfg0.N → (cfg0.win w).block.Idx → Elt F (cfg0.win w).elt)
    (Φ : Fin (cfg0.N + 1) → sProp 𝕄) : Dat τ (Elt F) Unit ℕ (UR sig nD τ) ℕ cfg0 c where
  A w := V c (Pipeline.arrRef spec0 w)
  after := after
  Φ := Φ
  q _ := fullShare
  owed _ := 0

/-- What the run takes of launch 0's half, at every entry contents `V`: the staging contents after the body and the
    invariant; the body obligation at every point; the invariant entered from, and left at, the scoped rest beside the
    generator register. -/
structure Half0 (F : FTy → Type) [FloatOps F] where
  after : (V : (c : Dev nD) → (b : Ref sig .tc) → Buf (Elt F) ((c : Thread nD τ).loc b)) → (c : Dev nD) → (w : Fin cfg0.W) → Fin cfg0.N → (cfg0.win w).block.Idx → Elt F (cfg0.win w).elt
  Φ : (V : (c : Dev nD) → (b : Ref sig .tc) → Buf (Elt F) ((c : Thread nD τ).loc b)) → (c : Dev nD) → Fin (cfg0.N + 1) → sProp (MT nD τ sig Unit (Elt F) ℕ (UR sig nD τ) ℕ)
  body : ∀ V c, BodyObligation (mk0 V c (after V c) (Φ V c)) (defs₀ (F := F)) Variants.none () Set.univ
  hin : ∀ V c, (Pipeline.ΦA spec0 c : sProp (MT nD τ sig Unit (Elt F) ℕ (UR sig nD τ) ℕ)) ⊢ Φ V c 0
  hout : ∀ V c, Φ V c (Fin.last cfg0.N) ⊢ (Pipeline.ΦA spec0 c : sProp (MT nD τ sig Unit (Elt F) ℕ (UR sig nD τ) ℕ))

/-- Its proof data. -/
abbrev Half0.dat (H : Half0 F) (V : (c : Dev nD) → (b : Ref sig .tc) → Buf (Elt F) ((c : Thread nD τ).loc b)) (c : Dev nD) : Dat τ (Elt F) Unit ℕ (UR sig nD τ) ℕ cfg0 c :=
  mk0 V c (H.after V c) (H.Φ V c)
/-- The proof data of launch 1 at entry contents `V` from what the body leaves in each window's staging buffer and the
    invariant between points: the arrays are `V`'s, held at full shares, nothing owed. -/
abbrev mk1 (V : (c : Dev nD) → (b : Ref sig .tc) → Buf (Elt F) ((c : Thread nD τ).loc b)) (c : Dev nD)
    (after : (w : Fin cfg1.W) → Fin cfg1.N → (cfg1.win w).block.Idx → Elt F (cfg1.win w).elt)
    (Φ : Fin (cfg1.N + 1) → sProp 𝕄) : Dat τ (Elt F) Unit ℕ (UR sig nD τ) ℕ cfg1 c where
  A w := V c (Pipeline.arrRef spec1 w)
  after := after
  Φ := Φ
  q _ := fullShare
  owed _ := 0

/-- What the run takes of launch 1's half, at every entry contents `V`: the staging contents after the body and the
    invariant; the body obligation at every point; the invariant entered from, and left at, the scoped rest beside the
    generator register. -/
structure Half1 (F : FTy → Type) [FloatOps F] where
  after : (V : (c : Dev nD) → (b : Ref sig .tc) → Buf (Elt F) ((c : Thread nD τ).loc b)) → (c : Dev nD) → (w : Fin cfg1.W) → Fin cfg1.N → (cfg1.win w).block.Idx → Elt F (cfg1.win w).elt
  Φ : (V : (c : Dev nD) → (b : Ref sig .tc) → Buf (Elt F) ((c : Thread nD τ).loc b)) → (c : Dev nD) → Fin (cfg1.N + 1) → sProp (MT nD τ sig Unit (Elt F) ℕ (UR sig nD τ) ℕ)
  body : ∀ V c, BodyObligation (mk1 V c (after V c) (Φ V c)) (defs₀ (F := F)) Variants.none () Set.univ
  hin : ∀ V c, (Pipeline.ΦA spec1 c : sProp (MT nD τ sig Unit (Elt F) ℕ (UR sig nD τ) ℕ)) ⊢ Φ V c 0
  hout : ∀ V c, Φ V c (Fin.last cfg1.N) ⊢ (Pipeline.ΦA spec1 c : sProp (MT nD τ sig Unit (Elt F) ℕ (UR sig nD τ) ℕ))

/-- Its proof data. -/
abbrev Half1.dat (H : Half1 F) (V : (c : Dev nD) → (b : Ref sig .tc) → Buf (Elt F) ((c : Thread nD τ).loc b)) (c : Dev nD) : Dat τ (Elt F) Unit ℕ (UR sig nD τ) ℕ cfg1 c :=
  mk1 V c (H.after V c) (H.Φ V c)
/-- The proof data of launch 2 at entry contents `V` from what the body leaves in each window's staging buffer and the
    invariant between points: the arrays are `V`'s, held at full shares, nothing owed. -/
abbrev mk2 (V : (c : Dev nD) → (b : Ref sig .tc) → Buf (Elt F) ((c : Thread nD τ).loc b)) (c : Dev nD)
    (after : (w : Fin cfg2.W) → Fin cfg2.N → (cfg2.win w).block.Idx → Elt F (cfg2.win w).elt)
    (Φ : Fin (cfg2.N + 1) → sProp 𝕄) : Dat τ (Elt F) Unit ℕ (UR sig nD τ) ℕ cfg2 c where
  A w := V c (Pipeline.arrRef spec2 w)
  after := after
  Φ := Φ
  q _ := fullShare
  owed _ := 0

/-- What the run takes of launch 2's half, at every entry contents `V`: the staging contents after the body and the
    invariant; the body obligation at every point; the invariant entered from, and left at, the scoped rest beside the
    generator register. -/
structure Half2 (F : FTy → Type) [FloatOps F] where
  after : (V : (c : Dev nD) → (b : Ref sig .tc) → Buf (Elt F) ((c : Thread nD τ).loc b)) → (c : Dev nD) → (w : Fin cfg2.W) → Fin cfg2.N → (cfg2.win w).block.Idx → Elt F (cfg2.win w).elt
  Φ : (V : (c : Dev nD) → (b : Ref sig .tc) → Buf (Elt F) ((c : Thread nD τ).loc b)) → (c : Dev nD) → Fin (cfg2.N + 1) → sProp (MT nD τ sig Unit (Elt F) ℕ (UR sig nD τ) ℕ)
  body : ∀ V c, BodyObligation (mk2 V c (after V c) (Φ V c)) (defs₀ (F := F)) Variants.none () Set.univ
  hin : ∀ V c, (Pipeline.ΦA spec2 c : sProp (MT nD τ sig Unit (Elt F) ℕ (UR sig nD τ) ℕ)) ⊢ Φ V c 0
  hout : ∀ V c, Φ V c (Fin.last cfg2.N) ⊢ (Pipeline.ΦA spec2 c : sProp (MT nD τ sig Unit (Elt F) ℕ (UR sig nD τ) ℕ))

/-- Its proof data. -/
abbrev Half2.dat (H : Half2 F) (V : (c : Dev nD) → (b : Ref sig .tc) → Buf (Elt F) ((c : Thread nD τ).loc b)) (c : Dev nD) : Dat τ (Elt F) Unit ℕ (UR sig nD τ) ℕ cfg2 c :=
  mk2 V c (H.after V c) (H.Φ V c)

variable (H0 : Half0 F) (H1 : Half1 F) (H2 : Half2 F)
variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev VB1 : (c : Dev nD) → (b : Ref sig .tc) → Buf (Elt F) ((c : Thread nD τ).loc b) := fun c b => W1 m ρ c b

/-- At launch 0's exit: its arrays at what the write-backs leave, every other buffer as entered. -/
def W2 (c : Dev nD) : Valuation τ sig (Elt F) :=
  Pipeline.withArrays spec0 c (W1 m ρ c) fun w => (H0.dat (VB1 m ρ) c).arrAt w cfg0.N
theorem W2_arr (c : Dev nD) (w : Fin cfg0.W) :
    W2 H0 m ρ c (Proc.devRef .tc (Pipeline.arrRef spec0 w)) = (H0.dat (VB1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H0 m ρ c (Proc.devRef .tc b) = W1 m ρ c (Proc.devRef .tc b) := by
  unfold W2; exact Pipeline.withArrays_of_ne spec0 c _ _ b hb
abbrev VB2 : (c : Dev nD) → (b : Ref sig .tc) → Buf (Elt F) ((c : Thread nD τ).loc b) := fun c b => W2 H0 m ρ c b
theorem hF0 (c : Dev nD) (w : Fin cfg0.W) : (H0.dat (VB1 m ρ) c).arrAt w cfg0.N = VB2 H0 m ρ c (Pipeline.arrRef spec0 w) :=
  (W2_arr H0 m ρ c w).symm
theorem hrest0 (c : Dev nD) : ∀ b, b ∉ Finset.univ.image (Pipeline.arrRef spec0) → VB2 H0 m ρ c b = VB1 m ρ c b :=
  fun b hb => W2_of_ne H0 m ρ c b fun w e => hb (Finset.mem_image.mpr ⟨w, Finset.mem_univ _, e⟩)

/-- After the host stretch `hostOps1`. -/
abbrev W3 : Dev nD → Valuation τ sig (Elt F) := fun c => StableHlo.after hostOps1 (W2 H0 m ρ c)
abbrev VB3 : (c : Dev nD) → (b : Ref sig .tc) → Buf (Elt F) ((c : Thread nD τ).loc b) := fun c b => W3 H0 m ρ c b

/-- At launch 1's exit: its arrays at what the write-backs leave, every other buffer as entered. -/
def W4 (c : Dev nD) : Valuation τ sig (Elt F) :=
  Pipeline.withArrays spec1 c (W3 H0 m ρ c) fun w => (H1.dat (VB3 H0 m ρ) c).arrAt w cfg1.N
theorem W4_arr (c : Dev nD) (w : Fin cfg1.W) :
    W4 H0 H1 m ρ c (Proc.devRef .tc (Pipeline.arrRef spec1 w)) = (H1.dat (VB3 H0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H0 H1 m ρ c (Proc.devRef .tc b) = W3 H0 m ρ c (Proc.devRef .tc b) := by
  unfold W4; exact Pipeline.withArrays_of_ne spec1 c _ _ b hb
abbrev VB4 : (c : Dev nD) → (b : Ref sig .tc) → Buf (Elt F) ((c : Thread nD τ).loc b) := fun c b => W4 H0 H1 m ρ c b
theorem hF1 (c : Dev nD) (w : Fin cfg1.W) : (H1.dat (VB3 H0 m ρ) c).arrAt w cfg1.N = VB4 H0 H1 m ρ c (Pipeline.arrRef spec1 w) :=
  (W4_arr H0 H1 m ρ c w).symm
theorem hrest1 (c : Dev nD) : ∀ b, b ∉ Finset.univ.image (Pipeline.arrRef spec1) → VB4 H0 H1 m ρ c b = VB3 H0 m ρ c b :=
  fun b hb => W4_of_ne H0 H1 m ρ c b fun w e => hb (Finset.mem_image.mpr ⟨w, Finset.mem_univ _, e⟩)

/-- After the host stretch `hostOps2`. -/
abbrev W5 : Dev nD → Valuation τ sig (Elt F) := fun c => StableHlo.after hostOps2 (W4 H0 H1 m ρ c)
abbrev VB5 : (c : Dev nD) → (b : Ref sig .tc) → Buf (Elt F) ((c : Thread nD τ).loc b) := fun c b => W5 H0 H1 m ρ c b

/-- At launch 2's exit: its arrays at what the write-backs leave, every other buffer as entered. -/
def W6 (c : Dev nD) : Valuation τ sig (Elt F) :=
  Pipeline.withArrays spec2 c (W5 H0 H1 m ρ c) fun w => (H2.dat (VB5 H0 H1 m ρ) c).arrAt w cfg2.N
theorem W6_arr (c : Dev nD) (w : Fin cfg2.W) :
    W6 H0 H1 H2 m ρ c (Proc.devRef .tc (Pipeline.arrRef spec2 w)) = (H2.dat (VB5 H0 H1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 H0 H1 H2 m ρ c (Proc.devRef .tc b) = W5 H0 H1 m ρ c (Proc.devRef .tc b) := by
  unfold W6; exact Pipeline.withArrays_of_ne spec2 c _ _ b hb
abbrev VB6 : (c : Dev nD) → (b : Ref sig .tc) → Buf (Elt F) ((c : Thread nD τ).loc b) := fun c b => W6 H0 H1 H2 m ρ c b
theorem hF2 (c : Dev nD) (w : Fin cfg2.W) : (H2.dat (VB5 H0 H1 m ρ) c).arrAt w cfg2.N = VB6 H0 H1 H2 m ρ c (Pipeline.arrRef spec2 w) :=
  (W6_arr H0 H1 H2 m ρ c w).symm
theorem hrest2 (c : Dev nD) : ∀ b, b ∉ Finset.univ.image (Pipeline.arrRef spec2) → VB6 H0 H1 H2 m ρ c b = VB5 H0 H1 m ρ c b :=
  fun b hb => W6_of_ne H0 H1 H2 m ρ c b fun w e => hb (Finset.mem_image.mpr ⟨w, Finset.mem_univ _, e⟩)

/-- After the host stretch `hostOps3`. -/
abbrev W7 : Dev nD → Valuation τ sig (Elt F) := fun c => StableHlo.after hostOps3 (W6 H0 H1 H2 m ρ c)
abbrev VB7 : (c : Dev nD) → (b : Ref sig .tc) → Buf (Elt F) ((c : Thread nD τ).loc b) := fun c b => W7 H0 H1 H2 m ρ c b

/-! ## The proof data family and the thread state -/

/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => H0.dat (VB1 m ρ) c
  | ⟨1, _⟩ => fun c => H1.dat (VB3 H0 m ρ) c
  | ⟨2, _⟩ => fun c => H2.dat (VB5 H0 H1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 H0 H1 H2 m ρ c) ∗ ∃ r, prngReg c r)

/-! ## The launches as segments -/

set_option backward.isDefEq.respectTransparency.types false in
/-- Launch 0 over the thread state: entered from every unscoped buffer at `W1`, left at `W2`. Its arrays are split out of
    the unscoped buffers and put back at the exit contents; the generator register goes into the invariant and comes back;
    nothing is owed; the kernel has no semaphore of its own. -/
def reg0 : Pipeline.RegionSeg (pcfgs (F := F)) adm (pdats H0 H1 H2 m ρ) () defs₀ 𝒱₀ L lv 0 where
  win := launch0.win.to₀
  block_pos := launch0.block_pos
  stage_whole := launch0.stage_whole
  K := PEmpty
  osem k := k.elim
  ho := Pipeline.OwnSemFacts.none _
  hbody c := (H0.body (VB1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 H0 m ρ c) ∗ R c)
  X c := iprop(∃ r, prngReg c r)
  Y c := iprop(∃ r, prngReg c r)
  Z c := Pipeline.unscopedRest (Ix := Unit) (Name := ℕ) (U := UR sig nD τ) (Lvl := ℕ) spec0 c (VB1 m ρ c)
  hentry c := by
    rw [Pipeline.ownSems0_none]
    have hsplit := Pipeline.arrays_of_unscopedBufs (p := 0) (pcfgs (F := F)) adm (pdats H0 H1 H2 m ρ) launch0.win launch0.arr_whole c
      ((pdats H0 H1 H2 m ρ 0 c).share_full fun _ => rfl) (VB1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h1.trans (H0.hin (VB1 m ρ) c)
  hout c := by
    rw [Pipeline.ownSems0_none]
    have h1 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (H0.hout (VB1 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m ρ) ((pdats H0 H1 H2 m ρ 0 c).share_full fun _ => rfl)
      (VB1 m ρ c) (VB2 H0 m ρ c) ((pdats H0 H1 H2 m ρ 0 c).arrAt · cfg0.N) (hF0 H0 m ρ c) (hrest0 H0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are split out of
    the unscoped buffers and put back at the exit contents; the generator register goes into the invariant and comes back;
    nothing is owed; the kernel has no semaphore of its own. -/
def reg1 : Pipeline.RegionSeg (pcfgs (F := F)) adm (pdats H0 H1 H2 m ρ) () defs₀ 𝒱₀ L lv 1 where
  win := launch1.win.to₀
  block_pos := launch1.block_pos
  stage_whole := launch1.stage_whole
  K := PEmpty
  osem k := k.elim
  ho := Pipeline.OwnSemFacts.none _
  hbody c := (H1.body (VB3 H0 m ρ) c).loose
  hwaits := Pipeline.hwaits_of_owed_zero _ _ _ _ L lv 1 fun _ _ => rfl
  pre c := iprop(StableHlo.held (c : Thread nD τ) (Pipeline.ucRefs τ sig) (W3 H0 m ρ c) ∗ R c)
  post c := iprop(StableHlo.held (c : Thread nD τ) (Pipeline.ucRefs τ sig) (W4 H0 H1 m ρ c) ∗ R c)
  X c := iprop(∃ r, prngReg c r)
  Y c := iprop(∃ r, prngReg c r)
  Z c := Pipeline.unscopedRest (Ix := Unit) (Name := ℕ) (U := UR sig nD τ) (Lvl := ℕ) spec1 c (VB3 H0 m ρ c)
  hentry c := by
    rw [Pipeline.ownSems0_none]
    have hsplit := Pipeline.arrays_of_unscopedBufs (p := 1) (pcfgs (F := F)) adm (pdats H0 H1 H2 m ρ) launch1.win launch1.arr_whole c
      ((pdats H0 H1 H2 m ρ 1 c).share_full fun _ => rfl) (VB3 H0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (H1.hin (VB3 H0 m ρ) c)
  hout c := by
    rw [Pipeline.ownSems0_none]
    have h1 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (H1.hout (VB3 H0 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m ρ) ((pdats H0 H1 H2 m ρ 1 c).share_full fun _ => rfl)
      (VB3 H0 m ρ c) (VB4 H0 H1 m ρ c) ((pdats H0 H1 H2 m ρ 1 c).arrAt · cfg1.N) (hF1 H0 H1 m ρ c) (hrest1 H0 H1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are split out of
    the unscoped buffers and put back at the exit contents; the generator register goes into the invariant and comes back;
    nothing is owed; the kernel has no semaphore of its own. -/
def reg2 : Pipeline.RegionSeg (pcfgs (F := F)) adm (pdats H0 H1 H2 m ρ) () defs₀ 𝒱₀ L lv 2 where
  win := launch2.win.to₀
  block_pos := launch2.block_pos
  stage_whole := launch2.stage_whole
  K := PEmpty
  osem k := k.elim
  ho := Pipeline.OwnSemFacts.none _
  hbody c := (H2.body (VB5 H0 H1 m ρ) c).loose
  hwaits := Pipeline.hwaits_of_owed_zero _ _ _ _ L lv 2 fun _ _ => rfl
  pre c := iprop(StableHlo.held (c : Thread nD τ) (Pipeline.ucRefs τ sig) (W5 H0 H1 m ρ c) ∗ R c)
  post c := iprop(StableHlo.held (c : Thread nD τ) (Pipeline.ucRefs τ sig) (W6 H0 H1 H2 m ρ c) ∗ R c)
  X c := iprop(∃ r, prngReg c r)
  Y c := iprop(∃ r, prngReg c r)
  Z c := Pipeline.unscopedRest (Ix := Unit) (Name := ℕ) (U := UR sig nD τ) (Lvl := ℕ) spec2 c (VB5 H0 H1 m ρ c)
  hentry c := by
    rw [Pipeline.ownSems0_none]
    have hsplit := Pipeline.arrays_of_unscopedBufs (p := 2) (pcfgs (F := F)) adm (pdats H0 H1 H2 m ρ) launch2.win launch2.arr_whole c
      ((pdats H0 H1 H2 m ρ 2 c).share_full fun _ => rfl) (VB5 H0 H1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h1.trans (H2.hin (VB5 H0 H1 m ρ) c)
  hout c := by
    rw [Pipeline.ownSems0_none]
    have h1 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (H2.hout (VB5 H0 H1 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m ρ) ((pdats H0 H1 H2 m ρ 2 c).share_full fun _ => rfl)
      (VB5 H0 H1 m ρ c) (VB6 H0 H1 H2 m ρ c) ((pdats H0 H1 H2 m ρ 2 c).arrAt · cfg2.N) (hF2 H0 H1 H2 m ρ c) (hrest2 H0 H1 H2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev runSegs : List (Pipeline.Seg (pcfgs (F := F)) adm (pdats H0 H1 H2 m ρ) () defs₀ 𝒱₀ L lv) :=
  [ .host (hseg hostOps0 hostOps0_sub hostOps0_fresh (W0 m ρ)),
    .region (reg0 H0 H1 H2 m ρ),
    .host (hseg hostOps1 hostOps1_sub hostOps1_fresh (W2 H0 m ρ)),
    .region (reg1 H0 H1 H2 m ρ),
    .host (hseg hostOps2 hostOps2_sub hostOps2_fresh (W4 H0 H1 m ρ)),
    .region (reg2 H0 H1 H2 m ρ),
    .host (hseg hostOps3 hostOps3_sub hostOps3_fresh (W6 H0 H1 H2 m ρ)) ]
theorem main_run (c : Dev nD) : main (F := F) c = Pipeline.Seg.run (runSegs H0 H1 H2 m ρ) := (main_chain c).trans (by chain_rfl)

set_option backward.isDefEq.respectTransparency.types false in
/-- THE RUN: from any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 H0 H1 H2 m ρ c b) :=
  Pipeline.θ_run_regions_kit (pcfgs (F := F)) adm (pdats H0 H1 H2 m ρ) () cellOf_inj emb₁ defs₀ 𝒱₀ L lv m ρ main (runSegs H0 H1 H2 m ρ)
    (fun c Q => by rw [main_run H0 H1 H2 m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H0 H1 H2 m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 H0 H1 H2 m ρ c) ∗ R c)
        ⊢ iprop(Tₙ H0 H1 H2 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 H0 H1 H2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 H0 H1 H2 m ρ c) s')
      isplitl [Hh] <;> iassumption)
    (hQ := fun s h c => h c)

/-! ## Buffers an item leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 H0 m ρ c (Proc.devRef .tc r) = W2 H0 m ρ c (Proc.devRef .tc r) :=
  StableHlo.after_of_writes_sub hostOps1 _ hostOps1_writes h
theorem W5_of (c : Dev nD) (r : Ref sig .tc) (h : r ∉ hostOps2_W) : W5 H0 H1 m ρ c (Proc.devRef .tc r) = W4 H0 H1 m ρ c (Proc.devRef .tc r) :=
  StableHlo.after_of_writes_sub hostOps2 _ hostOps2_writes h
theorem W7_of (c : Dev nD) (r : Ref sig .tc) (h : r ∉ hostOps3_W) : W7 H0 H1 H2 m ρ c (Proc.devRef .tc r) = W6 H0 H1 H2 m ρ c (Proc.devRef .tc r) :=
  StableHlo.after_of_writes_sub hostOps3 _ hostOps3_writes h
/-- A launch leaves the array of an input window as it found it. -/
theorem W2_in (c : Dev nD) (w : Fin cfg0.W) (hin : (cfg0.win w).isOut = false) :
    W2 H0 m ρ c (Proc.devRef .tc (Pipeline.arrRef spec0 w)) = W1 m ρ c (Proc.devRef .tc (Pipeline.arrRef spec0 w)) :=
  (W2_arr H0 m ρ c w).trans ((H0.dat (VB1 m ρ) c).arrAt_in w hin _)
theorem W4_in (c : Dev nD) (w : Fin cfg1.W) (hin : (cfg1.win w).isOut = false) :
    W4 H0 H1 m ρ c (Proc.devRef .tc (Pipeline.arrRef spec1 w)) = W3 H0 m ρ c (Proc.devRef .tc (Pipeline.arrRef spec1 w)) :=
  (W4_arr H0 H1 m ρ c w).trans ((H1.dat (VB3 H0 m ρ) c).arrAt_in w hin _)
theorem W6_in (c : Dev nD) (w : Fin cfg2.W) (hin : (cfg2.win w).isOut = false) :
    W6 H0 H1 H2 m ρ c (Proc.devRef .tc (Pipeline.arrRef spec2 w)) = W5 H0 H1 m ρ c (Proc.devRef .tc (Pipeline.arrRef spec2 w)) :=
  (W6_arr H0 H1 H2 m ρ c w).trans ((H2.dat (VB5 H0 H1 m ρ) c).arrAt_in w hin _)

/-! ## The arguments end as launched -/
theorem W7_main_arg0 (c : Dev nD) : W7 H0 H1 H2 m ρ c (Proc.devRef .tc main_arg0) = m ((c : Thread nD τ).loc main_arg0) :=
  (W7_of H0 H1 H2 m ρ c main_arg0 (by decide)).trans <| (W6_of_ne H0 H1 H2 m ρ c main_arg0 (by decide)).trans <| (W5_of H0 H1 m ρ c main_arg0 (by decide)).trans <| (W4_of_ne H0 H1 m ρ c main_arg0 (by decide)).trans <|
    (W3_of H0 m ρ c main_arg0 (by decide)).trans <| (W2_of_ne H0 m ρ c main_arg0 (by decide)).trans <| (W1_of m ρ c main_arg0 (by decide)).trans rfl
theorem W7_main_arg1 (c : Dev nD) : W7 H0 H1 H2 m ρ c (Proc.devRef .tc main_arg1) = m ((c : Thread nD τ).loc main_arg1) :=
  (W7_of H0 H1 H2 m ρ c main_arg1 (by decide)).trans <| (W6_of_ne H0 H1 H2 m ρ c main_arg1 (by decide)).trans <| (W5_of H0 H1 m ρ c main_arg1 (by decide)).trans <| (W4_of_ne H0 H1 m ρ c main_arg1 (by decide)).trans <|
    (W3_of H0 m ρ c main_arg1 (by decide)).trans <| (W2_of_ne H0 m ρ c main_arg1 (by decide)).trans <| (W1_of m ρ c main_arg1 (by decide)).trans rfl
theorem W7_main_arg2 (c : Dev nD) : W7 H0 H1 H2 m ρ c (Proc.devRef .tc main_arg2) = m ((c : Thread nD τ).loc main_arg2) :=
  (W7_of H0 H1 H2 m ρ c main_arg2 (by decide)).trans <| (W6_of_ne H0 H1 H2 m ρ c main_arg2 (by decide)).trans <| (W5_of H0 H1 m ρ c main_arg2 (by decide)).trans <| (W4_of_ne H0 H1 m ρ c main_arg2 (by decide)).trans <|
    (W3_of H0 m ρ c main_arg2 (by decide)).trans <| (W2_in H0 m ρ c 2 rfl).trans <| (W1_of m ρ c main_arg2 (by decide)).trans rfl
theorem W7_main_arg3 (c : Dev nD) : W7 H0 H1 H2 m ρ c (Proc.devRef .tc main_arg3) = m ((c : Thread nD τ).loc main_arg3) :=
  (W7_of H0 H1 H2 m ρ c main_arg3 (by decide)).trans <| (W6_of_ne H0 H1 H2 m ρ c main_arg3 (by decide)).trans <| (W5_of H0 H1 m ρ c main_arg3 (by decide)).trans <| (W4_of_ne H0 H1 m ρ c main_arg3 (by decide)).trans <|
    (W3_of H0 m ρ c main_arg3 (by decide)).trans <| (W2_of_ne H0 m ρ c main_arg3 (by decide)).trans <| (W1_of m ρ c main_arg3 (by decide)).trans rfl
theorem W7_main_arg4 (c : Dev nD) : W7 H0 H1 H2 m ρ c (Proc.devRef .tc main_arg4) = m ((c : Thread nD τ).loc main_arg4) :=
  (W7_of H0 H1 H2 m ρ c main_arg4 (by decide)).trans <| (W6_of_ne H0 H1 H2 m ρ c main_arg4 (by decide)).trans <| (W5_of H0 H1 m ρ c main_arg4 (by decide)).trans <| (W4_of_ne H0 H1 m ρ c main_arg4 (by decide)).trans <|
    (W3_of H0 m ρ c main_arg4 (by decide)).trans <| (W2_in H0 m ρ c 4 rfl).trans <| (W1_of m ρ c main_arg4 (by decide)).trans rfl
theorem W7_main_arg5 (c : Dev nD) : W7 H0 H1 H2 m ρ c (Proc.devRef .tc main_arg5) = m ((c : Thread nD τ).loc main_arg5) :=
  (W7_of H0 H1 H2 m ρ c main_arg5 (by decide)).trans <| (W6_of_ne H0 H1 H2 m ρ c main_arg5 (by decide)).trans <| (W5_of H0 H1 m ρ c main_arg5 (by decide)).trans <| (W4_of_ne H0 H1 m ρ c main_arg5 (by decide)).trans <|
    (W3_of H0 m ρ c main_arg5 (by decide)).trans <| (W2_of_ne H0 m ρ c main_arg5 (by decide)).trans <| (W1_of m ρ c main_arg5 (by decide)).trans rfl
theorem W7_main_arg6 (c : Dev nD) : W7 H0 H1 H2 m ρ c (Proc.devRef .tc main_arg6) = m ((c : Thread nD τ).loc main_arg6) :=
  (W7_of H0 H1 H2 m ρ c main_arg6 (by decide)).trans <| (W6_of_ne H0 H1 H2 m ρ c main_arg6 (by decide)).trans <| (W5_of H0 H1 m ρ c main_arg6 (by decide)).trans <| (W4_of_ne H0 H1 m ρ c main_arg6 (by decide)).trans <|
    (W3_of H0 m ρ c main_arg6 (by decide)).trans <| (W2_in H0 m ρ c 6 rfl).trans <| (W1_of m ρ c main_arg6 (by decide)).trans rfl
theorem W7_main_arg7 (c : Dev nD) : W7 H0 H1 H2 m ρ c (Proc.devRef .tc main_arg7) = m ((c : Thread nD τ).loc main_arg7) :=
  (W7_of H0 H1 H2 m ρ c main_arg7 (by decide)).trans <| (W6_of_ne H0 H1 H2 m ρ c main_arg7 (by decide)).trans <| (W5_of H0 H1 m ρ c main_arg7 (by decide)).trans <| (W4_of_ne H0 H1 m ρ c main_arg7 (by decide)).trans <|
    (W3_of H0 m ρ c main_arg7 (by decide)).trans <| (W2_of_ne H0 m ρ c main_arg7 (by decide)).trans <| (W1_of m ρ c main_arg7 (by decide)).trans rfl
theorem W7_main_arg8 (c : Dev nD) : W7 H0 H1 H2 m ρ c (Proc.devRef .tc main_arg8) = m ((c : Thread nD τ).loc main_arg8) :=
  (W7_of H0 H1 H2 m ρ c main_arg8 (by decide)).trans <| (W6_of_ne H0 H1 H2 m ρ c main_arg8 (by decide)).trans <| (W5_of H0 H1 m ρ c main_arg8 (by decide)).trans <| (W4_in H0 H1 m ρ c 2 rfl).trans <|
    (W3_of H0 m ρ c main_arg8 (by decide)).trans <| (W2_of_ne H0 m ρ c main_arg8 (by decide)).trans <| (W1_of m ρ c main_arg8 (by decide)).trans rfl
theorem W7_main_arg9 (c : Dev nD) : W7 H0 H1 H2 m ρ c (Proc.devRef .tc main_arg9) = m ((c : Thread nD τ).loc main_arg9) :=
  (W7_of H0 H1 H2 m ρ c main_arg9 (by decide)).trans <| (W6_of_ne H0 H1 H2 m ρ c main_arg9 (by decide)).trans <| (W5_of H0 H1 m ρ c main_arg9 (by decide)).trans <| (W4_of_ne H0 H1 m ρ c main_arg9 (by decide)).trans <|
    (W3_of H0 m ρ c main_arg9 (by decide)).trans <| (W2_of_ne H0 m ρ c main_arg9 (by decide)).trans <| (W1_of m ρ c main_arg9 (by decide)).trans rfl
theorem W7_main_arg10 (c : Dev nD) : W7 H0 H1 H2 m ρ c (Proc.devRef .tc main_arg10) = m ((c : Thread nD τ).loc main_arg10) :=
  (W7_of H0 H1 H2 m ρ c main_arg10 (by decide)).trans <| (W6_of_ne H0 H1 H2 m ρ c main_arg10 (by decide)).trans <| (W5_of H0 H1 m ρ c main_arg10 (by decide)).trans <| (W4_of_ne H0 H1 m ρ c main_arg10 (by decide)).trans <|
    (W3_of H0 m ρ c main_arg10 (by decide)).trans <| (W2_of_ne H0 m ρ c main_arg10 (by decide)).trans <| (W1_of m ρ c main_arg10 (by decide)).trans rfl
theorem W7_main_arg11 (c : Dev nD) : W7 H0 H1 H2 m ρ c (Proc.devRef .tc main_arg11) = m ((c : Thread nD τ).loc main_arg11) :=
  (W7_of H0 H1 H2 m ρ c main_arg11 (by decide)).trans <| (W6_of_ne H0 H1 H2 m ρ c main_arg11 (by decide)).trans <| (W5_of H0 H1 m ρ c main_arg11 (by decide)).trans <| (W4_of_ne H0 H1 m ρ c main_arg11 (by decide)).trans <|
    (W3_of H0 m ρ c main_arg11 (by decide)).trans <| (W2_of_ne H0 m ρ c main_arg11 (by decide)).trans <| (W1_of m ρ c main_arg11 (by decide)).trans rfl

include H0 H1 H2 in
set_option backward.isDefEq.respectTransparency.types false in
/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 H0 H1 H2 m ρ c),
    (h c _ (mem_uc main_arg1 (by decide))).trans (W7_main_arg1 H0 H1 H2 m ρ c),
    (h c _ (mem_uc main_arg2 (by decide))).trans (W7_main_arg2 H0 H1 H2 m ρ c),
    (h c _ (mem_uc main_arg3 (by decide))).trans (W7_main_arg3 H0 H1 H2 m ρ c),
    (h c _ (mem_uc main_arg4 (by decide))).trans (W7_main_arg4 H0 H1 H2 m ρ c),
    (h c _ (mem_uc main_arg5 (by decide))).trans (W7_main_arg5 H0 H1 H2 m ρ c),
    (h c _ (mem_uc main_arg6 (by decide))).trans (W7_main_arg6 H0 H1 H2 m ρ c),
    (h c _ (mem_uc main_arg7 (by decide))).trans (W7_main_arg7 H0 H1 H2 m ρ c),
    (h c _ (mem_uc main_arg8 (by decide))).trans (W7_main_arg8 H0 H1 H2 m ρ c),
    (h c _ (mem_uc main_arg9 (by decide))).trans (W7_main_arg9 H0 H1 H2 m ρ c),
    (h c _ (mem_uc main_arg10 (by decide))).trans (W7_main_arg10 H0 H1 H2 m ρ c),
    (h c _ (mem_uc main_arg11 (by decide))).trans (W7_main_arg11 H0 H1 H2 m ρ c)⟩)
    (run_all H0 H1 H2 m ρ)

end Cert.KernelIdeal.Gen

end
-- ==== Proof.K0Runs.lean ====
import proofs.«154593_j40999757807684_2_alg».proof.Proof.Gen.KernelIdeal.Launch
import proofs.«154593_j40999757807684_2_alg».proof.Proof.Gen.KernelIdeal.Skeleton
import proofs.«154593_j40999757807684_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if`, from the grid coordinates: coordinate 1 is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if`, from the grid coordinates: coordinate 1 is 3. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- Window 8 is never idle. -/
theorem liveAt0_8 : ∀ t : Fin cfg0.N, cfg0.idle 8 (grid0.coords t) = false := by decide +kernel
/-- At the points of case A output 9 is idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B output 9 is idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C output 9 is live: the case stores into it. -/
theorem liveAt0_9_C : ∀ t : Fin cfg0.N, ¬cond0_0 (grid0.coords t) → cond0_1 (grid0.coords t) → cfg0.idle 9 (grid0.coords t) = false := by decide +kernel

/-! ## The staging and scratch memrefs -/

/-- One staging buffer of each output window, through which its contents are stated. -/
abbrev VO0_8 : View sig .tc .vmem S1024x256 .f32 := (Memref.whole cc0_stg8_0 : Memref sig .tc .vmem S1024x256 .f32).view
abbrev VO0_9 : View sig .tc .vmem S1x256x256 .f32 := (Memref.whole cc0_stg9_0 : Memref sig .tc .vmem S1x256x256 .f32).view
/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x256 .f32 := win0_9.stage (cfg0.slots t 9)
abbrev hs0_9 (t : Fin cfg0.N) : (ms0_9 t).IsWhole := hstage0_9 ((cfg0.slots t 9).cast nbuf0_9)
/-- The scratch operand: a whole scoped buffer of the kernel's own, passed beside the windows. -/
abbrev scM0_0 : Memref sig .tc .vmem S256x256 .f32 := Memref.whole cc0_scratch0
/-- The scratch the kernel carries between points, as a view: what it holds is stated through it. -/
abbrev VS0_0 : View sig .tc .vmem S256x256 .f32 := scM0_0.view

/-- Every scoped buffer of the core that is neither a staging buffer of this call nor its scratch, at some contents
    each: carried through the region unopened. -/
abbrev Rest0 (c : Dev nD) : sProp 𝕄 :=
  Pipeline.scopedRestBut (Ix := Unit) (Name := ℕ) (U := UR sig nD τ) (Lvl := ℕ) (Val := Elt F) spec0 c [cc0_scratch0]

/-- The scoped rest split at the call's own scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ Rest0 c) :=
  Pipeline.scopedRest_split_of_list spec0 c [cc0_scratch0] (by decide) (by decide)

/-- The region invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

end Region0

end Cert.KernelIdeal.Gen

end
-- ==== Proof.K0RunA.lean ====
import proofs.«154593_j40999757807684_2_alg».proof.Proof.K0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), in case A
    (the first `scf.if` taken, the second not: points 0, 4), with the proof that on whole staging memrefs — the inputs' at their contents `x·`, output 9's (no store: idle) at contents `xi9` handed back untouched, the
    other output's at anything, the scratch at anything — the body runs to the continuation holding the inputs' as they were,
    each stored buffer with its pieces written: the body is its skeleton of loads and stores, run operation by operation,
    each `scf.if` decided by the case's hypotheses; the pieces are the witness that run finds. -/
noncomputable def kernelRun0_A (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    Σ' (L8 : List (View.Piece (Elt F) S1024x256 .f32)) (L9 : List (View.Piece (Elt F) S1x256x256 .f32)), { LS0 : List (View.Piece (Elt F) S256x256 .f32) //
      ∀ (xi9 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.KernelIdeal.Gen

end
-- ==== Proof.K0RunB.lean ====
import proofs.«154593_j40999757807684_2_alg».proof.Proof.K0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), in case B
    (neither `scf.if` taken: points 1, 2, 5, 6), with the proof that on whole staging memrefs — the inputs' at their contents `x·`, output 9's (no store: idle) at contents `xi9` handed back untouched, the
    other output's at anything, the scratch at the contents `xs0` the point before left — the body runs to the continuation holding the inputs' as they were,
    each stored buffer with its pieces written: the body is its skeleton of loads and stores, run operation by operation,
    each `scf.if` decided by the case's hypotheses; the pieces are the witness that run finds. -/
noncomputable def kernelRun0_B (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) :
    Σ' (L8 : List (View.Piece (Elt F) S1024x256 .f32)) (L9 : List (View.Piece (Elt F) S1x256x256 .f32)), { LS0 : List (View.Piece (Elt F) S256x256 .f32) //
      ∀ (xi9 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.KernelIdeal.Gen

end
-- ==== Proof.K0RunC.lean ====
import proofs.«154593_j40999757807684_2_alg».proof.Proof.K0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), in case C
    (the first `scf.if` not taken, the second taken: points 3, 7), with the proof that on whole staging memrefs — the inputs' at their contents `x·`, the
    outputs' at anything, the scratch at the contents `xs0` the point before left — the body runs to the continuation holding the inputs' as they were,
    each stored buffer with its pieces written: the body is its skeleton of loads and stores, run operation by operation,
    each `scf.if` decided by the case's hypotheses; the pieces are the witness that run finds. -/
noncomputable def kernelRun0_C (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) :
    Σ' (L8 : List (View.Piece (Elt F) S1024x256 .f32)) (L9 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Gen

end
-- ==== Proof.K0Frame.lean ====
import proofs.«154593_j40999757807684_2_alg».proof.Proof.K0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves in the outputs' buffers and in the scratch -/

/-- Case A's pieces for output 8 tile its block, so they cover it. -/
theorem cover0_A_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S1024x256.size (by sl_kernel_rfl) y

/-- What case A leaves in output 8's staging buffer: its pieces read back over junk. -/
def out0_A_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : Vec F S1024x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- Case A stores nothing into output 9 (the window is idle at its points and not written back there): no pieces — a
    placeholder that nothing consults. -/
def out0_A_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : Vec F S1x256x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

/-- Case A's pieces for the scratch, which the kernel carries between points, cover it. -/
theorem scover0_A_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S256x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S256x256.size (by sl_kernel_rfl) y

/-- What case A leaves in the scratch: its pieces read back over junk. -/
def sout0_A_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : Vec F S256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Case B's pieces for output 8 tile its block, so they cover it. -/
theorem cover0_B_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1024x256.size (by sl_kernel_rfl) y

/-- What case B leaves in output 8's staging buffer: its pieces read back over junk. -/
def out0_B_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1024x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Case B stores nothing into output 9 (the window is idle at its points and not written back there): no pieces — a
    placeholder that nothing consults. -/
def out0_B_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1x256x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Case B's pieces for the scratch, which the kernel carries between points, cover it. -/
theorem scover0_B_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S256x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S256x256.size (by sl_kernel_rfl) y

/-- What case B leaves in the scratch: its pieces read back over junk. -/
def sout0_B_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Case C's pieces for output 8 tile its block, so they cover it. -/
theorem cover0_C_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1024x256.size (by sl_kernel_rfl) y

/-- What case C leaves in output 8's staging buffer: its pieces read back over junk. -/
def out0_C_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1024x256 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Case C's pieces for output 9 tile its block, so they cover it. -/
theorem cover0_C_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S1x256x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x256x256.size (by sl_kernel_rfl) y

/-- What case C leaves in output 9's staging buffer: its pieces read back over junk. -/
def out0_C_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1x256x256 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Case C's pieces for the scratch, which the kernel carries between points, cover it. -/
theorem scover0_C_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S256x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S256x256.size (by sl_kernel_rfl) y

/-- What case C leaves in the scratch: its pieces read back over junk. -/
def sout0_C_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S256x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-! ## What the outputs and the scratch hold after each point -/

/-- The accumulation. What the outputs' staging buffers and the scratch hold after the body at position `n` (output 8, output 9,
    the scratch): the case the closed forms select at `n`, run at the point's memrefs and input blocks, the scratch at what
    this leaves at `n - 1`. An assignment of the conditions no point meets is no case. -/
def outsAt0 (c : Dev nD) : (n : ℕ) → n < cfg0.N → Vec F S1024x256 .f32 × Vec F S1x256x256 .f32 × Vec F S256x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 4 = 0 then
      if h1 : (n + 1) % 4 = 3 then
        False.elim (by have hN : n + 1 < 8 := lt_of_lt_of_eq hn (show cfg0.N = 8 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h1 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the scoped rest with the carried scratch at what the point before left in it, the other scoped buffers at anything, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
  Φ t := PhiS0 V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point: the inputs' memrefs hold their blocks; the closed forms say which case the point is in; so that
    case's run applies; the invariant hands the body the carried scratch at what the point before left (at anything at the
    first point) and the other scoped buffers and the generator register, and takes the scratch back at this point's contents;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
      rw [outsAt0_A V c t h0 h1]
      unfold out0_A_8 sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexists _; iexact HS0
        iintro ⟨H0, H1, H2, H3, H4, H5, H6, H7, ⟨%e8, H8⟩, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold out0_C_8 out0_C_9 sout0_C_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold out0_B_8 sout0_B_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Region0

end Cert.KernelIdeal.Gen

end
-- ==== Proof.K1Runs.lean ====
import proofs.«154593_j40999757807684_2_alg».proof.Proof.Gen.KernelIdeal.Launch
import proofs.«154593_j40999757807684_2_alg».proof.Proof.Gen.KernelIdeal.Skeleton
import proofs.«154593_j40999757807684_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # REGION 1 of @main: custom_call 1 (pipeline 1), at the entry contents `V` — what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (grid coordinate 1 is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (grid coordinate 1 is 3), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle (the configuration's table `Cfg.idle`) -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- At the points of case A the configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the configuration calls output 5 live: the case stores into it. -/
theorem liveAt1_5_C : ∀ t : Fin cfg1.N, ¬cond1_0 (grid1.coords t) → cond1_1 (grid1.coords t) → cfg1.idle 5 (grid1.coords t) = false := by decide +kernel
/-- At the points of case A the configuration calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the configuration calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the configuration calls output 6 live: the case stores into it. -/
theorem liveAt1_6_C : ∀ t : Fin cfg1.N, ¬cond1_0 (grid1.coords t) → cond1_1 (grid1.coords t) → cfg1.idle 6 (grid1.coords t) = false := by decide +kernel

/-! ## The kernel body on any staging memrefs: the memrefs the runs are stated over -/

/-- One staging buffer of each output window, through which its contents are stated (the choice does not matter). -/
abbrev VO1_4 : View sig .tc .vmem S1024x512 .f32 := (Memref.whole cc1_stg4_0 : Memref sig .tc .vmem S1024x512 .f32).view
abbrev VO1_5 : View sig .tc .vmem S1x1x512 .f32 := (Memref.whole cc1_stg5_0 : Memref sig .tc .vmem S1x1x512 .f32).view
abbrev VO1_6 : View sig .tc .vmem S1x1x512 .f32 := (Memref.whole cc1_stg6_0 : Memref sig .tc .vmem S1x1x512 .f32).view
/-- Each window's current staging memref at point `t`, spelled as the pipeline passes it (`bodyAt1`), and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x512 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S1x512 .f32 := Memref.whole cc1_scratch0
abbrev scM1_1 : Memref sig .tc .vmem S1x512 .f32 := Memref.whole cc1_scratch1
/-- The scratches the kernel carries between points, as views: what they hold is stated through them. -/
abbrev VS1_0 : View sig .tc .vmem S1x512 .f32 := scM1_0.view
abbrev VS1_1 : View sig .tc .vmem S1x512 .f32 := scM1_1.view

/-- The remainder of the scoped rest once the call's own scratch operands are split off: untouched by the body. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The region's invariant with the scratch operands as memrefs owned at some contents (the scoped rest split at
    them, a whole buffer's points-to being the whole memref's `owns`): what the body obligation hands the run and
    takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_split]; simp only [scM1_0, scM1_1, owns_whole]; try rfl

end Cert.KernelIdeal.Gen

end
-- ==== Proof.K1RunA.lean ====
import proofs.«154593_j40999757807684_2_alg».proof.Proof.K1Runs

-- membership in a rectangle of long extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in each output's staging memref and in the two carried scratches, as pieces (last
    first), in case A (first `scf.if` taken, second not: points 0, 4), with the proof that on whole staging memrefs — the inputs' at their contents, output 4's at
    anything, outputs 5 and 6 (no store: idle at the case's points) at contents `xi·` handed back untouched, the
    carried scratches at anything (the case stores them whole before reading them) — the body runs to the continuation holding the inputs'
    as they were and each stored buffer with its pieces written. The printed functions are their skeletons, which the
    executor runs, each `scf.if` decided by the case's hypotheses; the pieces are the witness that run finds. -/
noncomputable def kernelRun1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) :
    Σ' (L4 : List (View.Piece (Elt F) S1024x512 .f32)), Σ' (L5 : List (View.Piece (Elt F) S1x1x512 .f32)), Σ' (L6 : List (View.Piece (Elt F) S1x1x512 .f32)), Σ' (LS0 : List (View.Piece (Elt F) S1x512 .f32)), { LS1 : List (View.Piece (Elt F) S1x512 .f32) //
      ∀ (xi5 : Vec F S1x1x512 .f32) (xi6 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, [], [], ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Gen

end
-- ==== Proof.K1RunB.lean ====
import proofs.«154593_j40999757807684_2_alg».proof.Proof.K1RunA

-- membership in a rectangle of long extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in each output's staging memref and in the two carried scratches, as pieces (last
    first), in case B (neither `scf.if` taken: points 1, 2, 5, 6), with the proof that on whole staging memrefs — the inputs' at their contents, output 4's at
    anything, outputs 5 and 6 (no store: idle at the case's points) at contents `xi·` handed back untouched, the
    carried scratches at the contents `xs·` the point before left — the body runs to the continuation holding the inputs'
    as they were and each stored buffer with its pieces written. The printed functions are their skeletons, which the
    executor runs, each `scf.if` decided by the case's hypotheses; the pieces are the witness that run finds. -/
noncomputable def kernelRun1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) :
    Σ' (L4 : List (View.Piece (Elt F) S1024x512 .f32)), Σ' (L5 : List (View.Piece (Elt F) S1x1x512 .f32)), Σ' (L6 : List (View.Piece (Elt F) S1x1x512 .f32)), Σ' (LS0 : List (View.Piece (Elt F) S1x512 .f32)), { LS1 : List (View.Piece (Elt F) S1x512 .f32) //
      ∀ (xi5 : Vec F S1x1x512 .f32) (xi6 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, [], [], ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Gen

end
-- ==== Proof.K1RunC.lean ====
import proofs.«154593_j40999757807684_2_alg».proof.Proof.K1RunB

-- membership in a rectangle of long extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in each output's staging memref and in the two carried scratches, as pieces (last
    first), in case C (second `scf.if` taken, first not: points 3, 7), with the proof that on whole staging memrefs — the inputs' at their contents, output 4's at
    anything, outputs 5 and 6 at anything, the
    carried scratches at the contents `xs·` the point before left — the body runs to the continuation holding the inputs'
    as they were and each stored buffer with its pieces written. The printed functions are their skeletons, which the
    executor runs, each `scf.if` decided by the case's hypotheses; the pieces are the witness that run finds. -/
noncomputable def kernelRun1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    Σ' (L4 : List (View.Piece (Elt F) S1024x512 .f32)), Σ' (L5 : List (View.Piece (Elt F) S1x1x512 .f32)), Σ' (L6 : List (View.Piece (Elt F) S1x1x512 .f32)), Σ' (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Gen

end
-- ==== Proof.K1Frame.lean ====
import proofs.«154593_j40999757807684_2_alg».proof.Proof.K1RunC

-- membership in a rectangle of long extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # REGION 1 of @main: custom_call 1 (pipeline 1), at the entry contents `V` — the rest of its half -/

/-! ## What each case leaves in the outputs' buffers and in the carried scratches -/

/-- case A's pieces for output 4 tile its block (one whole store), so they cover it. -/
theorem cover1_A_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) (y : S1024x512.Idx) :
    ∃ pc ∈ (kernelRun1_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).1 S1024x512.size (by sl_kernel_rfl) y

/-- What case A leaves in output 4's staging buffer: its pieces read back over junk. -/
def out1_A_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1024x512 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 hc1 x0 x1 x2 x3).1)

/-- case A stores nothing into output 5 (the window is idle at its points and not written back there): no
    pieces — a placeholder (junk read back) that nothing consults, since at these points the window is neither written
    back nor read at the next point. -/
def out1_A_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x1x512 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3).2.1)

/-- case A stores nothing into output 6 (the window is idle at its points and not written back there): no
    pieces — a placeholder (junk read back) that nothing consults, since at these points the window is neither written
    back nor read at the next point. -/
def out1_A_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x1x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3).2.2.1)

/-- case A's pieces for carried scratch 0 cover it (whole stores). -/
theorem scover1_A_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) (y : S1x512.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.1 S1x512.size (by sl_kernel_rfl) y

/-- What case A leaves in carried scratch 0: its pieces read back over junk. -/
def sout1_A_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3).2.2.2.1)

/-- case A's pieces for carried scratch 1 cover it (whole stores). -/
theorem scover1_A_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) (y : S1x512.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.2.1 S1x512.size (by sl_kernel_rfl) y

/-- What case A leaves in carried scratch 1: its pieces read back over junk. -/
def sout1_A_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x512 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3).2.2.2.2.1)

/-- What case A leaves, as a tuple: the outputs in window order, then the two carried scratches. -/
def outs1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1024x512 .f32 × Vec F S1x1x512 .f32 × Vec F S1x1x512 .f32 × Vec F S1x512 .f32 × Vec F S1x512 .f32 :=
  (out1_A_4 c i arg2 harg2 arg3 harg3 arg4 harg4 arg5 harg5 arg6 harg6 arg7 harg7 arg8 harg8 arg9 harg9 arg10 harg10 hc0 hc1 x0 x1 x2 x3, out1_A_5 c i arg2 harg2 arg3 harg3 arg4 harg4 arg5 harg5 arg6 harg6 arg7 harg7 arg8 harg8 arg9 harg9 arg10 harg10 hc0 hc1 x0 x1 x2 x3, out1_A_6 c i arg2 harg2 arg3 harg3 arg4 harg4 arg5 harg5 arg6 harg6 arg7 harg7 arg8 harg8 arg9 harg9 arg10 harg10 hc0 hc1 x0 x1 x2 x3, sout1_A_0 c i arg2 harg2 arg3 harg3 arg4 harg4 arg5 harg5 arg6 harg6 arg7 harg7 arg8 harg8 arg9 harg9 arg10 harg10 hc0 hc1 x0 x1 x2 x3, sout1_A_1 c i arg2 harg2 arg3 harg3 arg4 harg4 arg5 harg5 arg6 harg6 arg7 harg7 arg8 harg8 arg9 harg9 arg10 harg10 hc0 hc1 x0 x1 x2 x3)

/-- case B's pieces for output 4 tile its block (one whole store), so they cover it. -/
theorem cover1_B_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1024x512.Idx) :
    ∃ pc ∈ (kernelRun1_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0 xs1).1 S1024x512.size (by sl_kernel_rfl) y

/-- What case B leaves in output 4's staging buffer: its pieces read back over junk. -/
def out1_B_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 hc1 x0 x1 x2 x3 xs0 xs1).1)

/-- case B stores nothing into output 5 (the window is idle at its points and not written back there): no
    pieces — a placeholder (junk read back) that nothing consults, since at these points the window is neither written
    back nor read at the next point. -/
def out1_B_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 xs0 xs1).2.1)

/-- case B stores nothing into output 6 (the window is idle at its points and not written back there): no
    pieces — a placeholder (junk read back) that nothing consults, since at these points the window is neither written
    back nor read at the next point. -/
def out1_B_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 xs0 xs1).2.2.1)

/-- case B's pieces for carried scratch 0 cover it (whole stores). -/
theorem scover1_B_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_B c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0 xs1).2.2.2.1 S1x512.size (by sl_kernel_rfl) y

/-- What case B leaves in carried scratch 0: its pieces read back over junk. -/
def sout1_B_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 xs0 xs1).2.2.2.1)

/-- case B's pieces for carried scratch 1 cover it (whole stores). -/
theorem scover1_B_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_B c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0 xs1).2.2.2.2.1 S1x512.size (by sl_kernel_rfl) y

/-- What case B leaves in carried scratch 1: its pieces read back over junk. -/
def sout1_B_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 xs0 xs1).2.2.2.2.1)

/-- What case B leaves, as a tuple: the outputs in window order, then the two carried scratches. -/
def outs1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 × Vec F S1x1x512 .f32 × Vec F S1x1x512 .f32 × Vec F S1x512 .f32 × Vec F S1x512 .f32 :=
  (out1_B_4 c i arg2 harg2 arg3 harg3 arg4 harg4 arg5 harg5 arg6 harg6 arg7 harg7 arg8 harg8 arg9 harg9 arg10 harg10 hc0 hc1 x0 x1 x2 x3 xs0 xs1, out1_B_5 c i arg2 harg2 arg3 harg3 arg4 harg4 arg5 harg5 arg6 harg6 arg7 harg7 arg8 harg8 arg9 harg9 arg10 harg10 hc0 hc1 x0 x1 x2 x3 xs0 xs1, out1_B_6 c i arg2 harg2 arg3 harg3 arg4 harg4 arg5 harg5 arg6 harg6 arg7 harg7 arg8 harg8 arg9 harg9 arg10 harg10 hc0 hc1 x0 x1 x2 x3 xs0 xs1, sout1_B_0 c i arg2 harg2 arg3 harg3 arg4 harg4 arg5 harg5 arg6 harg6 arg7 harg7 arg8 harg8 arg9 harg9 arg10 harg10 hc0 hc1 x0 x1 x2 x3 xs0 xs1, sout1_B_1 c i arg2 harg2 arg3 harg3 arg4 harg4 arg5 harg5 arg6 harg6 arg7 harg7 arg8 harg8 arg9 harg9 arg10 harg10 hc0 hc1 x0 x1 x2 x3 xs0 xs1)

/-- case C's pieces for output 4 tile its block (one whole store), so they cover it. -/
theorem cover1_C_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1024x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).1 S1024x512.size (by sl_kernel_rfl) y

/-- What case C leaves in output 4's staging buffer: its pieces read back over junk. -/
def out1_C_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 x0 x1 x2 x3 xs0 xs1).1)

/-- case C's pieces for output 5 tile its block (one whole store), so they cover it. -/
theorem cover1_C_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.1 S1x1x512.size (by sl_kernel_rfl) y

/-- What case C leaves in output 5's staging buffer: its pieces read back over junk. -/
def out1_C_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 xs0 xs1).2.1)

/-- case C's pieces for output 6 tile its block (one whole store), so they cover it. -/
theorem cover1_C_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.2.1 S1x1x512.size (by sl_kernel_rfl) y

/-- What case C leaves in output 6's staging buffer: its pieces read back over junk. -/
def out1_C_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 xs0 xs1).2.2.1)

/-- case C's pieces for carried scratch 0 cover it (whole stores). -/
theorem scover1_C_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.2.2.1 S1x512.size (by sl_kernel_rfl) y

/-- What case C leaves in carried scratch 0: its pieces read back over junk. -/
def sout1_C_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 xs0 xs1).2.2.2.1)

/-- case C's pieces for carried scratch 1 cover it (whole stores). -/
theorem scover1_C_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.2.2.2.1 S1x512.size (by sl_kernel_rfl) y

/-- What case C leaves in carried scratch 1: its pieces read back over junk. -/
def sout1_C_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 xs0 xs1).2.2.2.2.1)

/-- What case C leaves, as a tuple: the outputs in window order, then the two carried scratches. -/
def outs1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 × Vec F S1x1x512 .f32 × Vec F S1x1x512 .f32 × Vec F S1x512 .f32 × Vec F S1x512 .f32 :=
  (out1_C_4 c i arg2 harg2 arg3 harg3 arg4 harg4 arg5 harg5 arg6 harg6 arg7 harg7 arg8 harg8 arg9 harg9 arg10 harg10 hc0 hc1 x0 x1 x2 x3 xs0 xs1, out1_C_5 c i arg2 harg2 arg3 harg3 arg4 harg4 arg5 harg5 arg6 harg6 arg7 harg7 arg8 harg8 arg9 harg9 arg10 harg10 hc0 hc1 x0 x1 x2 x3 xs0 xs1, out1_C_6 c i arg2 harg2 arg3 harg3 arg4 harg4 arg5 harg5 arg6 harg6 arg7 harg7 arg8 harg8 arg9 harg9 arg10 harg10 hc0 hc1 x0 x1 x2 x3 xs0 xs1, sout1_C_0 c i arg2 harg2 arg3 harg3 arg4 harg4 arg5 harg5 arg6 harg6 arg7 harg7 arg8 harg8 arg9 harg9 arg10 harg10 hc0 hc1 x0 x1 x2 x3 xs0 xs1, sout1_C_1 c i arg2 harg2 arg3 harg3 arg4 harg4 arg5 harg5 arg6 harg6 arg7 harg7 arg8 harg8 arg9 harg9 arg10 harg10 hc0 hc1 x0 x1 x2 x3 xs0 xs1)

/-! ## What the outputs and the carried scratches hold after each point -/

/-- THE ACCUMULATION. What the outputs' staging buffers and the two scratches the kernel carries between points hold
    after the body at position `n` (a tuple: the outputs in window order, then the scratches): the case the closed
    forms select at `n`, run at the point's memrefs and input blocks, the carried scratches at what this leaves at
    `n - 1`. An assignment of the conditions no point meets is no case. -/
def outsAt1 (c : Dev nD) : (n : ℕ) → n < cfg1.N → Vec F S1024x512 .f32 × Vec F S1x1x512 .f32 × Vec F S1x1x512 .f32 × Vec F S1x512 .f32 × Vec F S1x512 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 4 = 0 then
      if h1 : (n + 1) % 4 = 3 then
        False.elim (by have hN : n + 1 < 8 := lt_of_lt_of_eq hn (show cfg1.N = 8 from N_1); omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 4 = 3 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2

/-- `outsAt1` at a point of case A: that case's contents. -/
theorem outsAt1_A (c : Dev nD) (t : Fin cfg1.N) (h0 : t.val % 4 = 0) (h1 : ¬t.val % 4 = 3) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`, with the two scratches the kernel carries between points: before the
    first point the class's (every scratch at anything); afterwards the scoped rest with each carried scratch at what
    the point before left in it (`outsAt1`'s scratch components), the remainder untouched, and the generator register
    at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratches at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r)) := rfl

/-- Before a point that is not the first: the carried scratches at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the outputs' at `outsAt1`'s components; the invariant `PhiS1` (the class's
    before the first point, then the scoped rest with the carried scratches at `outsAt1`'s components); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

/-- The proof data's arrays are the region-entry contents: the proof data's definition projected, so that `V` is
    never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks (`before1_W`); the closed forms say which case the
    point is in; so that case's run applies; the invariant hands the body the carried scratches at what the point
    before left (at anything at the first point) and the generator register at some state, and takes the carried
    scratches back at this point's contents (their pieces cover them); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold outs1_A out1_A_4 sout1_A_0 sout1_A_1; (try dsimp only)
      by_cases hz : t.val = 0
      · rw [PhiS1_castSucc V c t, PhiS1_zero V c _ _ hz, PhiA1_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        iintro ⟨H0, H1, H2, H3, ⟨%e4, H4⟩, H5, H6, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _)
        isplitl [H5]; · iexists _; iexact H5
        iexists _; iexact H6
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexists _; iexact HS0
        isplitl [HS1]; · iexists _; iexact HS1
        iintro ⟨H0, H1, H2, H3, ⟨%e4, H4⟩, H5, H6, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _)
        isplitl [H5]; · iexists _; iexact H5
        iexists _; iexact H6

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold outs1_C out1_C_4 out1_C_5 out1_C_6 sout1_C_0 sout1_C_1; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, ⟨%e4, H4⟩, ⟨%e5, H5⟩, ⟨%e6, H6⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _)
              unfold owns; iexists _; isplitr
              swap; · iexact HS1
              ipureintro; exact View.read_writes_of_cover _ _ _ _ _ (scover1_C_1 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold outs1_B out1_B_4 sout1_B_0 sout1_B_1; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        iintro ⟨H0, H1, H2, H3, ⟨%e4, H4⟩, H5, H6, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _)
              unfold owns; iexists _; isplitr
              swap; · iexact HS1
              ipureintro; exact View.read_writes_of_cover _ _ _ _ _ (scover1_B_1 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _ _ _ _)
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratches' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Gen

end
-- ==== Proof.K2.lean ====
/-
  The third launch of the program: the normalisation-and-residual body, which at every grid point reads one block of rows
  of the pre-normalised product and of the residual input together with the four per-column rows (mean, inverse deviation,
  scale, shift) and stores the whole output block once. Everything here is stated at the contents `V` the launch finds in
  the buffers: each window's block at a point, the body's triple, the proof data and the body obligation.
-/
import proofs.«154593_j40999757807684_2_alg».proof.Proof.Gen.KernelIdeal.Launch
import proofs.«154593_j40999757807684_2_alg».proof.Proof.Gen.KernelIdeal.Skeleton
import proofs.«154593_j40999757807684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev r2_0 : Rect S1024x512 := Rect.unit (s := S1024x512) ![0, 0] S1024x512.size inb_S1024x512_S1024x512_0_0
abbrev r2_row : Rect S1x512 := Rect.unit (s := S1x512) ![0, 0] S1x512.size inb_S1x512_S1x512_0_0

/-- The output window's staging buffer after the body: its single store, of the body's arithmetic on the six loaded blocks. -/
def out2_6 (x0 : Vec F S1024x512 .f32) (x1 : Vec F S1024x512 .f32) (x2 : Vec F S1x512 .f32) (x3 : Vec F S1x512 .f32) (x4 : Vec F S1x512 .f32) (x5 : Vec F S1x512 .f32) : Vec F S1024x512 .f32 :=
  View.canon [⟨r2_0, k2_pay1 (View.ld x0 r2_0) (View.ld x1 r2_0) (View.ld x2 r2_row) (View.ld x3 r2_row) (View.ld x4 r2_row) (View.ld x5 r2_row)⟩]

/-- The store covers the block. -/
theorem cover2_6 (p0 : Vec F S1024x512 .f32) (y : S1024x512.Idx) :
    ∃ pc ∈ ([⟨r2_0, p0⟩] : List (View.Piece (Elt F) S1024x512 .f32)), y ∈ pc.1.set :=
  View.cover_of_tiled [⟨r2_0, p0⟩] S1024x512.size (by rfl) y

set_option maxHeartbeats 1000000 in
/-- The body on whole staging memrefs, the inputs' at read contents and the output's at anything, runs to the continuation
    holding the inputs' as they were and the output's at `out2_6` of the inputs'. -/
theorem sound_kernel2 (c : Dev nD) (E : Set ℕ) (i : grid2.Coords)
    (arg1 : Memref sig .tc .vmem S1024x512 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1024x512 .f32) (harg7 : arg7.IsWhole)
    (x0 : Vec F S1024x512 .f32) (x1 : Vec F S1024x512 .f32) (x2 : Vec F S1x512 .f32) (x3 : Vec F S1x512 .f32) (x4 : Vec F S1x512 .f32) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the third launch on core `c`: the arrays as the launch finds them; after the body at point `t` each
    input's buffer at its block and the output's at `out2_6` of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KHalves.lean ====
/-
  The three launches' halves put into the run: the first two carry an accumulator between grid points, the third is a
  plain pointwise body; with them the run of the whole program holds outright, and with it the frame.
-/
import proofs.«154593_j40999757807684_2_alg».proof.Proof.KRun
import proofs.«154593_j40999757807684_2_alg».proof.Proof.K0Frame
import proofs.«154593_j40999757807684_2_alg».proof.Proof.K1Frame
import proofs.«154593_j40999757807684_2_alg».proof.Proof.K2

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.Sem
open Idealize.ShloMosaic.Pipeline (Dat Cfg Window BodyObligation cellOf)

variable {F : FTy → Type} [FloatOps F]

/-- The first launch's half. -/
def half0 : Half0 F where
  after V c := (dat0 V c).after
  Φ V c := (dat0 V c).Φ
  body V c := body_obligation0 V c
  hin V c := hin0 V c
  hout V c := hout0 V c

/-- The second launch's half. -/
def half1 : Half1 F where
  after V c := (dat1 V c).after
  Φ V c := (dat1 V c).Φ
  body V c := body_obligation1 V c
  hin V c := hin1 V c
  hout V c := hout1 V c

/-- The third launch's half: its invariant is the scoped rest beside the generator register throughout. -/
def half2 : Half2 F where
  after V c := (dat2 V c).after
  Φ V c := (dat2 V c).Φ
  body V c := body_obligation2 V c
  hin V c := BI.Entails.refl _
  hout V c := BI.Entails.refl _

variable (m : (ℓ : Loc nD τ sig) → Buf (Elt F) ℓ) (ρ : Dev nD → PrngReg)

/-- THE RUN of the program: every unscoped buffer ends at the last boundary's contents. -/
theorem run_main' : θ_run defs (onTc (τ := τ) (main (F := F))) ⟨m, fun _ => 0, ρ⟩ (fun r => ∀ c : Dev nD,
      ∀ b ∈ Pipeline.ucRefs τ sig, r.2.mem (((c : Thread nD τ)).1, b) = W7 (F := F) half0 half1 half2 m ρ c b) :=
  run_all (F := F) half0 half1 half2 m ρ

/-- THE FRAME at any instance. -/
theorem frame' : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_all (F := F) half0 half1 half2 m ρ

end Cert.KernelIdeal.Gen

end
-- ==== Proof.KRun_B.lean ====
/-
  The run of the whole program as a list of segments: four stretches of host operations around three kernel launches.
  The buffer contents at every boundary are a fold from the launch memory — a host stretch applies its operations, a launch
  replaces its windows' arrays by what its write-backs leave —; each launch is a region record over the thread state
  "every unscoped buffer at the boundary's contents, the generator register at some state, nothing owed", built from that
  launch's half (its proof data, body obligation and invariant), which this module takes as hypotheses; and the run ends
  with every unscoped buffer at the last boundary's contents.
-/
import proofs.«154593_j40999757807684_2_alg».proof.Proof.Gen.Kernel.Launch
import proofs.«154593_j40999757807684_2_alg».proof.Proof.Gen.Kernel.Skeleton
import proofs.«154593_j40999757807684_2_alg».proof.Proof.Gen.Kernel.Points
import proofs.«154593_j40999757807684_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof data of launch 0 at entry contents `V` from what the body leaves in each window's staging buffer and the
    invariant between points: the arrays are `V`'s, held at full shares, nothing owed. -/
abbrev mk0 (V : (c : Dev nD) → (b : Ref sig .tc) → Buf (Elt F) ((c : Thread nD τ).loc b)) (c : Dev nD)
    (after : (w : Fin cfg0.W) → Fin cfg0.N → (cfg0.win w).block.Idx → Elt F (cfg0.win w).elt)
    (Φ : Fin (cfg0.N + 1) → sProp 𝕄) : Dat τ (Elt F) Unit ℕ (UR sig nD τ) ℕ cfg0 c where
  A w := V c (Pipeline.arrRef spec0 w)
  after := after
  Φ := Φ
  q _ := fullShare
  owed _ := 0

/-- What the run takes of launch 0's half, at every entry contents `V`: the staging contents after the body and the
    invariant; the body obligation at every point; the invariant entered from, and left at, the scoped rest beside the
    generator register. -/
structure Half0 (F : FTy → Type) [FloatOps F] where
  after : (V : (c : Dev nD) → (b : Ref sig .tc) → Buf (Elt F) ((c : Thread nD τ).loc b)) → (c : Dev nD) → (w : Fin cfg0.W) → Fin cfg0.N → (cfg0.win w).block.Idx → Elt F (cfg0.win w).elt
  Φ : (V : (c : Dev nD) → (b : Ref sig .tc) → Buf (Elt F) ((c : Thread nD τ).loc b)) → (c : Dev nD) → Fin (cfg0.N + 1) → sProp (MT nD τ sig Unit (Elt F) ℕ (UR sig nD τ) ℕ)
  body : ∀ V c, BodyObligation (mk0 V c (after V c) (Φ V c)) (defs₀ (F := F)) Variants.none () Set.univ
  hin : ∀ V c, (Pipeline.ΦA spec0 c : sProp (MT nD τ sig Unit (Elt F) ℕ (UR sig nD τ) ℕ)) ⊢ Φ V c 0
  hout : ∀ V c, Φ V c (Fin.last cfg0.N) ⊢ (Pipeline.ΦA spec0 c : sProp (MT nD τ sig Unit (Elt F) ℕ (UR sig nD τ) ℕ))

/-- Its proof data. -/
abbrev Half0.dat (H : Half0 F) (V : (c : Dev nD) → (b : Ref sig .tc) → Buf (Elt F) ((c : Thread nD τ).loc b)) (c : Dev nD) : Dat τ (Elt F) Unit ℕ (UR sig nD τ) ℕ cfg0 c :=
  mk0 V c (H.after V c) (H.Φ V c)
/-- The proof data of launch 1 at entry contents `V` from what the body leaves in each window's staging buffer and the
    invariant between points: the arrays are `V`'s, held at full shares, nothing owed. -/
abbrev mk1 (V : (c : Dev nD) → (b : Ref sig .tc) → Buf (Elt F) ((c : Thread nD τ).loc b)) (c : Dev nD)
    (after : (w : Fin cfg1.W) → Fin cfg1.N → (cfg1.win w).block.Idx → Elt F (cfg1.win w).elt)
    (Φ : Fin (cfg1.N + 1) → sProp 𝕄) : Dat τ (Elt F) Unit ℕ (UR sig nD τ) ℕ cfg1 c where
  A w := V c (Pipeline.arrRef spec1 w)
  after := after
  Φ := Φ
  q _ := fullShare
  owed _ := 0

/-- What the run takes of launch 1's half, at every entry contents `V`: the staging contents after the body and the
    invariant; the body obligation at every point; the invariant entered from, and left at, the scoped rest beside the
    generator register. -/
structure Half1 (F : FTy → Type) [FloatOps F] where
  after : (V : (c : Dev nD) → (b : Ref sig .tc) → Buf (Elt F) ((c : Thread nD τ).loc b)) → (c : Dev nD) → (w : Fin cfg1.W) → Fin cfg1.N → (cfg1.win w).block.Idx → Elt F (cfg1.win w).elt
  Φ : (V : (c : Dev nD) → (b : Ref sig .tc) → Buf (Elt F) ((c : Thread nD τ).loc b)) → (c : Dev nD) → Fin (cfg1.N + 1) → sProp (MT nD τ sig Unit (Elt F) ℕ (UR sig nD τ) ℕ)
  body : ∀ V c, BodyObligation (mk1 V c (after V c) (Φ V c)) (defs₀ (F := F)) Variants.none () Set.univ
  hin : ∀ V c, (Pipeline.ΦA spec1 c : sProp (MT nD τ sig Unit (Elt F) ℕ (UR sig nD τ) ℕ)) ⊢ Φ V c 0
  hout : ∀ V c, Φ V c (Fin.last cfg1.N) ⊢ (Pipeline.ΦA spec1 c : sProp (MT nD τ sig Unit (Elt F) ℕ (UR sig nD τ) ℕ))

/-- Its proof data. -/
abbrev Half1.dat (H : Half1 F) (V : (c : Dev nD) → (b : Ref sig .tc) → Buf (Elt F) ((c : Thread nD τ).loc b)) (c : Dev nD) : Dat τ (Elt F) Unit ℕ (UR sig nD τ) ℕ cfg1 c :=
  mk1 V c (H.after V c) (H.Φ V c)
/-- The proof data of launch 2 at entry contents `V` from what the body leaves in each window's staging buffer and the
    invariant between points: the arrays are `V`'s, held at full shares, nothing owed. -/
abbrev mk2 (V : (c : Dev nD) → (b : Ref sig .tc) → Buf (Elt F) ((c : Thread nD τ).loc b)) (c : Dev nD)
    (after : (w : Fin cfg2.W) → Fin cfg2.N → (cfg2.win w).block.Idx → Elt F (cfg2.win w).elt)
    (Φ : Fin (cfg2.N + 1) → sProp 𝕄) : Dat τ (Elt F) Unit ℕ (UR sig nD τ) ℕ cfg2 c where
  A w := V c (Pipeline.arrRef spec2 w)
  after := after
  Φ := Φ
  q _ := fullShare
  owed _ := 0

/-- What the run takes of launch 2's half, at every entry contents `V`: the staging contents after the body and the
    invariant; the body obligation at every point; the invariant entered from, and left at, the scoped rest beside the
    generator register. -/
structure Half2 (F : FTy → Type) [FloatOps F] where
  after : (V : (c : Dev nD) → (b : Ref sig .tc) → Buf (Elt F) ((c : Thread nD τ).loc b)) → (c : Dev nD) → (w : Fin cfg2.W) → Fin cfg2.N → (cfg2.win w).block.Idx → Elt F (cfg2.win w).elt
  Φ : (V : (c : Dev nD) → (b : Ref sig .tc) → Buf (Elt F) ((c : Thread nD τ).loc b)) → (c : Dev nD) → Fin (cfg2.N + 1) → sProp (MT nD τ sig Unit (Elt F) ℕ (UR sig nD τ) ℕ)
  body : ∀ V c, BodyObligation (mk2 V c (after V c) (Φ V c)) (defs₀ (F := F)) Variants.none () Set.univ
  hin : ∀ V c, (Pipeline.ΦA spec2 c : sProp (MT nD τ sig Unit (Elt F) ℕ (UR sig nD τ) ℕ)) ⊢ Φ V c 0
  hout : ∀ V c, Φ V c (Fin.last cfg2.N) ⊢ (Pipeline.ΦA spec2 c : sProp (MT nD τ sig Unit (Elt F) ℕ (UR sig nD τ) ℕ))

/-- Its proof data. -/
abbrev Half2.dat (H : Half2 F) (V : (c : Dev nD) → (b : Ref sig .tc) → Buf (Elt F) ((c : Thread nD τ).loc b)) (c : Dev nD) : Dat τ (Elt F) Unit ℕ (UR sig nD τ) ℕ cfg2 c :=
  mk2 V c (H.after V c) (H.Φ V c)

variable (H0 : Half0 F) (H1 : Half1 F) (H2 : Half2 F)
variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev VB1 : (c : Dev nD) → (b : Ref sig .tc) → Buf (Elt F) ((c : Thread nD τ).loc b) := fun c b => W1 m ρ c b

/-- At launch 0's exit: its arrays at what the write-backs leave, every other buffer as entered. -/
def W2 (c : Dev nD) : Valuation τ sig (Elt F) :=
  Pipeline.withArrays spec0 c (W1 m ρ c) fun w => (H0.dat (VB1 m ρ) c).arrAt w cfg0.N
theorem W2_arr (c : Dev nD) (w : Fin cfg0.W) :
    W2 H0 m ρ c (Proc.devRef .tc (Pipeline.arrRef spec0 w)) = (H0.dat (VB1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H0 m ρ c (Proc.devRef .tc b) = W1 m ρ c (Proc.devRef .tc b) := by
  unfold W2; exact Pipeline.withArrays_of_ne spec0 c _ _ b hb
abbrev VB2 : (c : Dev nD) → (b : Ref sig .tc) → Buf (Elt F) ((c : Thread nD τ).loc b) := fun c b => W2 H0 m ρ c b
theorem hF0 (c : Dev nD) (w : Fin cfg0.W) : (H0.dat (VB1 m ρ) c).arrAt w cfg0.N = VB2 H0 m ρ c (Pipeline.arrRef spec0 w) :=
  (W2_arr H0 m ρ c w).symm
theorem hrest0 (c : Dev nD) : ∀ b, b ∉ Finset.univ.image (Pipeline.arrRef spec0) → VB2 H0 m ρ c b = VB1 m ρ c b :=
  fun b hb => W2_of_ne H0 m ρ c b fun w e => hb (Finset.mem_image.mpr ⟨w, Finset.mem_univ _, e⟩)

/-- After the host stretch `hostOps1`. -/
abbrev W3 : Dev nD → Valuation τ sig (Elt F) := fun c => StableHlo.after hostOps1 (W2 H0 m ρ c)
abbrev VB3 : (c : Dev nD) → (b : Ref sig .tc) → Buf (Elt F) ((c : Thread nD τ).loc b) := fun c b => W3 H0 m ρ c b

/-- At launch 1's exit: its arrays at what the write-backs leave, every other buffer as entered. -/
def W4 (c : Dev nD) : Valuation τ sig (Elt F) :=
  Pipeline.withArrays spec1 c (W3 H0 m ρ c) fun w => (H1.dat (VB3 H0 m ρ) c).arrAt w cfg1.N
theorem W4_arr (c : Dev nD) (w : Fin cfg1.W) :
    W4 H0 H1 m ρ c (Proc.devRef .tc (Pipeline.arrRef spec1 w)) = (H1.dat (VB3 H0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H0 H1 m ρ c (Proc.devRef .tc b) = W3 H0 m ρ c (Proc.devRef .tc b) := by
  unfold W4; exact Pipeline.withArrays_of_ne spec1 c _ _ b hb
abbrev VB4 : (c : Dev nD) → (b : Ref sig .tc) → Buf (Elt F) ((c : Thread nD τ).loc b) := fun c b => W4 H0 H1 m ρ c b
theorem hF1 (c : Dev nD) (w : Fin cfg1.W) : (H1.dat (VB3 H0 m ρ) c).arrAt w cfg1.N = VB4 H0 H1 m ρ c (Pipeline.arrRef spec1 w) :=
  (W4_arr H0 H1 m ρ c w).symm
theorem hrest1 (c : Dev nD) : ∀ b, b ∉ Finset.univ.image (Pipeline.arrRef spec1) → VB4 H0 H1 m ρ c b = VB3 H0 m ρ c b :=
  fun b hb => W4_of_ne H0 H1 m ρ c b fun w e => hb (Finset.mem_image.mpr ⟨w, Finset.mem_univ _, e⟩)

/-- After the host stretch `hostOps2`. -/
abbrev W5 : Dev nD → Valuation τ sig (Elt F) := fun c => StableHlo.after hostOps2 (W4 H0 H1 m ρ c)
abbrev VB5 : (c : Dev nD) → (b : Ref sig .tc) → Buf (Elt F) ((c : Thread nD τ).loc b) := fun c b => W5 H0 H1 m ρ c b

/-- At launch 2's exit: its arrays at what the write-backs leave, every other buffer as entered. -/
def W6 (c : Dev nD) : Valuation τ sig (Elt F) :=
  Pipeline.withArrays spec2 c (W5 H0 H1 m ρ c) fun w => (H2.dat (VB5 H0 H1 m ρ) c).arrAt w cfg2.N
theorem W6_arr (c : Dev nD) (w : Fin cfg2.W) :
    W6 H0 H1 H2 m ρ c (Proc.devRef .tc (Pipeline.arrRef spec2 w)) = (H2.dat (VB5 H0 H1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 H0 H1 H2 m ρ c (Proc.devRef .tc b) = W5 H0 H1 m ρ c (Proc.devRef .tc b) := by
  unfold W6; exact Pipeline.withArrays_of_ne spec2 c _ _ b hb
abbrev VB6 : (c : Dev nD) → (b : Ref sig .tc) → Buf (Elt F) ((c : Thread nD τ).loc b) := fun c b => W6 H0 H1 H2 m ρ c b
theorem hF2 (c : Dev nD) (w : Fin cfg2.W) : (H2.dat (VB5 H0 H1 m ρ) c).arrAt w cfg2.N = VB6 H0 H1 H2 m ρ c (Pipeline.arrRef spec2 w) :=
  (W6_arr H0 H1 H2 m ρ c w).symm
theorem hrest2 (c : Dev nD) : ∀ b, b ∉ Finset.univ.image (Pipeline.arrRef spec2) → VB6 H0 H1 H2 m ρ c b = VB5 H0 H1 m ρ c b :=
  fun b hb => W6_of_ne H0 H1 H2 m ρ c b fun w e => hb (Finset.mem_image.mpr ⟨w, Finset.mem_univ _, e⟩)

/-- After the host stretch `hostOps3`. -/
abbrev W7 : Dev nD → Valuation τ sig (Elt F) := fun c => StableHlo.after hostOps3 (W6 H0 H1 H2 m ρ c)
abbrev VB7 : (c : Dev nD) → (b : Ref sig .tc) → Buf (Elt F) ((c : Thread nD τ).loc b) := fun c b => W7 H0 H1 H2 m ρ c b

/-! ## The proof data family and the thread state -/

/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => H0.dat (VB1 m ρ) c
  | ⟨1, _⟩ => fun c => H1.dat (VB3 H0 m ρ) c
  | ⟨2, _⟩ => fun c => H2.dat (VB5 H0 H1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 H0 H1 H2 m ρ c) ∗ ∃ r, prngReg c r)

/-! ## The launches as segments -/

set_option backward.isDefEq.respectTransparency.types false in
/-- Launch 0 over the thread state: entered from every unscoped buffer at `W1`, left at `W2`. Its arrays are split out of
    the unscoped buffers and put back at the exit contents; the generator register goes into the invariant and comes back;
    nothing is owed; the kernel has no semaphore of its own. -/
def reg0 : Pipeline.RegionSeg (pcfgs (F := F)) adm (pdats H0 H1 H2 m ρ) () defs₀ 𝒱₀ L lv 0 where
  win := launch0.win.to₀
  block_pos := launch0.block_pos
  stage_whole := launch0.stage_whole
  K := PEmpty
  osem k := k.elim
  ho := Pipeline.OwnSemFacts.none _
  hbody c := (H0.body (VB1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 H0 m ρ c) ∗ R c)
  X c := iprop(∃ r, prngReg c r)
  Y c := iprop(∃ r, prngReg c r)
  Z c := Pipeline.unscopedRest (Ix := Unit) (Name := ℕ) (U := UR sig nD τ) (Lvl := ℕ) spec0 c (VB1 m ρ c)
  hentry c := by
    rw [Pipeline.ownSems0_none]
    have hsplit := Pipeline.arrays_of_unscopedBufs (p := 0) (pcfgs (F := F)) adm (pdats H0 H1 H2 m ρ) launch0.win launch0.arr_whole c
      ((pdats H0 H1 H2 m ρ 0 c).share_full fun _ => rfl) (VB1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h1.trans (H0.hin (VB1 m ρ) c)
  hout c := by
    rw [Pipeline.ownSems0_none]
    have h1 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (H0.hout (VB1 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m ρ) ((pdats H0 H1 H2 m ρ 0 c).share_full fun _ => rfl)
      (VB1 m ρ c) (VB2 H0 m ρ c) ((pdats H0 H1 H2 m ρ 0 c).arrAt · cfg0.N) (hF0 H0 m ρ c) (hrest0 H0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are split out of
    the unscoped buffers and put back at the exit contents; the generator register goes into the invariant and comes back;
    nothing is owed; the kernel has no semaphore of its own. -/
def reg1 : Pipeline.RegionSeg (pcfgs (F := F)) adm (pdats H0 H1 H2 m ρ) () defs₀ 𝒱₀ L lv 1 where
  win := launch1.win.to₀
  block_pos := launch1.block_pos
  stage_whole := launch1.stage_whole
  K := PEmpty
  osem k := k.elim
  ho := Pipeline.OwnSemFacts.none _
  hbody c := (H1.body (VB3 H0 m ρ) c).loose
  hwaits := Pipeline.hwaits_of_owed_zero _ _ _ _ L lv 1 fun _ _ => rfl
  pre c := iprop(StableHlo.held (c : Thread nD τ) (Pipeline.ucRefs τ sig) (W3 H0 m ρ c) ∗ R c)
  post c := iprop(StableHlo.held (c : Thread nD τ) (Pipeline.ucRefs τ sig) (W4 H0 H1 m ρ c) ∗ R c)
  X c := iprop(∃ r, prngReg c r)
  Y c := iprop(∃ r, prngReg c r)
  Z c := Pipeline.unscopedRest (Ix := Unit) (Name := ℕ) (U := UR sig nD τ) (Lvl := ℕ) spec1 c (VB3 H0 m ρ c)
  hentry c := by
    rw [Pipeline.ownSems0_none]
    have hsplit := Pipeline.arrays_of_unscopedBufs (p := 1) (pcfgs (F := F)) adm (pdats H0 H1 H2 m ρ) launch1.win launch1.arr_whole c
      ((pdats H0 H1 H2 m ρ 1 c).share_full fun _ => rfl) (VB3 H0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (H1.hin (VB3 H0 m ρ) c)
  hout c := by
    rw [Pipeline.ownSems0_none]
    have h1 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (H1.hout (VB3 H0 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m ρ) ((pdats H0 H1 H2 m ρ 1 c).share_full fun _ => rfl)
      (VB3 H0 m ρ c) (VB4 H0 H1 m ρ c) ((pdats H0 H1 H2 m ρ 1 c).arrAt · cfg1.N) (hF1 H0 H1 m ρ c) (hrest1 H0 H1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are split out of
    the unscoped buffers and put back at the exit contents; the generator register goes into the invariant and comes back;
    nothing is owed; the kernel has no semaphore of its own. -/
def reg2 : Pipeline.RegionSeg (pcfgs (F := F)) adm (pdats H0 H1 H2 m ρ) () defs₀ 𝒱₀ L lv 2 where
  win := launch2.win.to₀
  block_pos := launch2.block_pos
  stage_whole := launch2.stage_whole
  K := PEmpty
  osem k := k.elim
  ho := Pipeline.OwnSemFacts.none _
  hbody c := (H2.body (VB5 H0 H1 m ρ) c).loose
  hwaits := Pipeline.hwaits_of_owed_zero _ _ _ _ L lv 2 fun _ _ => rfl
  pre c := iprop(StableHlo.held (c : Thread nD τ) (Pipeline.ucRefs τ sig) (W5 H0 H1 m ρ c) ∗ R c)
  post c := iprop(StableHlo.held (c : Thread nD τ) (Pipeline.ucRefs τ sig) (W6 H0 H1 H2 m ρ c) ∗ R c)
  X c := iprop(∃ r, prngReg c r)
  Y c := iprop(∃ r, prngReg c r)
  Z c := Pipeline.unscopedRest (Ix := Unit) (Name := ℕ) (U := UR sig nD τ) (Lvl := ℕ) spec2 c (VB5 H0 H1 m ρ c)
  hentry c := by
    rw [Pipeline.ownSems0_none]
    have hsplit := Pipeline.arrays_of_unscopedBufs (p := 2) (pcfgs (F := F)) adm (pdats H0 H1 H2 m ρ) launch2.win launch2.arr_whole c
      ((pdats H0 H1 H2 m ρ 2 c).share_full fun _ => rfl) (VB5 H0 H1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h1.trans (H2.hin (VB5 H0 H1 m ρ) c)
  hout c := by
    rw [Pipeline.ownSems0_none]
    have h1 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (H2.hout (VB5 H0 H1 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m ρ) ((pdats H0 H1 H2 m ρ 2 c).share_full fun _ => rfl)
      (VB5 H0 H1 m ρ c) (VB6 H0 H1 H2 m ρ c) ((pdats H0 H1 H2 m ρ 2 c).arrAt · cfg2.N) (hF2 H0 H1 H2 m ρ c) (hrest2 H0 H1 H2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev runSegs : List (Pipeline.Seg (pcfgs (F := F)) adm (pdats H0 H1 H2 m ρ) () defs₀ 𝒱₀ L lv) :=
  [ .host (hseg hostOps0 hostOps0_sub hostOps0_fresh (W0 m ρ)),
    .region (reg0 H0 H1 H2 m ρ),
    .host (hseg hostOps1 hostOps1_sub hostOps1_fresh (W2 H0 m ρ)),
    .region (reg1 H0 H1 H2 m ρ),
    .host (hseg hostOps2 hostOps2_sub hostOps2_fresh (W4 H0 H1 m ρ)),
    .region (reg2 H0 H1 H2 m ρ),
    .host (hseg hostOps3 hostOps3_sub hostOps3_fresh (W6 H0 H1 H2 m ρ)) ]
theorem main_run (c : Dev nD) : main (F := F) c = Pipeline.Seg.run (runSegs H0 H1 H2 m ρ) := (main_chain c).trans (by chain_rfl)

set_option backward.isDefEq.respectTransparency.types false in
/-- THE RUN: from any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 H0 H1 H2 m ρ c b) :=
  Pipeline.θ_run_regions_kit (pcfgs (F := F)) adm (pdats H0 H1 H2 m ρ) () cellOf_inj emb₁ defs₀ 𝒱₀ L lv m ρ main (runSegs H0 H1 H2 m ρ)
    (fun c Q => by rw [main_run H0 H1 H2 m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H0 H1 H2 m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 H0 H1 H2 m ρ c) ∗ R c)
        ⊢ iprop(Tₙ H0 H1 H2 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 H0 H1 H2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 H0 H1 H2 m ρ c) s')
      isplitl [Hh] <;> iassumption)
    (hQ := fun s h c => h c)

/-! ## Buffers an item leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 H0 m ρ c (Proc.devRef .tc r) = W2 H0 m ρ c (Proc.devRef .tc r) :=
  StableHlo.after_of_writes_sub hostOps1 _ hostOps1_writes h
theorem W5_of (c : Dev nD) (r : Ref sig .tc) (h : r ∉ hostOps2_W) : W5 H0 H1 m ρ c (Proc.devRef .tc r) = W4 H0 H1 m ρ c (Proc.devRef .tc r) :=
  StableHlo.after_of_writes_sub hostOps2 _ hostOps2_writes h
theorem W7_of (c : Dev nD) (r : Ref sig .tc) (h : r ∉ hostOps3_W) : W7 H0 H1 H2 m ρ c (Proc.devRef .tc r) = W6 H0 H1 H2 m ρ c (Proc.devRef .tc r) :=
  StableHlo.after_of_writes_sub hostOps3 _ hostOps3_writes h
/-- A launch leaves the array of an input window as it found it. -/
theorem W2_in (c : Dev nD) (w : Fin cfg0.W) (hin : (cfg0.win w).isOut = false) :
    W2 H0 m ρ c (Proc.devRef .tc (Pipeline.arrRef spec0 w)) = W1 m ρ c (Proc.devRef .tc (Pipeline.arrRef spec0 w)) :=
  (W2_arr H0 m ρ c w).trans ((H0.dat (VB1 m ρ) c).arrAt_in w hin _)
theorem W4_in (c : Dev nD) (w : Fin cfg1.W) (hin : (cfg1.win w).isOut = false) :
    W4 H0 H1 m ρ c (Proc.devRef .tc (Pipeline.arrRef spec1 w)) = W3 H0 m ρ c (Proc.devRef .tc (Pipeline.arrRef spec1 w)) :=
  (W4_arr H0 H1 m ρ c w).trans ((H1.dat (VB3 H0 m ρ) c).arrAt_in w hin _)
theorem W6_in (c : Dev nD) (w : Fin cfg2.W) (hin : (cfg2.win w).isOut = false) :
    W6 H0 H1 H2 m ρ c (Proc.devRef .tc (Pipeline.arrRef spec2 w)) = W5 H0 H1 m ρ c (Proc.devRef .tc (Pipeline.arrRef spec2 w)) :=
  (W6_arr H0 H1 H2 m ρ c w).trans ((H2.dat (VB5 H0 H1 m ρ) c).arrAt_in w hin _)

/-! ## The arguments end as launched -/
theorem W7_main_arg0 (c : Dev nD) : W7 H0 H1 H2 m ρ c (Proc.devRef .tc main_arg0) = m ((c : Thread nD τ).loc main_arg0) :=
  (W7_of H0 H1 H2 m ρ c main_arg0 (by decide)).trans <| (W6_of_ne H0 H1 H2 m ρ c main_arg0 (by decide)).trans <| (W5_of H0 H1 m ρ c main_arg0 (by decide)).trans <| (W4_of_ne H0 H1 m ρ c main_arg0 (by decide)).trans <|
    (W3_of H0 m ρ c main_arg0 (by decide)).trans <| (W2_of_ne H0 m ρ c main_arg0 (by decide)).trans <| (W1_of m ρ c main_arg0 (by decide)).trans rfl
theorem W7_main_arg1 (c : Dev nD) : W7 H0 H1 H2 m ρ c (Proc.devRef .tc main_arg1) = m ((c : Thread nD τ).loc main_arg1) :=
  (W7_of H0 H1 H2 m ρ c main_arg1 (by decide)).trans <| (W6_of_ne H0 H1 H2 m ρ c main_arg1 (by decide)).trans <| (W5_of H0 H1 m ρ c main_arg1 (by decide)).trans <| (W4_of_ne H0 H1 m ρ c main_arg1 (by decide)).trans <|
    (W3_of H0 m ρ c main_arg1 (by decide)).trans <| (W2_of_ne H0 m ρ c main_arg1 (by decide)).trans <| (W1_of m ρ c main_arg1 (by decide)).trans rfl
theorem W7_main_arg2 (c : Dev nD) : W7 H0 H1 H2 m ρ c (Proc.devRef .tc main_arg2) = m ((c : Thread nD τ).loc main_arg2) :=
  (W7_of H0 H1 H2 m ρ c main_arg2 (by decide)).trans <| (W6_of_ne H0 H1 H2 m ρ c main_arg2 (by decide)).trans <| (W5_of H0 H1 m ρ c main_arg2 (by decide)).trans <| (W4_of_ne H0 H1 m ρ c main_arg2 (by decide)).trans <|
    (W3_of H0 m ρ c main_arg2 (by decide)).trans <| (W2_in H0 m ρ c 2 rfl).trans <| (W1_of m ρ c main_arg2 (by decide)).trans rfl
theorem W7_main_arg3 (c : Dev nD) : W7 H0 H1 H2 m ρ c (Proc.devRef .tc main_arg3) = m ((c : Thread nD τ).loc main_arg3) :=
  (W7_of H0 H1 H2 m ρ c main_arg3 (by decide)).trans <| (W6_of_ne H0 H1 H2 m ρ c main_arg3 (by decide)).trans <| (W5_of H0 H1 m ρ c main_arg3 (by decide)).trans <| (W4_of_ne H0 H1 m ρ c main_arg3 (by decide)).trans <|
    (W3_of H0 m ρ c main_arg3 (by decide)).trans <| (W2_of_ne H0 m ρ c main_arg3 (by decide)).trans <| (W1_of m ρ c main_arg3 (by decide)).trans rfl
theorem W7_main_arg4 (c : Dev nD) : W7 H0 H1 H2 m ρ c (Proc.devRef .tc main_arg4) = m ((c : Thread nD τ).loc main_arg4) :=
  (W7_of H0 H1 H2 m ρ c main_arg4 (by decide)).trans <| (W6_of_ne H0 H1 H2 m ρ c main_arg4 (by decide)).trans <| (W5_of H0 H1 m ρ c main_arg4 (by decide)).trans <| (W4_of_ne H0 H1 m ρ c main_arg4 (by decide)).trans <|
    (W3_of H0 m ρ c main_arg4 (by decide)).trans <| (W2_in H0 m ρ c 4 rfl).trans <| (W1_of m ρ c main_arg4 (by decide)).trans rfl
theorem W7_main_arg5 (c : Dev nD) : W7 H0 H1 H2 m ρ c (Proc.devRef .tc main_arg5) = m ((c : Thread nD τ).loc main_arg5) :=
  (W7_of H0 H1 H2 m ρ c main_arg5 (by decide)).trans <| (W6_of_ne H0 H1 H2 m ρ c main_arg5 (by decide)).trans <| (W5_of H0 H1 m ρ c main_arg5 (by decide)).trans <| (W4_of_ne H0 H1 m ρ c main_arg5 (by decide)).trans <|
    (W3_of H0 m ρ c main_arg5 (by decide)).trans <| (W2_of_ne H0 m ρ c main_arg5 (by decide)).trans <| (W1_of m ρ c main_arg5 (by decide)).trans rfl
theorem W7_main_arg6 (c : Dev nD) : W7 H0 H1 H2 m ρ c (Proc.devRef .tc main_arg6) = m ((c : Thread nD τ).loc main_arg6) :=
  (W7_of H0 H1 H2 m ρ c main_arg6 (by decide)).trans <| (W6_of_ne H0 H1 H2 m ρ c main_arg6 (by decide)).trans <| (W5_of H0 H1 m ρ c main_arg6 (by decide)).trans <| (W4_of_ne H0 H1 m ρ c main_arg6 (by decide)).trans <|
    (W3_of H0 m ρ c main_arg6 (by decide)).trans <| (W2_in H0 m ρ c 6 rfl).trans <| (W1_of m ρ c main_arg6 (by decide)).trans rfl
theorem W7_main_arg7 (c : Dev nD) : W7 H0 H1 H2 m ρ c (Proc.devRef .tc main_arg7) = m ((c : Thread nD τ).loc main_arg7) :=
  (W7_of H0 H1 H2 m ρ c main_arg7 (by decide)).trans <| (W6_of_ne H0 H1 H2 m ρ c main_arg7 (by decide)).trans <| (W5_of H0 H1 m ρ c main_arg7 (by decide)).trans <| (W4_of_ne H0 H1 m ρ c main_arg7 (by decide)).trans <|
    (W3_of H0 m ρ c main_arg7 (by decide)).trans <| (W2_of_ne H0 m ρ c main_arg7 (by decide)).trans <| (W1_of m ρ c main_arg7 (by decide)).trans rfl
theorem W7_main_arg8 (c : Dev nD) : W7 H0 H1 H2 m ρ c (Proc.devRef .tc main_arg8) = m ((c : Thread nD τ).loc main_arg8) :=
  (W7_of H0 H1 H2 m ρ c main_arg8 (by decide)).trans <| (W6_of_ne H0 H1 H2 m ρ c main_arg8 (by decide)).trans <| (W5_of H0 H1 m ρ c main_arg8 (by decide)).trans <| (W4_in H0 H1 m ρ c 2 rfl).trans <|
    (W3_of H0 m ρ c main_arg8 (by decide)).trans <| (W2_of_ne H0 m ρ c main_arg8 (by decide)).trans <| (W1_of m ρ c main_arg8 (by decide)).trans rfl
theorem W7_main_arg9 (c : Dev nD) : W7 H0 H1 H2 m ρ c (Proc.devRef .tc main_arg9) = m ((c : Thread nD τ).loc main_arg9) :=
  (W7_of H0 H1 H2 m ρ c main_arg9 (by decide)).trans <| (W6_of_ne H0 H1 H2 m ρ c main_arg9 (by decide)).trans <| (W5_of H0 H1 m ρ c main_arg9 (by decide)).trans <| (W4_of_ne H0 H1 m ρ c main_arg9 (by decide)).trans <|
    (W3_of H0 m ρ c main_arg9 (by decide)).trans <| (W2_of_ne H0 m ρ c main_arg9 (by decide)).trans <| (W1_of m ρ c main_arg9 (by decide)).trans rfl
theorem W7_main_arg10 (c : Dev nD) : W7 H0 H1 H2 m ρ c (Proc.devRef .tc main_arg10) = m ((c : Thread nD τ).loc main_arg10) :=
  (W7_of H0 H1 H2 m ρ c main_arg10 (by decide)).trans <| (W6_of_ne H0 H1 H2 m ρ c main_arg10 (by decide)).trans <| (W5_of H0 H1 m ρ c main_arg10 (by decide)).trans <| (W4_of_ne H0 H1 m ρ c main_arg10 (by decide)).trans <|
    (W3_of H0 m ρ c main_arg10 (by decide)).trans <| (W2_of_ne H0 m ρ c main_arg10 (by decide)).trans <| (W1_of m ρ c main_arg10 (by decide)).trans rfl
theorem W7_main_arg11 (c : Dev nD) : W7 H0 H1 H2 m ρ c (Proc.devRef .tc main_arg11) = m ((c : Thread nD τ).loc main_arg11) :=
  (W7_of H0 H1 H2 m ρ c main_arg11 (by decide)).trans <| (W6_of_ne H0 H1 H2 m ρ c main_arg11 (by decide)).trans <| (W5_of H0 H1 m ρ c main_arg11 (by decide)).trans <| (W4_of_ne H0 H1 m ρ c main_arg11 (by decide)).trans <|
    (W3_of H0 m ρ c main_arg11 (by decide)).trans <| (W2_of_ne H0 m ρ c main_arg11 (by decide)).trans <| (W1_of m ρ c main_arg11 (by decide)).trans rfl

include H0 H1 H2 in
set_option backward.isDefEq.respectTransparency.types false in
/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 H0 H1 H2 m ρ c),
    (h c _ (mem_uc main_arg1 (by decide))).trans (W7_main_arg1 H0 H1 H2 m ρ c),
    (h c _ (mem_uc main_arg2 (by decide))).trans (W7_main_arg2 H0 H1 H2 m ρ c),
    (h c _ (mem_uc main_arg3 (by decide))).trans (W7_main_arg3 H0 H1 H2 m ρ c),
    (h c _ (mem_uc main_arg4 (by decide))).trans (W7_main_arg4 H0 H1 H2 m ρ c),
    (h c _ (mem_uc main_arg5 (by decide))).trans (W7_main_arg5 H0 H1 H2 m ρ c),
    (h c _ (mem_uc main_arg6 (by decide))).trans (W7_main_arg6 H0 H1 H2 m ρ c),
    (h c _ (mem_uc main_arg7 (by decide))).trans (W7_main_arg7 H0 H1 H2 m ρ c),
    (h c _ (mem_uc main_arg8 (by decide))).trans (W7_main_arg8 H0 H1 H2 m ρ c),
    (h c _ (mem_uc main_arg9 (by decide))).trans (W7_main_arg9 H0 H1 H2 m ρ c),
    (h c _ (mem_uc main_arg10 (by decide))).trans (W7_main_arg10 H0 H1 H2 m ρ c),
    (h c _ (mem_uc main_arg11 (by decide))).trans (W7_main_arg11 H0 H1 H2 m ρ c)⟩)
    (run_all H0 H1 H2 m ρ)

end Cert.Kernel.Gen

end
-- ==== Proof.K0Runs_B.lean ====
import proofs.«154593_j40999757807684_2_alg».proof.Proof.Gen.Kernel.Launch
import proofs.«154593_j40999757807684_2_alg».proof.Proof.Gen.Kernel.Skeleton
import proofs.«154593_j40999757807684_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if`, from the grid coordinates: coordinate 1 is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if`, from the grid coordinates: coordinate 1 is 3. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- Window 8 is never idle. -/
theorem liveAt0_8 : ∀ t : Fin cfg0.N, cfg0.idle 8 (grid0.coords t) = false := by decide +kernel
/-- At the points of case A output 9 is idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B output 9 is idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C output 9 is live: the case stores into it. -/
theorem liveAt0_9_C : ∀ t : Fin cfg0.N, ¬cond0_0 (grid0.coords t) → cond0_1 (grid0.coords t) → cfg0.idle 9 (grid0.coords t) = false := by decide +kernel

/-! ## The staging and scratch memrefs -/

/-- One staging buffer of each output window, through which its contents are stated. -/
abbrev VO0_8 : View sig .tc .vmem S1024x256 .f32 := (Memref.whole cc0_stg8_0 : Memref sig .tc .vmem S1024x256 .f32).view
abbrev VO0_9 : View sig .tc .vmem S1x256x256 .f32 := (Memref.whole cc0_stg9_0 : Memref sig .tc .vmem S1x256x256 .f32).view
/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x256 .f32 := win0_9.stage (cfg0.slots t 9)
abbrev hs0_9 (t : Fin cfg0.N) : (ms0_9 t).IsWhole := hstage0_9 ((cfg0.slots t 9).cast nbuf0_9)
/-- The scratch operand: a whole scoped buffer of the kernel's own, passed beside the windows. -/
abbrev scM0_0 : Memref sig .tc .vmem S256x256 .f32 := Memref.whole cc0_scratch0
/-- The scratch the kernel carries between points, as a view: what it holds is stated through it. -/
abbrev VS0_0 : View sig .tc .vmem S256x256 .f32 := scM0_0.view

/-- Every scoped buffer of the core that is neither a staging buffer of this call nor its scratch, at some contents
    each: carried through the region unopened. -/
abbrev Rest0 (c : Dev nD) : sProp 𝕄 :=
  Pipeline.scopedRestBut (Ix := Unit) (Name := ℕ) (U := UR sig nD τ) (Lvl := ℕ) (Val := Elt F) spec0 c [cc0_scratch0]

/-- The scoped rest split at the call's own scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ Rest0 c) :=
  Pipeline.scopedRest_split_of_list spec0 c [cc0_scratch0] (by decide) (by decide)

/-- The region invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

end Region0

end Cert.Kernel.Gen

end
-- ==== Proof.K0RunA_B.lean ====
import proofs.«154593_j40999757807684_2_alg».proof.Proof.K0Runs_B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), in case A
    (the first `scf.if` taken, the second not: points 0, 4), with the proof that on whole staging memrefs — the inputs' at their contents `x·`, output 9's (no store: idle) at contents `xi9` handed back untouched, the
    other output's at anything, the scratch at anything — the body runs to the continuation holding the inputs' as they were,
    each stored buffer with its pieces written: the body is its skeleton of loads and stores, run operation by operation,
    each `scf.if` decided by the case's hypotheses; the pieces are the witness that run finds. -/
noncomputable def kernelRun0_A (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    Σ' (L8 : List (View.Piece (Elt F) S1024x256 .f32)) (L9 : List (View.Piece (Elt F) S1x256x256 .f32)), { LS0 : List (View.Piece (Elt F) S256x256 .f32) //
      ∀ (xi9 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.Kernel.Gen

end
-- ==== Proof.K0RunB_B.lean ====
import proofs.«154593_j40999757807684_2_alg».proof.Proof.K0RunA_B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), in case B
    (neither `scf.if` taken: points 1, 2, 5, 6), with the proof that on whole staging memrefs — the inputs' at their contents `x·`, output 9's (no store: idle) at contents `xi9` handed back untouched, the
    other output's at anything, the scratch at the contents `xs0` the point before left — the body runs to the continuation holding the inputs' as they were,
    each stored buffer with its pieces written: the body is its skeleton of loads and stores, run operation by operation,
    each `scf.if` decided by the case's hypotheses; the pieces are the witness that run finds. -/
noncomputable def kernelRun0_B (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) :
    Σ' (L8 : List (View.Piece (Elt F) S1024x256 .f32)) (L9 : List (View.Piece (Elt F) S1x256x256 .f32)), { LS0 : List (View.Piece (Elt F) S256x256 .f32) //
      ∀ (xi9 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.Kernel.Gen

end
-- ==== Proof.K0RunC_B.lean ====
import proofs.«154593_j40999757807684_2_alg».proof.Proof.K0RunB_B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), in case C
    (the first `scf.if` not taken, the second taken: points 3, 7), with the proof that on whole staging memrefs — the inputs' at their contents `x·`, the
    outputs' at anything, the scratch at the contents `xs0` the point before left — the body runs to the continuation holding the inputs' as they were,
    each stored buffer with its pieces written: the body is its skeleton of loads and stores, run operation by operation,
    each `scf.if` decided by the case's hypotheses; the pieces are the witness that run finds. -/
noncomputable def kernelRun0_C (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) :
    Σ' (L8 : List (View.Piece (Elt F) S1024x256 .f32)) (L9 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.Kernel.Gen

end
-- ==== Proof.K0Frame_B.lean ====
import proofs.«154593_j40999757807684_2_alg».proof.Proof.K0RunC_B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves in the outputs' buffers and in the scratch -/

/-- Case A's pieces for output 8 tile its block, so they cover it. -/
theorem cover0_A_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S1024x256.size (by sl_kernel_rfl) y

/-- What case A leaves in output 8's staging buffer: its pieces read back over junk. -/
def out0_A_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : Vec F S1024x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- Case A stores nothing into output 9 (the window is idle at its points and not written back there): no pieces — a
    placeholder that nothing consults. -/
def out0_A_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : Vec F S1x256x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

/-- Case A's pieces for the scratch, which the kernel carries between points, cover it. -/
theorem scover0_A_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S256x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S256x256.size (by sl_kernel_rfl) y

/-- What case A leaves in the scratch: its pieces read back over junk. -/
def sout0_A_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : Vec F S256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Case B's pieces for output 8 tile its block, so they cover it. -/
theorem cover0_B_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1024x256.size (by sl_kernel_rfl) y

/-- What case B leaves in output 8's staging buffer: its pieces read back over junk. -/
def out0_B_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1024x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Case B stores nothing into output 9 (the window is idle at its points and not written back there): no pieces — a
    placeholder that nothing consults. -/
def out0_B_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1x256x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Case B's pieces for the scratch, which the kernel carries between points, cover it. -/
theorem scover0_B_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S256x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S256x256.size (by sl_kernel_rfl) y

/-- What case B leaves in the scratch: its pieces read back over junk. -/
def sout0_B_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Case C's pieces for output 8 tile its block, so they cover it. -/
theorem cover0_C_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1024x256.size (by sl_kernel_rfl) y

/-- What case C leaves in output 8's staging buffer: its pieces read back over junk. -/
def out0_C_8 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1024x256 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Case C's pieces for output 9 tile its block, so they cover it. -/
theorem cover0_C_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S1x256x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x256x256.size (by sl_kernel_rfl) y

/-- What case C leaves in output 9's staging buffer: its pieces read back over junk. -/
def out0_C_9 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S1x256x256 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Case C's pieces for the scratch, which the kernel carries between points, cover it. -/
theorem scover0_C_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) (y : S256x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S256x256.size (by sl_kernel_rfl) y

/-- What case C leaves in the scratch: its pieces read back over junk. -/
def sout0_C_0 (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : Vec F S256x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-! ## What the outputs and the scratch hold after each point -/

/-- The accumulation. What the outputs' staging buffers and the scratch hold after the body at position `n` (output 8, output 9,
    the scratch): the case the closed forms select at `n`, run at the point's memrefs and input blocks, the scratch at what
    this leaves at `n - 1`. An assignment of the conditions no point meets is no case. -/
def outsAt0 (c : Dev nD) : (n : ℕ) → n < cfg0.N → Vec F S1024x256 .f32 × Vec F S1x256x256 .f32 × Vec F S256x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 4 = 0 then
      if h1 : (n + 1) % 4 = 3 then
        False.elim (by have hN : n + 1 < 8 := lt_of_lt_of_eq hn (show cfg0.N = 8 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h1 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the scoped rest with the carried scratch at what the point before left in it, the other scoped buffers at anything, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
  Φ t := PhiS0 V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point: the inputs' memrefs hold their blocks; the closed forms say which case the point is in; so that
    case's run applies; the invariant hands the body the carried scratch at what the point before left (at anything at the
    first point) and the other scoped buffers and the generator register, and takes the scratch back at this point's contents;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
      rw [outsAt0_A V c t h0 h1]
      unfold out0_A_8 sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexists _; iexact HS0
        iintro ⟨H0, H1, H2, H3, H4, H5, H6, H7, ⟨%e8, H8⟩, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold out0_C_8 out0_C_9 sout0_C_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold out0_B_8 sout0_B_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Region0

end Cert.Kernel.Gen

end
-- ==== Proof.K1Runs_B.lean ====
import proofs.«154593_j40999757807684_2_alg».proof.Proof.Gen.Kernel.Launch
import proofs.«154593_j40999757807684_2_alg».proof.Proof.Gen.Kernel.Skeleton
import proofs.«154593_j40999757807684_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # REGION 1 of @main: custom_call 1 (pipeline 1), at the entry contents `V` — what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (grid coordinate 1 is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (grid coordinate 1 is 3), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle (the configuration's table `Cfg.idle`) -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- At the points of case A the configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the configuration calls output 5 live: the case stores into it. -/
theorem liveAt1_5_C : ∀ t : Fin cfg1.N, ¬cond1_0 (grid1.coords t) → cond1_1 (grid1.coords t) → cfg1.idle 5 (grid1.coords t) = false := by decide +kernel
/-- At the points of case A the configuration calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the configuration calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the configuration calls output 6 live: the case stores into it. -/
theorem liveAt1_6_C : ∀ t : Fin cfg1.N, ¬cond1_0 (grid1.coords t) → cond1_1 (grid1.coords t) → cfg1.idle 6 (grid1.coords t) = false := by decide +kernel

/-! ## The kernel body on any staging memrefs: the memrefs the runs are stated over -/

/-- One staging buffer of each output window, through which its contents are stated (the choice does not matter). -/
abbrev VO1_4 : View sig .tc .vmem S1024x512 .f32 := (Memref.whole cc1_stg4_0 : Memref sig .tc .vmem S1024x512 .f32).view
abbrev VO1_5 : View sig .tc .vmem S1x1x512 .f32 := (Memref.whole cc1_stg5_0 : Memref sig .tc .vmem S1x1x512 .f32).view
abbrev VO1_6 : View sig .tc .vmem S1x1x512 .f32 := (Memref.whole cc1_stg6_0 : Memref sig .tc .vmem S1x1x512 .f32).view
/-- Each window's current staging memref at point `t`, spelled as the pipeline passes it (`bodyAt1`), and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x512 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S1x512 .f32 := Memref.whole cc1_scratch0
abbrev scM1_1 : Memref sig .tc .vmem S1x512 .f32 := Memref.whole cc1_scratch1
/-- The scratches the kernel carries between points, as views: what they hold is stated through them. -/
abbrev VS1_0 : View sig .tc .vmem S1x512 .f32 := scM1_0.view
abbrev VS1_1 : View sig .tc .vmem S1x512 .f32 := scM1_1.view

/-- The remainder of the scoped rest once the call's own scratch operands are split off: untouched by the body. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The region's invariant with the scratch operands as memrefs owned at some contents (the scoped rest split at
    them, a whole buffer's points-to being the whole memref's `owns`): what the body obligation hands the run and
    takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_split]; simp only [scM1_0, scM1_1, owns_whole]; try rfl

end Cert.Kernel.Gen

end
-- ==== Proof.K1RunA_B.lean ====
import proofs.«154593_j40999757807684_2_alg».proof.Proof.K1Runs_B

-- membership in a rectangle of long extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in each output's staging memref and in the two carried scratches, as pieces (last
    first), in case A (first `scf.if` taken, second not: points 0, 4), with the proof that on whole staging memrefs — the inputs' at their contents, output 4's at
    anything, outputs 5 and 6 (no store: idle at the case's points) at contents `xi·` handed back untouched, the
    carried scratches at anything (the case stores them whole before reading them) — the body runs to the continuation holding the inputs'
    as they were and each stored buffer with its pieces written. The printed functions are their skeletons, which the
    executor runs, each `scf.if` decided by the case's hypotheses; the pieces are the witness that run finds. -/
noncomputable def kernelRun1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) :
    Σ' (L4 : List (View.Piece (Elt F) S1024x512 .f32)), Σ' (L5 : List (View.Piece (Elt F) S1x1x512 .f32)), Σ' (L6 : List (View.Piece (Elt F) S1x1x512 .f32)), Σ' (LS0 : List (View.Piece (Elt F) S1x512 .f32)), { LS1 : List (View.Piece (Elt F) S1x512 .f32) //
      ∀ (xi5 : Vec F S1x1x512 .f32) (xi6 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, [], [], ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Gen

end
-- ==== Proof.K1RunB_B.lean ====
import proofs.«154593_j40999757807684_2_alg».proof.Proof.K1RunA_B

-- membership in a rectangle of long extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in each output's staging memref and in the two carried scratches, as pieces (last
    first), in case B (neither `scf.if` taken: points 1, 2, 5, 6), with the proof that on whole staging memrefs — the inputs' at their contents, output 4's at
    anything, outputs 5 and 6 (no store: idle at the case's points) at contents `xi·` handed back untouched, the
    carried scratches at the contents `xs·` the point before left — the body runs to the continuation holding the inputs'
    as they were and each stored buffer with its pieces written. The printed functions are their skeletons, which the
    executor runs, each `scf.if` decided by the case's hypotheses; the pieces are the witness that run finds. -/
noncomputable def kernelRun1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) :
    Σ' (L4 : List (View.Piece (Elt F) S1024x512 .f32)), Σ' (L5 : List (View.Piece (Elt F) S1x1x512 .f32)), Σ' (L6 : List (View.Piece (Elt F) S1x1x512 .f32)), Σ' (LS0 : List (View.Piece (Elt F) S1x512 .f32)), { LS1 : List (View.Piece (Elt F) S1x512 .f32) //
      ∀ (xi5 : Vec F S1x1x512 .f32) (xi6 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, [], [], ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Gen

end
-- ==== Proof.K1RunC_B.lean ====
import proofs.«154593_j40999757807684_2_alg».proof.Proof.K1RunB_B

-- membership in a rectangle of long extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in each output's staging memref and in the two carried scratches, as pieces (last
    first), in case C (second `scf.if` taken, first not: points 3, 7), with the proof that on whole staging memrefs — the inputs' at their contents, output 4's at
    anything, outputs 5 and 6 at anything, the
    carried scratches at the contents `xs·` the point before left — the body runs to the continuation holding the inputs'
    as they were and each stored buffer with its pieces written. The printed functions are their skeletons, which the
    executor runs, each `scf.if` decided by the case's hypotheses; the pieces are the witness that run finds. -/
noncomputable def kernelRun1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    Σ' (L4 : List (View.Piece (Elt F) S1024x512 .f32)), Σ' (L5 : List (View.Piece (Elt F) S1x1x512 .f32)), Σ' (L6 : List (View.Piece (Elt F) S1x1x512 .f32)), Σ' (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Gen

end
-- ==== Proof.K1Frame_B.lean ====
import proofs.«154593_j40999757807684_2_alg».proof.Proof.K1RunC_B

-- membership in a rectangle of long extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # REGION 1 of @main: custom_call 1 (pipeline 1), at the entry contents `V` — the rest of its half -/

/-! ## What each case leaves in the outputs' buffers and in the carried scratches -/

/-- case A's pieces for output 4 tile its block (one whole store), so they cover it. -/
theorem cover1_A_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) (y : S1024x512.Idx) :
    ∃ pc ∈ (kernelRun1_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).1 S1024x512.size (by sl_kernel_rfl) y

/-- What case A leaves in output 4's staging buffer: its pieces read back over junk. -/
def out1_A_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1024x512 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 hc1 x0 x1 x2 x3).1)

/-- case A stores nothing into output 5 (the window is idle at its points and not written back there): no
    pieces — a placeholder (junk read back) that nothing consults, since at these points the window is neither written
    back nor read at the next point. -/
def out1_A_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x1x512 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3).2.1)

/-- case A stores nothing into output 6 (the window is idle at its points and not written back there): no
    pieces — a placeholder (junk read back) that nothing consults, since at these points the window is neither written
    back nor read at the next point. -/
def out1_A_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x1x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3).2.2.1)

/-- case A's pieces for carried scratch 0 cover it (whole stores). -/
theorem scover1_A_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) (y : S1x512.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.1 S1x512.size (by sl_kernel_rfl) y

/-- What case A leaves in carried scratch 0: its pieces read back over junk. -/
def sout1_A_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3).2.2.2.1)

/-- case A's pieces for carried scratch 1 cover it (whole stores). -/
theorem scover1_A_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) (y : S1x512.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.2.1 S1x512.size (by sl_kernel_rfl) y

/-- What case A leaves in carried scratch 1: its pieces read back over junk. -/
def sout1_A_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1x512 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3).2.2.2.2.1)

/-- What case A leaves, as a tuple: the outputs in window order, then the two carried scratches. -/
def outs1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) : Vec F S1024x512 .f32 × Vec F S1x1x512 .f32 × Vec F S1x1x512 .f32 × Vec F S1x512 .f32 × Vec F S1x512 .f32 :=
  (out1_A_4 c i arg2 harg2 arg3 harg3 arg4 harg4 arg5 harg5 arg6 harg6 arg7 harg7 arg8 harg8 arg9 harg9 arg10 harg10 hc0 hc1 x0 x1 x2 x3, out1_A_5 c i arg2 harg2 arg3 harg3 arg4 harg4 arg5 harg5 arg6 harg6 arg7 harg7 arg8 harg8 arg9 harg9 arg10 harg10 hc0 hc1 x0 x1 x2 x3, out1_A_6 c i arg2 harg2 arg3 harg3 arg4 harg4 arg5 harg5 arg6 harg6 arg7 harg7 arg8 harg8 arg9 harg9 arg10 harg10 hc0 hc1 x0 x1 x2 x3, sout1_A_0 c i arg2 harg2 arg3 harg3 arg4 harg4 arg5 harg5 arg6 harg6 arg7 harg7 arg8 harg8 arg9 harg9 arg10 harg10 hc0 hc1 x0 x1 x2 x3, sout1_A_1 c i arg2 harg2 arg3 harg3 arg4 harg4 arg5 harg5 arg6 harg6 arg7 harg7 arg8 harg8 arg9 harg9 arg10 harg10 hc0 hc1 x0 x1 x2 x3)

/-- case B's pieces for output 4 tile its block (one whole store), so they cover it. -/
theorem cover1_B_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1024x512.Idx) :
    ∃ pc ∈ (kernelRun1_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0 xs1).1 S1024x512.size (by sl_kernel_rfl) y

/-- What case B leaves in output 4's staging buffer: its pieces read back over junk. -/
def out1_B_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 hc1 x0 x1 x2 x3 xs0 xs1).1)

/-- case B stores nothing into output 5 (the window is idle at its points and not written back there): no
    pieces — a placeholder (junk read back) that nothing consults, since at these points the window is neither written
    back nor read at the next point. -/
def out1_B_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 xs0 xs1).2.1)

/-- case B stores nothing into output 6 (the window is idle at its points and not written back there): no
    pieces — a placeholder (junk read back) that nothing consults, since at these points the window is neither written
    back nor read at the next point. -/
def out1_B_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 xs0 xs1).2.2.1)

/-- case B's pieces for carried scratch 0 cover it (whole stores). -/
theorem scover1_B_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_B c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0 xs1).2.2.2.1 S1x512.size (by sl_kernel_rfl) y

/-- What case B leaves in carried scratch 0: its pieces read back over junk. -/
def sout1_B_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 xs0 xs1).2.2.2.1)

/-- case B's pieces for carried scratch 1 cover it (whole stores). -/
theorem scover1_B_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_B c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0 xs1).2.2.2.2.1 S1x512.size (by sl_kernel_rfl) y

/-- What case B leaves in carried scratch 1: its pieces read back over junk. -/
def sout1_B_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 xs0 xs1).2.2.2.2.1)

/-- What case B leaves, as a tuple: the outputs in window order, then the two carried scratches. -/
def outs1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 × Vec F S1x1x512 .f32 × Vec F S1x1x512 .f32 × Vec F S1x512 .f32 × Vec F S1x512 .f32 :=
  (out1_B_4 c i arg2 harg2 arg3 harg3 arg4 harg4 arg5 harg5 arg6 harg6 arg7 harg7 arg8 harg8 arg9 harg9 arg10 harg10 hc0 hc1 x0 x1 x2 x3 xs0 xs1, out1_B_5 c i arg2 harg2 arg3 harg3 arg4 harg4 arg5 harg5 arg6 harg6 arg7 harg7 arg8 harg8 arg9 harg9 arg10 harg10 hc0 hc1 x0 x1 x2 x3 xs0 xs1, out1_B_6 c i arg2 harg2 arg3 harg3 arg4 harg4 arg5 harg5 arg6 harg6 arg7 harg7 arg8 harg8 arg9 harg9 arg10 harg10 hc0 hc1 x0 x1 x2 x3 xs0 xs1, sout1_B_0 c i arg2 harg2 arg3 harg3 arg4 harg4 arg5 harg5 arg6 harg6 arg7 harg7 arg8 harg8 arg9 harg9 arg10 harg10 hc0 hc1 x0 x1 x2 x3 xs0 xs1, sout1_B_1 c i arg2 harg2 arg3 harg3 arg4 harg4 arg5 harg5 arg6 harg6 arg7 harg7 arg8 harg8 arg9 harg9 arg10 harg10 hc0 hc1 x0 x1 x2 x3 xs0 xs1)

/-- case C's pieces for output 4 tile its block (one whole store), so they cover it. -/
theorem cover1_C_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1024x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).1 S1024x512.size (by sl_kernel_rfl) y

/-- What case C leaves in output 4's staging buffer: its pieces read back over junk. -/
def out1_C_4 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 x0 x1 x2 x3 xs0 xs1).1)

/-- case C's pieces for output 5 tile its block (one whole store), so they cover it. -/
theorem cover1_C_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.1 S1x1x512.size (by sl_kernel_rfl) y

/-- What case C leaves in output 5's staging buffer: its pieces read back over junk. -/
def out1_C_5 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 xs0 xs1).2.1)

/-- case C's pieces for output 6 tile its block (one whole store), so they cover it. -/
theorem cover1_C_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.2.1 S1x1x512.size (by sl_kernel_rfl) y

/-- What case C leaves in output 6's staging buffer: its pieces read back over junk. -/
def out1_C_6 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x1x512 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 xs0 xs1).2.2.1)

/-- case C's pieces for carried scratch 0 cover it (whole stores). -/
theorem scover1_C_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.2.2.1 S1x512.size (by sl_kernel_rfl) y

/-- What case C leaves in carried scratch 0: its pieces read back over junk. -/
def sout1_C_0 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 xs0 xs1).2.2.2.1)

/-- case C's pieces for carried scratch 1 cover it (whole stores). -/
theorem scover1_C_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) (y : S1x512.Idx) :
    ∃ pc ∈ (kernelRun1_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs0 xs1).2.2.2.2.1 S1x512.size (by sl_kernel_rfl) y

/-- What case C leaves in carried scratch 1: its pieces read back over junk. -/
def sout1_C_1 (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1x512 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 xs0 xs1).2.2.2.2.1)

/-- What case C leaves, as a tuple: the outputs in window order, then the two carried scratches. -/
def outs1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) : Vec F S1024x512 .f32 × Vec F S1x1x512 .f32 × Vec F S1x1x512 .f32 × Vec F S1x512 .f32 × Vec F S1x512 .f32 :=
  (out1_C_4 c i arg2 harg2 arg3 harg3 arg4 harg4 arg5 harg5 arg6 harg6 arg7 harg7 arg8 harg8 arg9 harg9 arg10 harg10 hc0 hc1 x0 x1 x2 x3 xs0 xs1, out1_C_5 c i arg2 harg2 arg3 harg3 arg4 harg4 arg5 harg5 arg6 harg6 arg7 harg7 arg8 harg8 arg9 harg9 arg10 harg10 hc0 hc1 x0 x1 x2 x3 xs0 xs1, out1_C_6 c i arg2 harg2 arg3 harg3 arg4 harg4 arg5 harg5 arg6 harg6 arg7 harg7 arg8 harg8 arg9 harg9 arg10 harg10 hc0 hc1 x0 x1 x2 x3 xs0 xs1, sout1_C_0 c i arg2 harg2 arg3 harg3 arg4 harg4 arg5 harg5 arg6 harg6 arg7 harg7 arg8 harg8 arg9 harg9 arg10 harg10 hc0 hc1 x0 x1 x2 x3 xs0 xs1, sout1_C_1 c i arg2 harg2 arg3 harg3 arg4 harg4 arg5 harg5 arg6 harg6 arg7 harg7 arg8 harg8 arg9 harg9 arg10 harg10 hc0 hc1 x0 x1 x2 x3 xs0 xs1)

/-! ## What the outputs and the carried scratches hold after each point -/

/-- THE ACCUMULATION. What the outputs' staging buffers and the two scratches the kernel carries between points hold
    after the body at position `n` (a tuple: the outputs in window order, then the scratches): the case the closed
    forms select at `n`, run at the point's memrefs and input blocks, the carried scratches at what this leaves at
    `n - 1`. An assignment of the conditions no point meets is no case. -/
def outsAt1 (c : Dev nD) : (n : ℕ) → n < cfg1.N → Vec F S1024x512 .f32 × Vec F S1x1x512 .f32 × Vec F S1x1x512 .f32 × Vec F S1x512 .f32 × Vec F S1x512 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 4 = 0 then
      if h1 : (n + 1) % 4 = 3 then
        False.elim (by have hN : n + 1 < 8 := lt_of_lt_of_eq hn (show cfg1.N = 8 from N_1); omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 4 = 3 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2

/-- `outsAt1` at a point of case A: that case's contents. -/
theorem outsAt1_A (c : Dev nD) (t : Fin cfg1.N) (h0 : t.val % 4 = 0) (h1 : ¬t.val % 4 = 3) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`, with the two scratches the kernel carries between points: before the
    first point the class's (every scratch at anything); afterwards the scoped rest with each carried scratch at what
    the point before left in it (`outsAt1`'s scratch components), the remainder untouched, and the generator register
    at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratches at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r)) := rfl

/-- Before a point that is not the first: the carried scratches at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the outputs' at `outsAt1`'s components; the invariant `PhiS1` (the class's
    before the first point, then the scoped rest with the carried scratches at `outsAt1`'s components); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

/-- The proof data's arrays are the region-entry contents: the proof data's definition projected, so that `V` is
    never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks (`before1_W`); the closed forms say which case the
    point is in; so that case's run applies; the invariant hands the body the carried scratches at what the point
    before left (at anything at the first point) and the generator register at some state, and takes the carried
    scratches back at this point's contents (their pieces cover them); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold outs1_A out1_A_4 sout1_A_0 sout1_A_1; (try dsimp only)
      by_cases hz : t.val = 0
      · rw [PhiS1_castSucc V c t, PhiS1_zero V c _ _ hz, PhiA1_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        iintro ⟨H0, H1, H2, H3, ⟨%e4, H4⟩, H5, H6, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _)
        isplitl [H5]; · iexists _; iexact H5
        iexists _; iexact H6
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexists _; iexact HS0
        isplitl [HS1]; · iexists _; iexact HS1
        iintro ⟨H0, H1, H2, H3, ⟨%e4, H4⟩, H5, H6, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _)
        isplitl [H5]; · iexists _; iexact H5
        iexists _; iexact H6

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold outs1_C out1_C_4 out1_C_5 out1_C_6 sout1_C_0 sout1_C_1; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, ⟨%e4, H4⟩, ⟨%e5, H5⟩, ⟨%e6, H6⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _)
              unfold owns; iexists _; isplitr
              swap; · iexact HS1
              ipureintro; exact View.read_writes_of_cover _ _ _ _ _ (scover1_C_1 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold outs1_B out1_B_4 sout1_B_0 sout1_B_1; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        iintro ⟨H0, H1, H2, H3, ⟨%e4, H4⟩, H5, H6, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _)
              unfold owns; iexists _; isplitr
              swap; · iexact HS1
              ipureintro; exact View.read_writes_of_cover _ _ _ _ _ (scover1_B_1 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _ _ _ _)
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratches' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Gen

end
-- ==== Proof.K2_B.lean ====
/-
  The third launch of the program: the normalisation-and-residual body, which at every grid point reads one block of rows
  of the pre-normalised product and of the residual input together with the four per-column rows (mean, inverse deviation,
  scale, shift) and stores the whole output block once. Everything here is stated at the contents `V` the launch finds in
  the buffers: each window's block at a point, the body's triple, the proof data and the body obligation.
-/
import proofs.«154593_j40999757807684_2_alg».proof.Proof.Gen.Kernel.Launch
import proofs.«154593_j40999757807684_2_alg».proof.Proof.Gen.Kernel.Skeleton
import proofs.«154593_j40999757807684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev r2_0 : Rect S1024x512 := Rect.unit (s := S1024x512) ![0, 0] S1024x512.size inb_S1024x512_S1024x512_0_0
abbrev r2_row : Rect S1x512 := Rect.unit (s := S1x512) ![0, 0] S1x512.size inb_S1x512_S1x512_0_0

/-- The output window's staging buffer after the body: its single store, of the body's arithmetic on the six loaded blocks. -/
def out2_6 (x0 : Vec F S1024x512 .f32) (x1 : Vec F S1024x512 .f32) (x2 : Vec F S1x512 .f32) (x3 : Vec F S1x512 .f32) (x4 : Vec F S1x512 .f32) (x5 : Vec F S1x512 .f32) : Vec F S1024x512 .f32 :=
  View.canon [⟨r2_0, k2_pay1 (View.ld x0 r2_0) (View.ld x1 r2_0) (View.ld x2 r2_row) (View.ld x3 r2_row) (View.ld x4 r2_row) (View.ld x5 r2_row)⟩]

/-- The store covers the block. -/
theorem cover2_6 (p0 : Vec F S1024x512 .f32) (y : S1024x512.Idx) :
    ∃ pc ∈ ([⟨r2_0, p0⟩] : List (View.Piece (Elt F) S1024x512 .f32)), y ∈ pc.1.set :=
  View.cover_of_tiled [⟨r2_0, p0⟩] S1024x512.size (by rfl) y

set_option maxHeartbeats 1000000 in
/-- The body on whole staging memrefs, the inputs' at read contents and the output's at anything, runs to the continuation
    holding the inputs' as they were and the output's at `out2_6` of the inputs'. -/
theorem sound_kernel2 (c : Dev nD) (E : Set ℕ) (i : grid2.Coords)
    (arg1 : Memref sig .tc .vmem S1024x512 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1024x512 .f32) (harg7 : arg7.IsWhole)
    (x0 : Vec F S1024x512 .f32) (x1 : Vec F S1024x512 .f32) (x2 : Vec F S1x512 .f32) (x3 : Vec F S1x512 .f32) (x4 : Vec F S1x512 .f32) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the third launch on core `c`: the arrays as the launch finds them; after the body at point `t` each
    input's buffer at its block and the output's at `out2_6` of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KHalves_B.lean ====
/-
  The three launches' halves put into the run: the first two carry an accumulator between grid points, the third is a
  plain pointwise body; with them the run of the whole program holds outright, and with it the frame.
-/
import proofs.«154593_j40999757807684_2_alg».proof.Proof.KRun_B
import proofs.«154593_j40999757807684_2_alg».proof.Proof.K0Frame_B
import proofs.«154593_j40999757807684_2_alg».proof.Proof.K1Frame_B
import proofs.«154593_j40999757807684_2_alg».proof.Proof.K2_B

set_option maxRecDepth 16384

noncomputable section

namespace Cert.Kernel.Gen

open Idealize.ShloMosaic Idealize.ShloMosaic.TcCoe
open Idealize.SL Idealize.SL.RA Idealize.SL.BI
open scoped Idealize.SL.BI
open Idealize.SL.Sem
open Idealize.ShloMosaic.Pipeline (Dat Cfg Window BodyObligation cellOf)

variable {F : FTy → Type} [FloatOps F]

/-- The first launch's half. -/
def half0 : Half0 F where
  after V c := (dat0 V c).after
  Φ V c := (dat0 V c).Φ
  body V c := body_obligation0 V c
  hin V c := hin0 V c
  hout V c := hout0 V c

/-- The second launch's half. -/
def half1 : Half1 F where
  after V c := (dat1 V c).after
  Φ V c := (dat1 V c).Φ
  body V c := body_obligation1 V c
  hin V c := hin1 V c
  hout V c := hout1 V c

/-- The third launch's half: its invariant is the scoped rest beside the generator register throughout. -/
def half2 : Half2 F where
  after V c := (dat2 V c).after
  Φ V c := (dat2 V c).Φ
  body V c := body_obligation2 V c
  hin V c := BI.Entails.refl _
  hout V c := BI.Entails.refl _

variable (m : (ℓ : Loc nD τ sig) → Buf (Elt F) ℓ) (ρ : Dev nD → PrngReg)

/-- THE RUN of the program: every unscoped buffer ends at the last boundary's contents. -/
theorem run_main' : θ_run defs (onTc (τ := τ) (main (F := F))) ⟨m, fun _ => 0, ρ⟩ (fun r => ∀ c : Dev nD,
      ∀ b ∈ Pipeline.ucRefs τ sig, r.2.mem (((c : Thread nD τ)).1, b) = W7 (F := F) half0 half1 half2 m ρ c b) :=
  run_all (F := F) half0 half1 half2 m ρ

/-- THE FRAME at any instance. -/
theorem frame' : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_all (F := F) half0 half1 half2 m ρ

end Cert.Kernel.Gen

end
-- ==== Proof.RefRun.lean ====
/- The reference program's run, read back: @main as the list of its seventy host operations (the outlined
   variance function and the selection function it calls written out in the call's place, over the call's own
   buffers), the run of that list from any memory with zero counters, and the result buffer's final contents as a
   composition of one named stage per operation. -/
import proofs.«154593_j40999757807684_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: its own fifty, and in the place of the call of the variance function that
    function's nineteen and the selection function's three, each over the call's buffers. -/
abbrev ops : List (HloOp τ sig (Elt F)) :=
  [ reshape main_arg0 main_v0 rfl shapeCasts_S8x1024x512_S8192x512,
    reshape main_arg1 main_v1 rfl shapeCasts_S8x1024x256_S8192x256,
    binary main_v1 main_arg2 main_v2 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg3 main_v3 (broadcastInDim S1x256 ![1] bcast_S256_S1x256_1 : (⟨S256, .f32⟩ : BufTy).Contents (Elt F) → (⟨S1x256, .f32⟩ : BufTy).Contents (Elt F)),
    unary main_v3 main_v4 (broadcastInDim S8192x256 ![0, 1] bcast_S1x256_S8192x256_0_1 : (⟨S1x256, .f32⟩ : BufTy).Contents (Elt F) → (⟨S8192x256, .f32⟩ : BufTy).Contents (Elt F)),
    binary main_v2 main_v4 main_v5 (addf : (⟨S8192x256, .f32⟩ : BufTy).Contents (Elt F) → (⟨S8192x256, .f32⟩ : BufTy).Contents (Elt F) → (⟨S8192x256, .f32⟩ : BufTy).Contents (Elt F)),
    binary main_v0 main_arg4 main_v6 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg5 main_v7 (broadcastInDim S1x256 ![1] bcast_S256_S1x256_1 : (⟨S256, .f32⟩ : BufTy).Contents (Elt F) → (⟨S1x256, .f32⟩ : BufTy).Contents (Elt F)),
    unary main_v7 main_v8 (broadcastInDim S8192x256 ![0, 1] bcast_S1x256_S8192x256_0_1 : (⟨S1x256, .f32⟩ : BufTy).Contents (Elt F) → (⟨S8192x256, .f32⟩ : BufTy).Contents (Elt F)),
    binary main_v6 main_v8 main_v9 (addf : (⟨S8192x256, .f32⟩ : BufTy).Contents (Elt F) → (⟨S8192x256, .f32⟩ : BufTy).Contents (Elt F) → (⟨S8192x256, .f32⟩ : BufTy).Contents (Elt F)),
    binary main_v1 main_arg6 main_v10 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg7 main_v11 (broadcastInDim S1x256 ![1] bcast_S256_S1x256_1 : (⟨S256, .f32⟩ : BufTy).Contents (Elt F) → (⟨S1x256, .f32⟩ : BufTy).Contents (Elt F)),
    unary main_v11 main_v12 (broadcastInDim S8192x256 ![0, 1] bcast_S1x256_S8192x256_0_1 : (⟨S1x256, .f32⟩ : BufTy).Contents (Elt F) → (⟨S8192x256, .f32⟩ : BufTy).Contents (Elt F)),
    binary main_v10 main_v12 main_v13 (addf : (⟨S8192x256, .f32⟩ : BufTy).Contents (Elt F) → (⟨S8192x256, .f32⟩ : BufTy).Contents (Elt F) → (⟨S8192x256, .f32⟩ : BufTy).Contents (Elt F)),
    unary main_v13 main_v14 ((transpose S256x8192 [1, 0] · transposes_S8192x256_S256x8192_1_0) : (⟨S8192x256, .f32⟩ : BufTy).Contents (Elt F) → (⟨S256x8192, .f32⟩ : BufTy).Contents (Elt F)),
    binary main_v9 main_v14 main_v15 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x46000000#32),
    unary main_cst main_v16 (broadcastInDim S8192x8192 ![] bcast_S_S8192x8192 : (⟨S_, .f32⟩ : BufTy).Contents (Elt F) → (⟨S8192x8192, .f32⟩ : BufTy).Contents (Elt F)),
    binary main_v15 main_v16 main_v17 (Host.divf : (⟨S8192x8192, .f32⟩ : BufTy).Contents (Elt F) → (⟨S8192x8192, .f32⟩ : BufTy).Contents (Elt F) → (⟨S8192x8192, .f32⟩ : BufTy).Contents (Elt F)),
    binary main_v17 main_v5 main_v18 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v18 main_arg8 main_v19 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    unary main_arg9 main_v20 (broadcastInDim S1x512 ![1] bcast_S512_S1x512_1 : (⟨S512, .f32⟩ : BufTy).Contents (Elt F) → (⟨S1x512, .f32⟩ : BufTy).Contents (Elt F)),
    unary main_v20 main_v21 (broadcastInDim S8192x512 ![0, 1] bcast_S1x512_S8192x512_0_1 : (⟨S1x512, .f32⟩ : BufTy).Contents (Elt F) → (⟨S8192x512, .f32⟩ : BufTy).Contents (Elt F)),
    binary main_v19 main_v21 main_v22 (addf : (⟨S8192x512, .f32⟩ : BufTy).Contents (Elt F) → (⟨S8192x512, .f32⟩ : BufTy).Contents (Elt F) → (⟨S8192x512, .f32⟩ : BufTy).Contents (Elt F)),
    nullary main_cst_0 (constant S_ .f32 0x00000000#32),
    binary main_v22 main_cst_0 main_v23 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_1 (constant S_ .f32 0x46000000#32),
    unary main_cst_1 main_v24 (broadcastInDim S512 ![] bcast_S_S512 : (⟨S_, .f32⟩ : BufTy).Contents (Elt F) → (⟨S512, .f32⟩ : BufTy).Contents (Elt F)),
    binary main_v23 main_v24 main_v25 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S8192x512, .f32⟩) main_v22) (TRef.of (T := ⟨S_, .f32⟩) main_call0_cst) (TRef.of (T := ⟨S512, .f32⟩) main_call0_v0) (fun x v => Host.reduceAdd x v reducesTo_S8192x512_S512_d0 h_S_),
    TRef.unary (TRef.of (T := ⟨S512, .f32⟩) main_call0_v0) (TRef.of (T := ⟨S1x512, .f32⟩) main_call0_v1) (broadcastInDim S1x512 ![1] bcast_S512_S1x512_1),
    TRef.nullary (TRef.of (T := ⟨S_, .f32⟩) main_call0_cst_0) (constant S_ .f32 0x46000000#32),
    TRef.unary (TRef.of (T := ⟨S_, .f32⟩) main_call0_cst_0) (TRef.of (T := ⟨S1x512, .f32⟩) main_call0_v2) (broadcastInDim S1x512 ![] bcast_S_S1x512),
    TRef.binary (TRef.of (T := ⟨S1x512, .f32⟩) main_call0_v1) (TRef.of (T := ⟨S1x512, .f32⟩) main_call0_v2) (TRef.of (T := ⟨S1x512, .f32⟩) main_call0_v3) Host.divf,
    TRef.unary (TRef.of (T := ⟨S1x512, .f32⟩) main_call0_v3) (TRef.of (T := ⟨S8192x512, .f32⟩) main_call0_v4) (broadcastInDim S8192x512 ![0, 1] bcast_S1x512_S8192x512_0_1),
    TRef.binary (TRef.of (T := ⟨S8192x512, .f32⟩) main_v22) (TRef.of (T := ⟨S8192x512, .f32⟩) main_call0_v4) (TRef.of (T := ⟨S8192x512, .f32⟩) main_call0_v5) subf,
    TRef.binary (TRef.of (T := ⟨S8192x512, .f32⟩) main_call0_v5) (TRef.of (T := ⟨S8192x512, .f32⟩) main_call0_v5) (TRef.of (T := ⟨S8192x512, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x46000000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S8192x512, .f32⟩) main_call0_v6) (TRef.of (T := ⟨S_, .f32⟩) main_call0_cst_2) (TRef.of (T := ⟨S512, .f32⟩) main_call0_v9) (fun x v => Host.reduceAdd x v reducesTo_S8192x512_S512_d0 h_S_),
    TRef.unary (TRef.of (T := ⟨S_, .f32⟩) main_call0_v8) (TRef.of (T := ⟨S512, .f32⟩) main_call0_v10) (broadcastInDim S512 ![] bcast_S_S512),
    TRef.binary (TRef.of (T := ⟨S512, .f32⟩) main_call0_v9) (TRef.of (T := ⟨S512, .f32⟩) main_call0_v10) (TRef.of (T := ⟨S512, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S512, .f32⟩) main_call0_call0_v1) (broadcastInDim S512 ![] bcast_S_S512),
    TRef.ternary (TRef.of (T := ⟨S_, .i1⟩) main_call0_v12) (TRef.of (T := ⟨S512, .f32⟩) main_call0_v11) (TRef.of (T := ⟨S512, .f32⟩) main_call0_call0_v1) (TRef.of (T := ⟨S512, .f32⟩) main_v26) (fun p a b => select (broadcastInDim S512 ![] bcast_S_S512 p) a b),
    unary main_v25 main_v27 (broadcastInDim S1x512 ![1] bcast_S512_S1x512_1 : (⟨S512, .f32⟩ : BufTy).Contents (Elt F) → (⟨S1x512, .f32⟩ : BufTy).Contents (Elt F)),
    unary main_v27 main_v28 (broadcastInDim S8192x512 ![0, 1] bcast_S1x512_S8192x512_0_1 : (⟨S1x512, .f32⟩ : BufTy).Contents (Elt F) → (⟨S8192x512, .f32⟩ : BufTy).Contents (Elt F)),
    binary main_v22 main_v28 main_v29 (subf : (⟨S8192x512, .f32⟩ : BufTy).Contents (Elt F) → (⟨S8192x512, .f32⟩ : BufTy).Contents (Elt F) → (⟨S8192x512, .f32⟩ : BufTy).Contents (Elt F)),
    nullary main_cst_2 (constant S_ .f32 0x3727C5AC#32),
    unary main_cst_2 main_v30 (broadcastInDim S512 ![] bcast_S_S512 : (⟨S_, .f32⟩ : BufTy).Contents (Elt F) → (⟨S512, .f32⟩ : BufTy).Contents (Elt F)),
    binary main_v26 main_v30 main_v31 (addf : (⟨S512, .f32⟩ : BufTy).Contents (Elt F) → (⟨S512, .f32⟩ : BufTy).Contents (Elt F) → (⟨S512, .f32⟩ : BufTy).Contents (Elt F)),
    unary main_v31 main_v32 (Host.rsqrt : (⟨S512, .f32⟩ : BufTy).Contents (Elt F) → (⟨S512, .f32⟩ : BufTy).Contents (Elt F)),
    unary main_v32 main_v33 (broadcastInDim S1x512 ![1] bcast_S512_S1x512_1 : (⟨S512, .f32⟩ : BufTy).Contents (Elt F) → (⟨S1x512, .f32⟩ : BufTy).Contents (Elt F)),
    unary main_v33 main_v34 (broadcastInDim S8192x512 ![0, 1] bcast_S1x512_S8192x512_0_1 : (⟨S1x512, .f32⟩ : BufTy).Contents (Elt F) → (⟨S8192x512, .f32⟩ : BufTy).Contents (Elt F)),
    binary main_v29 main_v34 main_v35 (mulf : (⟨S8192x512, .f32⟩ : BufTy).Contents (Elt F) → (⟨S8192x512, .f32⟩ : BufTy).Contents (Elt F) → (⟨S8192x512, .f32⟩ : BufTy).Contents (Elt F)),
    unary main_arg10 main_v36 (broadcastInDim S1x512 ![1] bcast_S512_S1x512_1 : (⟨S512, .f32⟩ : BufTy).Contents (Elt F) → (⟨S1x512, .f32⟩ : BufTy).Contents (Elt F)),
    unary main_v36 main_v37 (broadcastInDim S8192x512 ![0, 1] bcast_S1x512_S8192x512_0_1 : (⟨S1x512, .f32⟩ : BufTy).Contents (Elt F) → (⟨S8192x512, .f32⟩ : BufTy).Contents (Elt F)),
    binary main_v35 main_v37 main_v38 (mulf : (⟨S8192x512, .f32⟩ : BufTy).Contents (Elt F) → (⟨S8192x512, .f32⟩ : BufTy).Contents (Elt F) → (⟨S8192x512, .f32⟩ : BufTy).Contents (Elt F)),
    unary main_arg11 main_v39 (broadcastInDim S1x512 ![1] bcast_S512_S1x512_1 : (⟨S512, .f32⟩ : BufTy).Contents (Elt F) → (⟨S1x512, .f32⟩ : BufTy).Contents (Elt F)),
    unary main_v39 main_v40 (broadcastInDim S8192x512 ![0, 1] bcast_S1x512_S8192x512_0_1 : (⟨S1x512, .f32⟩ : BufTy).Contents (Elt F) → (⟨S8192x512, .f32⟩ : BufTy).Contents (Elt F)),
    binary main_v38 main_v40 main_v41 (addf : (⟨S8192x512, .f32⟩ : BufTy).Contents (Elt F) → (⟨S8192x512, .f32⟩ : BufTy).Contents (Elt F) → (⟨S8192x512, .f32⟩ : BufTy).Contents (Elt F)),
    binary main_v41 main_v0 main_v42 (addf : (⟨S8192x512, .f32⟩ : BufTy).Contents (Elt F) → (⟨S8192x512, .f32⟩ : BufTy).Contents (Elt F) → (⟨S8192x512, .f32⟩ : BufTy).Contents (Elt F)),
    reshape main_v42 main_v43 rfl shapeCasts_S8192x512_S8x1024x512 ]

-- seventy binds re-associated: the rewriting recurses once per statement
set_option maxRecDepth 8192 in
set_option maxHeartbeats 4000000 in
/-- @main is that straight line: the two functions' definitions unfolded at their calls, both sides are one chain
    of steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., reshape_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., reshape_bufs_sub ..⟩

/-! ## The stages: each buffer's final contents as a function of the twelve argument arrays -/

/-- The twelve argument arrays. -/
structure Args (F : FTy → Type) where
  a0 : (⟨S8x1024x512, .f32⟩ : BufTy).Contents (Elt F)
  a1 : (⟨S8x1024x256, .f32⟩ : BufTy).Contents (Elt F)
  a2 : (⟨S256x256, .f32⟩ : BufTy).Contents (Elt F)
  a3 : (⟨S256, .f32⟩ : BufTy).Contents (Elt F)
  a4 : (⟨S512x256, .f32⟩ : BufTy).Contents (Elt F)
  a5 : (⟨S256, .f32⟩ : BufTy).Contents (Elt F)
  a6 : (⟨S256x256, .f32⟩ : BufTy).Contents (Elt F)
  a7 : (⟨S256, .f32⟩ : BufTy).Contents (Elt F)
  a8 : (⟨S256x512, .f32⟩ : BufTy).Contents (Elt F)
  a9 : (⟨S512, .f32⟩ : BufTy).Contents (Elt F)
  a10 : (⟨S512, .f32⟩ : BufTy).Contents (Elt F)
  a11 : (⟨S512, .f32⟩ : BufTy).Contents (Elt F)

/-- the contents of `main_v0` after the run, from the argument arrays -/
def v0 (A : Args F) : (⟨S8192x512, .f32⟩ : BufTy).Contents (Elt F) :=
  shapeCast S8192x512 A.a0 shapeCasts_S8x1024x512_S8192x512

/-- the contents of `main_v1` after the run, from the argument arrays -/
def v1 (A : Args F) : (⟨S8192x256, .f32⟩ : BufTy).Contents (Elt F) :=
  shapeCast S8192x256 A.a1 shapeCasts_S8x1024x256_S8192x256

/-- the contents of `main_v2` after the run, from the argument arrays -/
def v2 (A : Args F) : (⟨S8192x256, .f32⟩ : BufTy).Contents (Elt F) :=
  ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)) (v1 A) A.a2

/-- the contents of `main_v3` after the run, from the argument arrays -/
def v3 (A : Args F) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) A.a3

/-- the contents of `main_v4` after the run, from the argument arrays -/
def v4 (A : Args F) : (⟨S8192x256, .f32⟩ : BufTy).Contents (Elt F) :=
  (broadcastInDim S8192x256 ![0, 1] bcast_S1x256_S8192x256_0_1 : (⟨S1x256, .f32⟩ : BufTy).Contents (Elt F) → (⟨S8192x256, .f32⟩ : BufTy).Contents (Elt F)) (v3 A)

/-- the contents of `main_v5` after the run, from the argument arrays -/
def v5 (A : Args F) : (⟨S8192x256, .f32⟩ : BufTy).Contents (Elt F) :=
  (addf : (⟨S8192x256, .f32⟩ : BufTy).Contents (Elt F) → (⟨S8192x256, .f32⟩ : BufTy).Contents (Elt F) → (⟨S8192x256, .f32⟩ : BufTy).Contents (Elt F)) (v2 A) (v4 A)

/-- the contents of `main_v6` after the run, from the argument arrays -/
def v6 (A : Args F) : (⟨S8192x256, .f32⟩ : BufTy).Contents (Elt F) :=
  ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)) (v0 A) A.a4

/-- the contents of `main_v7` after the run, from the argument arrays -/
def v7 (A : Args F) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) A.a5

/-- the contents of `main_v8` after the run, from the argument arrays -/
def v8 (A : Args F) : (⟨S8192x256, .f32⟩ : BufTy).Contents (Elt F) :=
  (broadcastInDim S8192x256 ![0, 1] bcast_S1x256_S8192x256_0_1 : (⟨S1x256, .f32⟩ : BufTy).Contents (Elt F) → (⟨S8192x256, .f32⟩ : BufTy).Contents (Elt F)) (v7 A)

/-- the contents of `main_v9` after the run, from the argument arrays -/
def v9 (A : Args F) : (⟨S8192x256, .f32⟩ : BufTy).Contents (Elt F) :=
  (addf : (⟨S8192x256, .f32⟩ : BufTy).Contents (Elt F) → (⟨S8192x256, .f32⟩ : BufTy).Contents (Elt F) → (⟨S8192x256, .f32⟩ : BufTy).Contents (Elt F)) (v6 A) (v8 A)

/-- the contents of `main_v10` after the run, from the argument arrays -/
def v10 (A : Args F) : (⟨S8192x256, .f32⟩ : BufTy).Contents (Elt F) :=
  ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)) (v1 A) A.a6

/-- the contents of `main_v11` after the run, from the argument arrays -/
def v11 (A : Args F) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) A.a7

/-- the contents of `main_v12` after the run, from the argument arrays -/
def v12 (A : Args F) : (⟨S8192x256, .f32⟩ : BufTy).Contents (Elt F) :=
  (broadcastInDim S8192x256 ![0, 1] bcast_S1x256_S8192x256_0_1 : (⟨S1x256, .f32⟩ : BufTy).Contents (Elt F) → (⟨S8192x256, .f32⟩ : BufTy).Contents (Elt F)) (v11 A)

/-- the contents of `main_v13` after the run, from the argument arrays -/
def v13 (A : Args F) : (⟨S8192x256, .f32⟩ : BufTy).Contents (Elt F) :=
  (addf : (⟨S8192x256, .f32⟩ : BufTy).Contents (Elt F) → (⟨S8192x256, .f32⟩ : BufTy).Contents (Elt F) → (⟨S8192x256, .f32⟩ : BufTy).Contents (Elt F)) (v10 A) (v12 A)

/-- the contents of `main_v14` after the run, from the argument arrays -/
def v14 (A : Args F) : (⟨S256x8192, .f32⟩ : BufTy).Contents (Elt F) :=
  ((transpose S256x8192 [1, 0] · transposes_S8192x256_S256x8192_1_0) : (⟨S8192x256, .f32⟩ : BufTy).Contents (Elt F) → (⟨S256x8192, .f32⟩ : BufTy).Contents (Elt F)) (v13 A)

/-- the contents of `main_v15` after the run, from the argument arrays -/
def v15 (A : Args F) : (⟨S8192x8192, .f32⟩ : BufTy).Contents (Elt F) :=
  ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) (v9 A) (v14 A)

/-- the contents of `main_cst` after the run, from the argument arrays -/
def cst (A : Args F) : (⟨S_, .f32⟩ : BufTy).Contents (Elt F) :=
  (constant S_ .f32 0x46000000#32)

/-- the contents of `main_v16` after the run, from the argument arrays -/
def v16 (A : Args F) : (⟨S8192x8192, .f32⟩ : BufTy).Contents (Elt F) :=
  (broadcastInDim S8192x8192 ![] bcast_S_S8192x8192 : (⟨S_, .f32⟩ : BufTy).Contents (Elt F) → (⟨S8192x8192, .f32⟩ : BufTy).Contents (Elt F)) (cst A)

/-- the contents of `main_v17` after the run, from the argument arrays -/
def v17 (A : Args F) : (⟨S8192x8192, .f32⟩ : BufTy).Contents (Elt F) :=
  (Host.divf : (⟨S8192x8192, .f32⟩ : BufTy).Contents (Elt F) → (⟨S8192x8192, .f32⟩ : BufTy).Contents (Elt F) → (⟨S8192x8192, .f32⟩ : BufTy).Contents (Elt F)) (v15 A) (v16 A)

/-- the contents of `main_v18` after the run, from the argument arrays -/
def v18 (A : Args F) : (⟨S8192x256, .f32⟩ : BufTy).Contents (Elt F) :=
  ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) (v17 A) (v5 A)

/-- the contents of `main_v19` after the run, from the argument arrays -/
def v19 (A : Args F) : (⟨S8192x512, .f32⟩ : BufTy).Contents (Elt F) :=
  ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)) (v18 A) A.a8

/-- the contents of `main_v20` after the run, from the argument arrays -/
def v20 (A : Args F) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) A.a9

/-- the contents of `main_v21` after the run, from the argument arrays -/
def v21 (A : Args F) : (⟨S8192x512, .f32⟩ : BufTy).Contents (Elt F) :=
  (broadcastInDim S8192x512 ![0, 1] bcast_S1x512_S8192x512_0_1 : (⟨S1x512, .f32⟩ : BufTy).Contents (Elt F) → (⟨S8192x512, .f32⟩ : BufTy).Contents (Elt F)) (v20 A)

/-- the contents of `main_v22` after the run, from the argument arrays -/
def v22 (A : Args F) : (⟨S8192x512, .f32⟩ : BufTy).Contents (Elt F) :=
  (addf : (⟨S8192x512, .f32⟩ : BufTy).Contents (Elt F) → (⟨S8192x512, .f32⟩ : BufTy).Contents (Elt F) → (⟨S8192x512, .f32⟩ : BufTy).Contents (Elt F)) (v19 A) (v21 A)

/-- the contents of `main_cst_0` after the run, from the argument arrays -/
def cst_0 (A : Args F) : (⟨S_, .f32⟩ : BufTy).Contents (Elt F) :=
  (constant S_ .f32 0x00000000#32)

/-- the contents of `main_v23` after the run, from the argument arrays -/
def v23 (A : Args F) : (⟨S512, .f32⟩ : BufTy).Contents (Elt F) :=
  ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)) (v22 A) (cst_0 A)

/-- the contents of `main_cst_1` after the run, from the argument arrays -/
def cst_1 (A : Args F) : (⟨S_, .f32⟩ : BufTy).Contents (Elt F) :=
  (constant S_ .f32 0x46000000#32)

/-- the contents of `main_v24` after the run, from the argument arrays -/
def v24 (A : Args F) : (⟨S512, .f32⟩ : BufTy).Contents (Elt F) :=
  (broadcastInDim S512 ![] bcast_S_S512 : (⟨S_, .f32⟩ : BufTy).Contents (Elt F) → (⟨S512, .f32⟩ : BufTy).Contents (Elt F)) (cst_1 A)

/-- the contents of `main_v25` after the run, from the argument arrays -/
def v25 (A : Args F) : (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F)) (v23 A) (v24 A)

/-- the contents of `main_c` after the run, from the argument arrays -/
def c_i32 (A : Args F) : (⟨S_, .i32⟩ : BufTy).Contents (Elt F) :=
  (constantI S_ 32 0#32)

/-- the contents of `main_call0_cst` after the run, from the argument arrays -/
def call0_cst (A : Args F) : (⟨S_, .f32⟩ : BufTy).Contents (Elt F) :=
  (constant S_ .f32 0x00000000#32)

/-- the contents of `main_call0_v0` after the run, from the argument arrays -/
def call0_v0 (A : Args F) : (⟨S512, .f32⟩ : BufTy).Contents (Elt F) :=
  (fun x v => Host.reduceAdd x v reducesTo_S8192x512_S512_d0 h_S_) (v22 A) (call0_cst A)

/-- the contents of `main_call0_v1` after the run, from the argument arrays -/
def call0_v1 (A : Args F) : (⟨S1x512, .f32⟩ : BufTy).Contents (Elt F) :=
  (broadcastInDim S1x512 ![1] bcast_S512_S1x512_1) (call0_v0 A)

/-- the contents of `main_call0_cst_0` after the run, from the argument arrays -/
def call0_cst_0 (A : Args F) : (⟨S_, .f32⟩ : BufTy).Contents (Elt F) :=
  (constant S_ .f32 0x46000000#32)

/-- the contents of `main_call0_v2` after the run, from the argument arrays -/
def call0_v2 (A : Args F) : (⟨S1x512, .f32⟩ : BufTy).Contents (Elt F) :=
  (broadcastInDim S1x512 ![] bcast_S_S1x512) (call0_cst_0 A)

/-- the contents of `main_call0_v3` after the run, from the argument arrays -/
def call0_v3 (A : Args F) : (⟨S1x512, .f32⟩ : BufTy).Contents (Elt F) :=
  Host.divf (call0_v1 A) (call0_v2 A)

/-- the contents of `main_call0_v4` after the run, from the argument arrays -/
def call0_v4 (A : Args F) : (⟨S8192x512, .f32⟩ : BufTy).Contents (Elt F) :=
  (broadcastInDim S8192x512 ![0, 1] bcast_S1x512_S8192x512_0_1) (call0_v3 A)

/-- the contents of `main_call0_v5` after the run, from the argument arrays -/
def call0_v5 (A : Args F) : (⟨S8192x512, .f32⟩ : BufTy).Contents (Elt F) :=
  subf (v22 A) (call0_v4 A)

/-- the contents of `main_call0_v6` after the run, from the argument arrays -/
def call0_v6 (A : Args F) : (⟨S8192x512, .f32⟩ : BufTy).Contents (Elt F) :=
  mulf (call0_v5 A) (call0_v5 A)

/-- the contents of `main_call0_v7` after the run, from the argument arrays -/
def call0_v7 (A : Args F) : (⟨S_, .f32⟩ : BufTy).Contents (Elt F) :=
  (sitofp .f32) (c_i32 A)

/-- the contents of `main_call0_cst_1` after the run, from the argument arrays -/
def call0_cst_1 (A : Args F) : (⟨S_, .f32⟩ : BufTy).Contents (Elt F) :=
  (constant S_ .f32 0x46000000#32)

/-- the contents of `main_call0_v8` after the run, from the argument arrays -/
def call0_v8 (A : Args F) : (⟨S_, .f32⟩ : BufTy).Contents (Elt F) :=
  subf (call0_cst_1 A) (call0_v7 A)

/-- the contents of `main_call0_cst_2` after the run, from the argument arrays -/
def call0_cst_2 (A : Args F) : (⟨S_, .f32⟩ : BufTy).Contents (Elt F) :=
  (constant S_ .f32 0x00000000#32)

/-- the contents of `main_call0_v9` after the run, from the argument arrays -/
def call0_v9 (A : Args F) : (⟨S512, .f32⟩ : BufTy).Contents (Elt F) :=
  (fun x v => Host.reduceAdd x v reducesTo_S8192x512_S512_d0 h_S_) (call0_v6 A) (call0_cst_2 A)

/-- the contents of `main_call0_v10` after the run, from the argument arrays -/
def call0_v10 (A : Args F) : (⟨S512, .f32⟩ : BufTy).Contents (Elt F) :=
  (broadcastInDim S512 ![] bcast_S_S512) (call0_v8 A)

/-- the contents of `main_call0_v11` after the run, from the argument arrays -/
def call0_v11 (A : Args F) : (⟨S512, .f32⟩ : BufTy).Contents (Elt F) :=
  Host.divf (call0_v9 A) (call0_v10 A)

/-- the contents of `main_call0_cst_3` after the run, from the argument arrays -/
def call0_cst_3 (A : Args F) : (⟨S_, .f32⟩ : BufTy).Contents (Elt F) :=
  (constant S_ .f32 0x00000000#32)

/-- the contents of `main_call0_v12` after the run, from the argument arrays -/
def call0_v12 (A : Args F) : (⟨S_, .i1⟩ : BufTy).Contents (Elt F) :=
  (cmpf .ogt) (call0_v8 A) (call0_cst_3 A)

/-- the contents of `main_call0_cst_4` after the run, from the argument arrays -/
def call0_cst_4 (A : Args F) : (⟨S_, .f32⟩ : BufTy).Contents (Elt F) :=
  (constant S_ .f32 0x7FC00000#32)

/-- the contents of `main_call0_call0_v0` after the run, from the argument arrays -/
def call0_call0_v0 (A : Args F) : (⟨S_, .f32⟩ : BufTy).Contents (Elt F) :=
  id (call0_cst_4 A)

/-- the contents of `main_call0_call0_v1` after the run, from the argument arrays -/
def call0_call0_v1 (A : Args F) : (⟨S512, .f32⟩ : BufTy).Contents (Elt F) :=
  (broadcastInDim S512 ![] bcast_S_S512) (call0_call0_v0 A)

/-- the contents of `main_v26` after the run, from the argument arrays -/
def v26 (A : Args F) : (⟨S512, .f32⟩ : BufTy).Contents (Elt F) :=
  (fun p a b => select (broadcastInDim S512 ![] bcast_S_S512 p) a b) (call0_v12 A) (call0_v11 A) (call0_call0_v1 A)

/-- the contents of `main_v27` after the run, from the argument arrays -/
def v27 (A : Args F) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (v25 A)

/-- the contents of `main_v28` after the run, from the argument arrays -/
def v28 (A : Args F) : (⟨S8192x512, .f32⟩ : BufTy).Contents (Elt F) :=
  (broadcastInDim S8192x512 ![0, 1] bcast_S1x512_S8192x512_0_1 : (⟨S1x512, .f32⟩ : BufTy).Contents (Elt F) → (⟨S8192x512, .f32⟩ : BufTy).Contents (Elt F)) (v27 A)

/-- the contents of `main_v29` after the run, from the argument arrays -/
def v29 (A : Args F) : (⟨S8192x512, .f32⟩ : BufTy).Contents (Elt F) :=
  (subf : (⟨S8192x512, .f32⟩ : BufTy).Contents (Elt F) → (⟨S8192x512, .f32⟩ : BufTy).Contents (Elt F) → (⟨S8192x512, .f32⟩ : BufTy).Contents (Elt F)) (v22 A) (v28 A)

/-- the contents of `main_cst_2` after the run, from the argument arrays -/
def cst_2 (A : Args F) : (⟨S_, .f32⟩ : BufTy).Contents (Elt F) :=
  (constant S_ .f32 0x3727C5AC#32)

/-- the contents of `main_v30` after the run, from the argument arrays -/
def v30 (A : Args F) : (⟨S512, .f32⟩ : BufTy).Contents (Elt F) :=
  (broadcastInDim S512 ![] bcast_S_S512 : (⟨S_, .f32⟩ : BufTy).Contents (Elt F) → (⟨S512, .f32⟩ : BufTy).Contents (Elt F)) (cst_2 A)

/-- the contents of `main_v31` after the run, from the argument arrays -/
def v31 (A : Args F) : (⟨S512, .f32⟩ : BufTy).Contents (Elt F) :=
  (addf : (⟨S512, .f32⟩ : BufTy).Contents (Elt F) → (⟨S512, .f32⟩ : BufTy).Contents (Elt F) → (⟨S512, .f32⟩ : BufTy).Contents (Elt F)) (v26 A) (v30 A)

/-- the contents of `main_v32` after the run, from the argument arrays -/
def v32 (A : Args F) : (⟨S512, .f32⟩ : BufTy).Contents (Elt F) :=
  (Host.rsqrt : (⟨S512, .f32⟩ : BufTy).Contents (Elt F) → (⟨S512, .f32⟩ : BufTy).Contents (Elt F)) (v31 A)

/-- the contents of `main_v33` after the run, from the argument arrays -/
def v33 (A : Args F) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (v32 A)

/-- the contents of `main_v34` after the run, from the argument arrays -/
def v34 (A : Args F) : (⟨S8192x512, .f32⟩ : BufTy).Contents (Elt F) :=
  (broadcastInDim S8192x512 ![0, 1] bcast_S1x512_S8192x512_0_1 : (⟨S1x512, .f32⟩ : BufTy).Contents (Elt F) → (⟨S8192x512, .f32⟩ : BufTy).Contents (Elt F)) (v33 A)

/-- the contents of `main_v35` after the run, from the argument arrays -/
def v35 (A : Args F) : (⟨S8192x512, .f32⟩ : BufTy).Contents (Elt F) :=
  (mulf : (⟨S8192x512, .f32⟩ : BufTy).Contents (Elt F) → (⟨S8192x512, .f32⟩ : BufTy).Contents (Elt F) → (⟨S8192x512, .f32⟩ : BufTy).Contents (Elt F)) (v29 A) (v34 A)

/-- the contents of `main_v36` after the run, from the argument arrays -/
def v36 (A : Args F) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) A.a10

/-- the contents of `main_v37` after the run, from the argument arrays -/
def v37 (A : Args F) : (⟨S8192x512, .f32⟩ : BufTy).Contents (Elt F) :=
  (broadcastInDim S8192x512 ![0, 1] bcast_S1x512_S8192x512_0_1 : (⟨S1x512, .f32⟩ : BufTy).Contents (Elt F) → (⟨S8192x512, .f32⟩ : BufTy).Contents (Elt F)) (v36 A)

/-- the contents of `main_v38` after the run, from the argument arrays -/
def v38 (A : Args F) : (⟨S8192x512, .f32⟩ : BufTy).Contents (Elt F) :=
  (mulf : (⟨S8192x512, .f32⟩ : BufTy).Contents (Elt F) → (⟨S8192x512, .f32⟩ : BufTy).Contents (Elt F) → (⟨S8192x512, .f32⟩ : BufTy).Contents (Elt F)) (v35 A) (v37 A)

/-- the contents of `main_v39` after the run, from the argument arrays -/
def v39 (A : Args F) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) A.a11

/-- the contents of `main_v40` after the run, from the argument arrays -/
def v40 (A : Args F) : (⟨S8192x512, .f32⟩ : BufTy).Contents (Elt F) :=
  (broadcastInDim S8192x512 ![0, 1] bcast_S1x512_S8192x512_0_1 : (⟨S1x512, .f32⟩ : BufTy).Contents (Elt F) → (⟨S8192x512, .f32⟩ : BufTy).Contents (Elt F)) (v39 A)

/-- the contents of `main_v41` after the run, from the argument arrays -/
def v41 (A : Args F) : (⟨S8192x512, .f32⟩ : BufTy).Contents (Elt F) :=
  (addf : (⟨S8192x512, .f32⟩ : BufTy).Contents (Elt F) → (⟨S8192x512, .f32⟩ : BufTy).Contents (Elt F) → (⟨S8192x512, .f32⟩ : BufTy).Contents (Elt F)) (v38 A) (v40 A)

/-- the contents of `main_v42` after the run, from the argument arrays -/
def v42 (A : Args F) : (⟨S8192x512, .f32⟩ : BufTy).Contents (Elt F) :=
  (addf : (⟨S8192x512, .f32⟩ : BufTy).Contents (Elt F) → (⟨S8192x512, .f32⟩ : BufTy).Contents (Elt F) → (⟨S8192x512, .f32⟩ : BufTy).Contents (Elt F)) (v41 A) (v0 A)

/-- the contents of `main_v43` after the run, from the argument arrays -/
def v43 (A : Args F) : (⟨S8x1024x512, .f32⟩ : BufTy).Contents (Elt F) :=
  shapeCast S8x1024x512 (v42 A) shapeCasts_S8192x512_S8x1024x512

/-- The run's result: the operations' composed term of the twelve argument arrays. -/
def result (a0 : (⟨S8x1024x512, .f32⟩ : BufTy).Contents (Elt F)) (a1 : (⟨S8x1024x256, .f32⟩ : BufTy).Contents (Elt F)) (a2 : (⟨S256x256, .f32⟩ : BufTy).Contents (Elt F)) (a3 : (⟨S256, .f32⟩ : BufTy).Contents (Elt F)) (a4 : (⟨S512x256, .f32⟩ : BufTy).Contents (Elt F)) (a5 : (⟨S256, .f32⟩ : BufTy).Contents (Elt F)) (a6 : (⟨S256x256, .f32⟩ : BufTy).Contents (Elt F)) (a7 : (⟨S256, .f32⟩ : BufTy).Contents (Elt F)) (a8 : (⟨S256x512, .f32⟩ : BufTy).Contents (Elt F)) (a9 : (⟨S512, .f32⟩ : BufTy).Contents (Elt F)) (a10 : (⟨S512, .f32⟩ : BufTy).Contents (Elt F)) (a11 : (⟨S512, .f32⟩ : BufTy).Contents (Elt F)) :
    (⟨S8x1024x512, .f32⟩ : BufTy).Contents (Elt F) :=
  v43 ⟨a0, a1, a2, a3, a4, a5, a6, a7, a8, a9, a10, a11⟩

set_option maxRecDepth 8192 in
set_option maxHeartbeats 4000000 in
/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v43).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp)⟩)
    (run_seq scopedRefs_eq scopedSems_eq defs main (fun _ => ops) main_eq (fun _ => ops_sub) m ρ)

end Cert.ReferenceIdeal.RefRun

end
-- ==== Proof.Spec.lean ====
/-
  The mathematics of the certificate, with no program in sight.

  Rows r range over 8192 = 8 · 1024 positions, the low width is 256, the high width 512. With the three affine maps
  θ = x_h · W_θ + b_θ, φ = x_l · W_φ + b_φ, g = x_l · W_g + b_g, one side computes y = ((θ φᵀ) / 8192) g — an 8192 × 8192
  matrix in between — and normalises w = y W + b over the rows with the mean and the mean of squared deviations; the other
  side computes M = φᵀ g first (a 256 × 256 matrix, summed tile by tile), y = (θ M) · 2⁻¹³, and gets mean and variance from the
  sum and the sum of squares of the product before the bias. On real inputs the two are one function: the matrix
  products reassociate (finite sums of reals: distributivity, exchange of the order of summation), a division by 8192 is the product
  with 2⁻¹³, the mean of w is the mean of the product plus the bias, and the mean of squared deviations is the mean of
  squares minus the square of the mean. On the extended reals these laws need every entry to be a real, which is what the
  precondition gives; so the statement is made for inputs that are coercions of real arrays.
-/
import Idealize.ShloMosaic.PureOps.Ideal.Laws
import Idealize.ShloMosaic.Lib.ValueIdx

noncomputable section

namespace Cert.Spec

open Idealize.ShloMosaic
open scoped BigOperators

/-! ## Sums and constants on the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The word for 8192.0 denotes the real 8192. -/
theorem ofBits_8192 : Ideal.ofBits .f32 0x46000000#32 = ((8192 : ℝ) : EReal) := by
  simp [Ideal.ofBits, Ideal.ieee, -EReal.coe_mul]; norm_num

/-- The word for 2⁻¹³ denotes the real 1 / 8192. -/
theorem ofBits_inv8192 : Ideal.ofBits .f32 0x39000000#32 = ((1 / 8192 : ℝ) : EReal) := by
  simp [Ideal.ofBits, Ideal.ieee, -EReal.coe_mul]; norm_num

/-! ## The rows as tiles -/

/-- Row `s` of tile `i` of half `h`: the halves are the two groups of four consecutive tiles of 1024 rows. -/
def row (h : Fin 2) (i : Fin 4) (s : Fin 1024) : Fin 8192 :=
  ⟨(h.val * 4 + i.val) * 1024 + s.val, by have := h.isLt; have := i.isLt; have := s.isLt; omega⟩

/-- Summing over halves, tiles and rows within a tile is summing over all rows (in any commutative monoid). -/
theorem sum_tiles {M : Type} [AddCommMonoid M] (f : Fin 8192 → M) :
    ∑ h : Fin 2, ∑ i : Fin 4, ∑ s : Fin 1024, f (row h i s) = ∑ r : Fin 8192, f r := by
  let e : (Fin 2 × Fin 4) × Fin 1024 ≃ Fin 8192 :=
    ((finProdFinEquiv (m := 2) (n := 4)).prodCongr (Equiv.refl (Fin 1024))).trans (finProdFinEquiv (m := 8) (n := 1024))
  have he : ∀ q : (Fin 2 × Fin 4) × Fin 1024, e q = row q.1.1 q.1.2 q.2 := by
    rintro ⟨⟨h, i⟩, s⟩
    apply Fin.ext
    show s.val + 1024 * (i.val + 4 * h.val) = (h.val * 4 + i.val) * 1024 + s.val
    ring
  calc ∑ h : Fin 2, ∑ i : Fin 4, ∑ s : Fin 1024, f (row h i s)
      = ∑ q : (Fin 2 × Fin 4) × Fin 1024, f (row q.1.1 q.1.2 q.2) := by
        rw [Fintype.sum_prod_type, Fintype.sum_prod_type]
    _ = ∑ q : (Fin 2 × Fin 4) × Fin 1024, f (e q) := by simp only [he]
    _ = ∑ r : Fin 8192, f r := Equiv.sum_comp e f

/-! ## The laws, over the reals -/

section Real

variable {R K : Type} [Fintype R] [Fintype K]

/-- Reassociating the two matrix products: summing over the rows first. -/
theorem reassoc (θ : K → ℝ) (φ : R → K → ℝ) (g : R → ℝ) (a : ℝ) :
    ∑ s, ((∑ k, θ k * φ s k) * a) * g s = (∑ k, θ k * ∑ s, φ s k * g s) * a := by
  simp only [Finset.sum_mul, Finset.mul_sum]
  rw [Finset.sum_comm]
  exact Finset.sum_congr rfl fun k _ => Finset.sum_congr rfl fun s _ => by ring

/-- The mean of a shifted column is the shifted mean. -/
theorem mean_shift (p : Fin 8192 → ℝ) (b : ℝ) :
    (0 + ∑ r, (p r + b)) * (1 / 8192) = (∑ r, p r) * (1 / 8192) + b := by
  rw [Finset.sum_add_distrib, Finset.sum_const, Finset.card_univ, Fintype.card_fin, nsmul_eq_mul]
  push_cast
  ring

/-- The mean of squared deviations of a shifted column is the mean of squares minus the squared mean of the column. -/
theorem var_shift (p : Fin 8192 → ℝ) (b : ℝ) :
    (0 + ∑ r, ((p r + b) - (0 + ∑ r', (p r' + b)) * (1 / 8192)) * ((p r + b) - (0 + ∑ r', (p r' + b)) * (1 / 8192))) * (1 / (8192 - 0))
      = (∑ r, p r * p r) * (1 / 8192) - ((∑ r, p r) * (1 / 8192)) * ((∑ r, p r) * (1 / 8192)) := by
  rw [mean_shift]
  have h : ∀ r, ((p r + b) - ((∑ r', p r') * (1 / 8192) + b)) * ((p r + b) - ((∑ r', p r') * (1 / 8192) + b))
      = p r * p r - 2 * ((∑ r', p r') * (1 / 8192)) * p r + ((∑ r', p r') * (1 / 8192)) * ((∑ r', p r') * (1 / 8192)) := fun r => by ring
  simp only [h]
  rw [Finset.sum_add_distrib, Finset.sum_sub_distrib, ← Finset.mul_sum, Finset.sum_const, Finset.card_univ, Fintype.card_fin, nsmul_eq_mul]
  push_cast
  ring

end Real

/-! ## The two sides as functions of the arrays -/

/-- The twelve argument arrays, the two activations already laid out as rows. -/
structure In where
  xh : Fin 8192 → Fin 512 → EReal
  xl : Fin 8192 → Fin 256 → EReal
  gw : Fin 256 → Fin 256 → EReal
  gb : Fin 256 → EReal
  thw : Fin 512 → Fin 256 → EReal
  thb : Fin 256 → EReal
  phw : Fin 256 → Fin 256 → EReal
  phb : Fin 256 → EReal
  ww : Fin 256 → Fin 512 → EReal
  wb : Fin 512 → EReal
  gam : Fin 512 → EReal
  bet : Fin 512 → EReal

/-- The same with real entries. -/
structure InR where
  xh : Fin 8192 → Fin 512 → ℝ
  xl : Fin 8192 → Fin 256 → ℝ
  gw : Fin 256 → Fin 256 → ℝ
  gb : Fin 256 → ℝ
  thw : Fin 512 → Fin 256 → ℝ
  thb : Fin 256 → ℝ
  phw : Fin 256 → Fin 256 → ℝ
  phb : Fin 256 → ℝ
  ww : Fin 256 → Fin 512 → ℝ
  wb : Fin 512 → ℝ
  gam : Fin 512 → ℝ
  bet : Fin 512 → ℝ

/-- Real arrays as arrays of extended reals. -/
def InR.toE (J : InR) : In where
  xh r k := (J.xh r k : EReal)
  xl r k := (J.xl r k : EReal)
  gw k j := (J.gw k j : EReal)
  gb j := (J.gb j : EReal)
  thw k j := (J.thw k j : EReal)
  thb j := (J.thb j : EReal)
  phw k j := (J.phw k j : EReal)
  phb j := (J.phb j : EReal)
  ww k j := (J.ww k j : EReal)
  wb j := (J.wb j : EReal)
  gam j := (J.gam j : EReal)
  bet j := (J.bet j : EReal)

variable (I : In) (J : InR)

/-- The three affine maps. -/
def theta (r : Fin 8192) (j : Fin 256) : EReal := (∑ k, I.xh r k * I.thw k j) + I.thb j
def phi (r : Fin 8192) (j : Fin 256) : EReal := (∑ k, I.xl r k * I.phw k j) + I.phb j
def gx (r : Fin 8192) (j : Fin 256) : EReal := (∑ k, I.xl r k * I.gw k j) + I.gb j
def thetaR (r : Fin 8192) (j : Fin 256) : ℝ := (∑ k, J.xh r k * J.thw k j) + J.thb j
def phiR (r : Fin 8192) (j : Fin 256) : ℝ := (∑ k, J.xl r k * J.phw k j) + J.phb j
def gxR (r : Fin 8192) (j : Fin 256) : ℝ := (∑ k, J.xl r k * J.gw k j) + J.gb j

theorem theta_coe (r j) : theta J.toE r j = (thetaR J r j : EReal) := by
  simp only [theta, thetaR, InR.toE, EReal.coe_add, coe_sum, EReal.coe_mul]
theorem phi_coe (r j) : phi J.toE r j = (phiR J r j : EReal) := by
  simp only [phi, phiR, InR.toE, EReal.coe_add, coe_sum, EReal.coe_mul]
theorem gx_coe (r j) : gx J.toE r j = (gxR J r j : EReal) := by
  simp only [gx, gxR, InR.toE, EReal.coe_add, coe_sum, EReal.coe_mul]

/-! ### The side that forms the 8192 × 8192 matrix -/

def yRef (r : Fin 8192) (c : Fin 256) : EReal :=
  ∑ s, Ideal.div (∑ k, theta I r k * phi I s k) ((8192 : ℝ) : EReal) * gx I s c
def wyRef (r : Fin 8192) (d : Fin 512) : EReal := (∑ c, yRef I r c * I.ww c d) + I.wb d
def meanRef (d : Fin 512) : EReal := Ideal.div (0 + ∑ r, wyRef I r d) ((8192 : ℝ) : EReal)
def varRef (d : Fin 512) : EReal :=
  Ideal.div (0 + ∑ r, (wyRef I r d - meanRef I d) * (wyRef I r d - meanRef I d)) (((8192 : ℝ) : EReal) - ((0 : ℝ) : EReal))
def zRef (eps : EReal) (r : Fin 8192) (d : Fin 512) : EReal :=
  ((wyRef I r d - meanRef I d) * Ideal.rsqrt (varRef I d + eps)) * I.gam d + I.bet d + I.xh r d

def yRefR (r : Fin 8192) (c : Fin 256) : ℝ := ∑ s, ((∑ k, thetaR J r k * phiR J s k) * (1 / 8192)) * gxR J s c
def wyRefR (r : Fin 8192) (d : Fin 512) : ℝ := (∑ c, yRefR J r c * J.ww c d) + J.wb d
def meanRefR (d : Fin 512) : ℝ := (0 + ∑ r, wyRefR J r d) * (1 / 8192)
def varRefR (d : Fin 512) : ℝ :=
  (0 + ∑ r, (wyRefR J r d - meanRefR J d) * (wyRefR J r d - meanRefR J d)) * (1 / (8192 - 0))

theorem yRef_coe (r c) : yRef J.toE r c = (yRefR J r c : EReal) := by
  simp only [yRef, yRefR, theta_coe, phi_coe, gx_coe, Ideal.div_coe (by norm_num : (8192 : ℝ) ≠ 0), coe_sum, EReal.coe_mul]
theorem wyRef_coe (r d) : wyRef J.toE r d = (wyRefR J r d : EReal) := by
  simp only [wyRef, wyRefR, yRef_coe, EReal.coe_add, coe_sum, EReal.coe_mul]; rfl
theorem meanRef_coe (d) : meanRef J.toE d = (meanRefR J d : EReal) := by
  simp only [meanRef, meanRefR, wyRef_coe, Ideal.div_coe (by norm_num : (8192 : ℝ) ≠ 0), EReal.coe_add, coe_sum, EReal.coe_mul, EReal.coe_zero]
theorem varRef_coe (d) : varRef J.toE d = (varRefR J d : EReal) := by
  unfold varRef varRefR
  rw [← EReal.coe_sub (8192 : ℝ) 0, Ideal.div_coe (by norm_num : ((8192 : ℝ) - 0) ≠ 0)]
  simp only [wyRef_coe, meanRef_coe, ← EReal.coe_sub, EReal.coe_add, coe_sum, EReal.coe_mul, EReal.coe_zero]

/-! ### The side that forms the 256 × 256 matrix first -/

def mK (k c : Fin 256) : EReal := ∑ h : Fin 2, ∑ i : Fin 4, ∑ s : Fin 1024, phi I (row h i s) k * gx I (row h i s) c
def yK (r : Fin 8192) (c : Fin 256) : EReal := (∑ k, theta I r k * mK I k c) * ((1 / 8192 : ℝ) : EReal)
def preK (r : Fin 8192) (d : Fin 512) : EReal := ∑ c, yK I r c * I.ww c d
def wyK (r : Fin 8192) (d : Fin 512) : EReal := preK I r d + I.wb d
def sumK (d : Fin 512) : EReal := ∑ h : Fin 2, ∑ i : Fin 4, ∑ s : Fin 1024, preK I (row h i s) d
def sqK (d : Fin 512) : EReal := ∑ h : Fin 2, ∑ i : Fin 4, ∑ s : Fin 1024, preK I (row h i s) d * preK I (row h i s) d
def meanPreK (d : Fin 512) : EReal := sumK I d * ((1 / 8192 : ℝ) : EReal)
def varK (d : Fin 512) : EReal := sqK I d * ((1 / 8192 : ℝ) : EReal) - meanPreK I d * meanPreK I d
def meanK (d : Fin 512) : EReal := meanPreK I d + I.wb d
def zK (eps : EReal) (r : Fin 8192) (d : Fin 512) : EReal :=
  ((wyK I r d - meanK I d) * Ideal.rsqrt (varK I d + eps)) * I.gam d + I.bet d + I.xh r d

def mKR (k c : Fin 256) : ℝ := ∑ s : Fin 8192, phiR J s k * gxR J s c
def yKR (r : Fin 8192) (c : Fin 256) : ℝ := (∑ k, thetaR J r k * mKR J k c) * (1 / 8192)
def preKR (r : Fin 8192) (d : Fin 512) : ℝ := ∑ c, yKR J r c * J.ww c d

theorem mK_coe (k c) : mK J.toE k c = (mKR J k c : EReal) := by
  simp only [mK, mKR, phi_coe, gx_coe, ← EReal.coe_mul, ← coe_sum]
  exact congrArg _ (sum_tiles fun s => phiR J s k * gxR J s c)
theorem yK_coe (r c) : yK J.toE r c = (yKR J r c : EReal) := by
  simp only [yK, yKR, theta_coe, mK_coe, EReal.coe_mul, coe_sum]
theorem preK_coe (r d) : preK J.toE r d = (preKR J r d : EReal) := by
  simp only [preK, preKR, yK_coe, EReal.coe_mul, coe_sum]; rfl
theorem sumK_coe (d) : sumK J.toE d = ((∑ r, preKR J r d : ℝ) : EReal) := by
  simp only [sumK, preK_coe, ← coe_sum]
  exact congrArg _ (sum_tiles fun s => preKR J s d)
theorem sqK_coe (d) : sqK J.toE d = ((∑ r, preKR J r d * preKR J r d : ℝ) : EReal) := by
  simp only [sqK, preK_coe, ← EReal.coe_mul, ← coe_sum]
  exact congrArg _ (sum_tiles fun s => preKR J s d * preKR J s d)

/-! ### The two sides agree on real inputs -/

theorem yK_eq_yRef (r c) : yKR J r c = yRefR J r c := by
  unfold yKR yRefR mKR
  exact (reassoc (fun k => thetaR J r k) (fun s k => phiR J s k) (fun s => gxR J s c) (1 / 8192)).symm

theorem wyRefR_eq (r d) : wyRefR J r d = preKR J r d + J.wb d := by
  unfold wyRefR preKR; simp only [yK_eq_yRef]

theorem wy_eq (r d) : wyK J.toE r d = wyRef J.toE r d := by
  rw [wyRef_coe, wyRefR_eq]; simp only [wyK, preK_coe, EReal.coe_add]; rfl

theorem mean_eq (d) : meanK J.toE d = meanRef J.toE d := by
  rw [meanRef_coe]
  simp only [meanK, meanPreK, sumK_coe, ← EReal.coe_mul]
  show ((_ : ℝ) : EReal) + ((J.wb d : ℝ) : EReal) = _
  rw [← EReal.coe_add]
  refine congrArg _ ?_
  unfold meanRefR; simp only [wyRefR_eq]
  exact (mean_shift (fun r => preKR J r d) (J.wb d)).symm

theorem var_eq (d) : varK J.toE d = varRef J.toE d := by
  rw [varRef_coe]
  simp only [varK, meanPreK, sumK_coe, sqK_coe, ← EReal.coe_mul, ← EReal.coe_sub]
  refine congrArg _ ?_
  unfold varRefR meanRefR; simp only [wyRefR_eq]
  exact (var_shift (fun r => preKR J r d) (J.wb d)).symm

/-- THE LAW: on real inputs the two sides are one function, whatever the epsilon denotes. -/
theorem zK_eq_zRef (eps : EReal) (r : Fin 8192) (d : Fin 512) : zK J.toE eps r d = zRef J.toE eps r d := by
  unfold zK zRef
  rw [wy_eq, mean_eq, var_eq]

/-! ## From the twelve arrays to the rows -/

/-- Position (b, n) of the [8, 1024] leading axes as a row. -/
def rowOf (b : Fin 8) (n : Fin 1024) : Fin 8192 := ⟨b.val * 1024 + n.val, by have := b.isLt; have := n.isLt; omega⟩
/-- A row's two leading coordinates. -/
def bOf (r : Fin 8192) : Fin 8 := ⟨r.val / 1024, by have := r.isLt; omega⟩
def nOf (r : Fin 8192) : Fin 1024 := ⟨r.val % 1024, Nat.mod_lt _ (by norm_num)⟩

theorem rowOf_bOf_nOf (r : Fin 8192) : rowOf (bOf r) (nOf r) = r := by
  apply Fin.ext; show r.val / 1024 * 1024 + r.val % 1024 = r.val; omega
theorem bOf_rowOf (b : Fin 8) (n : Fin 1024) : bOf (rowOf b n) = b := by
  apply Fin.ext; show (b.val * 1024 + n.val) / 1024 = b.val; have := n.isLt; omega
theorem nOf_rowOf (b : Fin 8) (n : Fin 1024) : nOf (rowOf b n) = n := by
  apply Fin.ext; show (b.val * 1024 + n.val) % 1024 = n.val; have := n.isLt; omega

open ValueIdx in
/-- The arrays as the programs receive them, read as rows. -/
def inOf (a0 : (⟨3, ![8, 1024, 512]⟩ : Shape).Idx → EReal) (a1 : (⟨3, ![8, 1024, 256]⟩ : Shape).Idx → EReal)
    (a2 : (⟨2, ![256, 256]⟩ : Shape).Idx → EReal) (a3 : (⟨1, ![256]⟩ : Shape).Idx → EReal)
    (a4 : (⟨2, ![512, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 512]⟩ : Shape).Idx → EReal) (a9 : (⟨1, ![512]⟩ : Shape).Idx → EReal)
    (a10 : (⟨1, ![512]⟩ : Shape).Idx → EReal) (a11 : (⟨1, ![512]⟩ : Shape).Idx → EReal) : In where
  xh r k := a0 (ix3 (bOf r) (nOf r) k)
  xl r k := a1 (ix3 (bOf r) (nOf r) k)
  gw k j := a2 (ix2 k j)
  gb j := a3 (ix1 j)
  thw k j := a4 (ix2 k j)
  thb j := a5 (ix1 j)
  phw k j := a6 (ix2 k j)
  phb j := a7 (ix1 j)
  ww k j := a8 (ix2 k j)
  wb j := a9 (ix1 j)
  gam j := a10 (ix1 j)
  bet j := a11 (ix1 j)

/-- Every entry is a real number. -/
def In.Finite (I : In) : Prop :=
  (∀ r k, I.xh r k ≠ ⊤ ∧ I.xh r k ≠ ⊥) ∧ (∀ r k, I.xl r k ≠ ⊤ ∧ I.xl r k ≠ ⊥) ∧ (∀ k j, I.gw k j ≠ ⊤ ∧ I.gw k j ≠ ⊥)
  ∧ (∀ j, I.gb j ≠ ⊤ ∧ I.gb j ≠ ⊥) ∧ (∀ k j, I.thw k j ≠ ⊤ ∧ I.thw k j ≠ ⊥) ∧ (∀ j, I.thb j ≠ ⊤ ∧ I.thb j ≠ ⊥)
  ∧ (∀ k j, I.phw k j ≠ ⊤ ∧ I.phw k j ≠ ⊥) ∧ (∀ j, I.phb j ≠ ⊤ ∧ I.phb j ≠ ⊥) ∧ (∀ k j, I.ww k j ≠ ⊤ ∧ I.ww k j ≠ ⊥)
  ∧ (∀ j, I.wb j ≠ ⊤ ∧ I.wb j ≠ ⊥) ∧ (∀ j, I.gam j ≠ ⊤ ∧ I.gam j ≠ ⊥) ∧ (∀ j, I.bet j ≠ ⊤ ∧ I.bet j ≠ ⊥)

/-- Arrays of finite entries are coercions of real arrays. -/
theorem In.exists_real (I : In) (h : I.Finite) : ∃ J : InR, I = J.toE := by
  obtain ⟨h0, h1, h2, h3, h4, h5, h6, h7, h8, h9, h10, h11⟩ := h
  refine ⟨⟨fun r k => (I.xh r k).toReal, fun r k => (I.xl r k).toReal, fun k j => (I.gw k j).toReal, fun j => (I.gb j).toReal,
    fun k j => (I.thw k j).toReal, fun j => (I.thb j).toReal, fun k j => (I.phw k j).toReal, fun j => (I.phb j).toReal,
    fun k j => (I.ww k j).toReal, fun j => (I.wb j).toReal, fun j => (I.gam j).toReal, fun j => (I.bet j).toReal⟩, ?_⟩
  cases I
  simp only [InR.toE, In.mk.injEq]
  refine ⟨?_, ?_, ?_, ?_, ?_, ?_, ?_, ?_, ?_, ?_, ?_, ?_⟩
  · funext r k; exact (EReal.coe_toReal (h0 r k).1 (h0 r k).2).symm
  · funext r k; exact (EReal.coe_toReal (h1 r k).1 (h1 r k).2).symm
  · funext r k; exact (EReal.coe_toReal (h2 r k).1 (h2 r k).2).symm
  · funext r; exact (EReal.coe_toReal (h3 r).1 (h3 r).2).symm
  · funext r k; exact (EReal.coe_toReal (h4 r k).1 (h4 r k).2).symm
  · funext r; exact (EReal.coe_toReal (h5 r).1 (h5 r).2).symm
  · funext r k; exact (EReal.coe_toReal (h6 r k).1 (h6 r k).2).symm
  · funext r; exact (EReal.coe_toReal (h7 r).1 (h7 r).2).symm
  · funext r k; exact (EReal.coe_toReal (h8 r k).1 (h8 r k).2).symm
  · funext r; exact (EReal.coe_toReal (h9 r).1 (h9 r).2).symm
  · funext r; exact (EReal.coe_toReal (h10 r).1 (h10 r).2).symm
  · funext r; exact (EReal.coe_toReal (h11 r).1 (h11 r).2).symm

/-- THE LAW on finite inputs. -/
theorem zK_eq_zRef_of_finite (I : In) (h : I.Finite) (eps : EReal) (r : Fin 8192) (d : Fin 512) :
    zK I eps r d = zRef I eps r d := by
  obtain ⟨J, rfl⟩ := I.exists_real h
  exact zK_eq_zRef J eps r d

end Cert.Spec

end
-- ==== Proof.RefValue.lean ====
/- The reference's result read at an index: each stage of the run that is not pointwise, as plain mathematics on the
   extended reals (the matrix products as sums over the contracted coordinate, the sums over the rows, the broadcasts,
   the transposition, the division by the row count, the decided selection), and the result as the specification's
   closed formula. -/
import proofs.«154593_j40999757807684_2_alg».proof.Proof.RefRun
import proofs.«154593_j40999757807684_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Shape operations at coordinates -/

section Layout
variable {α : Type}

/-- A `[B, N, D]` array cast to `[M, D]` (`M = B · N`) reads, at row `r = b · N + n`, the operand at `(b, n, ·)`. -/
theorem shapeCast_rows_apply {B N D M : ℕ} (x : (⟨3, ![B, N, D]⟩ : Shape).Idx → α)
    (h : (⟨3, ![B, N, D]⟩ : Shape).ShapeCasts ⟨2, ![M, D]⟩) (b : Fin B) (n : Fin N) (d : Fin D) (r : Fin M)
    (hr : r.val = b.val * N + n.val) :
    shapeCast ⟨2, ![M, D]⟩ x h (ix2 r d) = x (ix3 b n d) :=
  shapeCast_apply x h _ _ (by
    rw [Shape.rowMajor_val_three, Shape.rowMajor_val_two]
    show (b.val * N + n.val) * D + d.val = r.val * D + d.val
    rw [hr])

/-- An `[M, D]` array cast to `[B, N, D]` reads, at `(b, n, ·)`, the operand at row `r = b · N + n`. -/
theorem shapeCast_unrows_apply {B N D M : ℕ} (x : (⟨2, ![M, D]⟩ : Shape).Idx → α)
    (h : (⟨2, ![M, D]⟩ : Shape).ShapeCasts ⟨3, ![B, N, D]⟩) (b : Fin B) (n : Fin N) (d : Fin D) (r : Fin M)
    (hr : r.val = b.val * N + n.val) :
    shapeCast ⟨3, ![B, N, D]⟩ x h (ix3 b n d) = x (ix2 r d) :=
  shapeCast_apply x h _ _ (by
    rw [Shape.rowMajor_val_three, Shape.rowMajor_val_two]
    show r.val * D + d.val = (b.val * N + n.val) * D + d.val
    rw [hr])

/-- A vector laid out as one row reads, at `(0, j)`, the vector at `j`. -/
theorem broadcastInDim_row_apply {n : ℕ} (h : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] h x (ix2 u j) = x (ix1 j) := by
  refine broadcastInDim_apply ![1] h x (ix2 u j) (ix1 j) ?_
  intro a
  match a with
  | ⟨0, _⟩ =>
    show j.val = if n = 1 then 0 else j.val
    split_ifs with hn
    · have := j.isLt; omega
    · rfl

/-- A vector broadcast down `m` rows (through the one-row matrix) reads, at `(r, j)`, the vector at `j`. -/
theorem broadcast_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (j : Fin n) :
    broadcastInDim ⟨2, ![m, n]⟩ ![0, 1] h2 (broadcastInDim ⟨2, ![1, n]⟩ ![1] h1 x) (ix2 r j) = x (ix1 j) := by
  rw [broadcastInDim_oneRow_apply, broadcastInDim_row_apply]

end Layout

/-! ## A matrix product at coordinates -/

/-- The host's product of an `M × K` by a `K × N` matrix, at the ideal values, read at `(i, j)`: the sum over the
    contracted coordinate of the products. -/
theorem dot2_apply {M K N : ℕ} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (i : Fin M) (j : Fin N) :
    FloatOps.dotGeneral (⟨[1], [0], [0], [1], [], [], wf⟩ : DotDims ⟨2, ![M, K]⟩ ⟨2, ![K, N]⟩ ⟨2, ![M, N]⟩) prec sched l r (ix2 i j)
      = ∑ k : Fin K, l (ix2 i k) * r (ix2 k j) := by
  let D : DotDims ⟨2, ![M, K]⟩ ⟨2, ![K, N]⟩ ⟨2, ![M, N]⟩ := ⟨[1], [0], [0], [1], [], [], wf⟩
  show FloatOps.dotGeneral D prec sched l r (ix2 i j) = _
  rw [Ideal.dotGeneral_apply, ← Equiv.sum_comp (contrEquiv1 D K rfl rfl).symm]
  refine Finset.sum_congr rfl fun k _ => ?_
  have hk := contrEquiv1_symm_val D K rfl rfl k
  have el : D.lhsIdx (ix2 i j) ((contrEquiv1 D K rfl rfl).symm k) = ix2 i k := funext fun a => Fin.ext (by
    match a with
    | ⟨0, _⟩ =>
      show (D.lhsIdx (ix2 i j) ((contrEquiv1 D K rfl rfl).symm k) 0).val = i.val
      unfold DotDims.lhsIdx
      rw [dif_neg (show ¬ (0 : Fin 2) ∈ ([] : List (Fin 2)) from List.not_mem_nil), dif_pos (show (0 : Fin 2) ∈ ([0] : List (Fin 2)) from List.mem_singleton.mpr rfl)]
      rfl
    | ⟨1, _⟩ => exact (D.lhsIdx_val_of_single rfl _ _).trans hk)
  have er : D.rhsIdx (ix2 i j) ((contrEquiv1 D K rfl rfl).symm k) = ix2 k j := funext fun a => Fin.ext (by
    match a with
    | ⟨0, _⟩ => exact (D.rhsIdx_val_of_single rfl _ _).trans hk
    | ⟨1, _⟩ =>
      show (D.rhsIdx (ix2 i j) ((contrEquiv1 D K rfl rfl).symm k) 1).val = j.val
      unfold DotDims.rhsIdx
      rw [dif_neg (show ¬ (1 : Fin 2) ∈ ([] : List (Fin 2)) from List.not_mem_nil), dif_pos (show (1 : Fin 2) ∈ ([1] : List (Fin 2)) from List.mem_singleton.mpr rfl)]
      rfl)
  rw [el, er]

/-- The same, as a printed reference spells the product. -/
theorem hostDot2_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (i : Fin M) (j : Fin N) :
    Host.dotGeneral (⟨[1], [0], [0], [1], [], [], wf⟩ : DotDims ⟨2, ![M, K]⟩ ⟨2, ![K, N]⟩ ⟨2, ![M, N]⟩) prec l r (ix2 i j)
      = ∑ k : Fin K, l (ix2 i k) * r (ix2 k j) :=
  dot2_apply wf prec .single l r i j

/-- The host's sum of an `[m, n]` array over its rows, at the ideal values, read at `j`: the initial value plus the
    sum over the rows. -/
theorem reduce_rows_apply {m n : ℕ} {u : Shape} {φ : FTy} (x : FVec Ideal ⟨2, ![m, n]⟩ φ) (init : u.Idx → Ideal φ)
    (h : (⟨2, ![m, n]⟩ : Shape).ReducesTo [0] ⟨1, ![n]⟩) (h' : (⟨2, ![m, n]⟩ : Shape).Reduces [0] ⟨1, ![n]⟩) (hu : 0 < u.numel) (j : Fin n) :
    Host.reduceAdd x init h hu (ix1 j) = init (Shape.Idx.first hu) + ∑ r : Fin m, x (ix2 r j) := by
  rw [hostReduceAdd_apply, Ideal.hostReduceAdd_single h h']
  refine congrArg (_ + ·) (Finset.sum_congr rfl fun k _ => ?_)
  exact congrArg x (funext fun a => Fin.ext (by match a with | ⟨0, _⟩ => rfl | ⟨1, _⟩ => rfl))

/-! ## The stages at coordinates -/

open Cert.Spec (theta phi gx yRef wyRef meanRef varRef zRef rowOf bOf nOf)

/-- The twelve arrays read as the specification's rows. -/
abbrev inA (A : Args Ideal) : Cert.Spec.In :=
  Cert.Spec.inOf A.a0 A.a1 A.a2 A.a3 A.a4 A.a5 A.a6 A.a7 A.a8 A.a9 A.a10 A.a11

variable (A : Args Ideal)

theorem row_eq (r : Fin 8192) : r.val = (bOf r).val * 1024 + (nOf r).val := by
  show r.val = r.val / 1024 * 1024 + r.val % 1024
  omega

theorem v0_apply (r : Fin 8192) (d : Fin 512) : v0 A (ix2 r d) = (inA A).xh r d := by
  unfold v0
  exact shapeCast_rows_apply A.a0 _ (bOf r) (nOf r) d r (row_eq r)

theorem v1_apply (r : Fin 8192) (k : Fin 256) : v1 A (ix2 r k) = (inA A).xl r k := by
  unfold v1
  exact shapeCast_rows_apply A.a1 _ (bOf r) (nOf r) k r (row_eq r)

theorem v5_apply (s : Fin 8192) (j : Fin 256) : v5 A (ix2 s j) = gx (inA A) s j := by
  unfold v5 v4 v3 v2 dot_S8192x256_S256x256_S8192x256_1_0_0_1_n_n
  beta_reduce
  rw [addf_apply, hostDot2_apply, broadcast_rows_apply]
  simp only [v1_apply]
  rfl

theorem v9_apply (r : Fin 8192) (j : Fin 256) : v9 A (ix2 r j) = theta (inA A) r j := by
  unfold v9 v8 v7 v6 dot_S8192x512_S512x256_S8192x256_1_0_0_1_n_n
  beta_reduce
  rw [addf_apply, hostDot2_apply, broadcast_rows_apply]
  simp only [v0_apply]
  rfl

theorem v13_apply (s : Fin 8192) (j : Fin 256) : v13 A (ix2 s j) = phi (inA A) s j := by
  unfold v13 v12 v11 v10 dot_S8192x256_S256x256_S8192x256_1_0_0_1_n_n
  beta_reduce
  rw [addf_apply, hostDot2_apply, broadcast_rows_apply]
  simp only [v1_apply]
  rfl

theorem v14_apply (j : Fin 256) (s : Fin 8192) : v14 A (ix2 j s) = phi (inA A) s j := by
  unfold v14
  exact (transpose_ix2_apply (v13 A) _ j s).trans (v13_apply A s j)

theorem v15_apply (r s : Fin 8192) : v15 A (ix2 r s) = ∑ k : Fin 256, theta (inA A) r k * phi (inA A) s k := by
  unfold v15 dot_S8192x256_S256x8192_S8192x8192_1_0_0_1_n_n
  beta_reduce
  rw [hostDot2_apply]
  simp only [v9_apply, v14_apply]

theorem cst_apply (i) : cst A i = ((8192 : ℝ) : EReal) := Cert.Spec.ofBits_8192

theorem v16_apply (i) : v16 A i = ((8192 : ℝ) : EReal) := by
  unfold v16
  rw [broadcastInDim_scalar_apply]
  exact cst_apply A _

theorem v17_apply (r s : Fin 8192) :
    v17 A (ix2 r s) = Ideal.div (∑ k : Fin 256, theta (inA A) r k * phi (inA A) s k) ((8192 : ℝ) : EReal) := by
  unfold v17
  rw [hostDivf_apply, v15_apply, v16_apply]

theorem v18_apply (r : Fin 8192) (c : Fin 256) : v18 A (ix2 r c) = yRef (inA A) r c := by
  unfold v18 dot_S8192x8192_S8192x256_S8192x256_1_0_0_1_n_n
  beta_reduce
  rw [hostDot2_apply]
  simp only [v17_apply, v5_apply]
  rfl

theorem v22_apply (r : Fin 8192) (d : Fin 512) : v22 A (ix2 r d) = wyRef (inA A) r d := by
  unfold v22 v21 v20 v19 dot_S8192x256_S256x512_S8192x512_1_0_0_1_n_n
  beta_reduce
  rw [addf_apply, hostDot2_apply, broadcast_rows_apply]
  simp only [v18_apply]
  rfl

/-! ### The mean over the rows -/

theorem cst_0_apply (i) : cst_0 A i = 0 := Ideal.ofBits_zero_f32

theorem v23_apply (d : Fin 512) : v23 A (ix1 d) = 0 + ∑ r : Fin 8192, wyRef (inA A) r d := by
  unfold v23
  beta_reduce
  rw [reduce_rows_apply _ _ _ (by decide), cst_0_apply]
  simp only [v22_apply]

theorem cst_1_apply (i) : cst_1 A i = ((8192 : ℝ) : EReal) := Cert.Spec.ofBits_8192

theorem v24_apply (i) : v24 A i = ((8192 : ℝ) : EReal) := by
  unfold v24
  rw [broadcastInDim_scalar_apply]
  exact cst_1_apply A _

theorem v25_apply (d : Fin 512) : v25 A (ix1 d) = meanRef (inA A) d := by
  unfold v25
  rw [hostDivf_apply, v23_apply, v24_apply]
  rfl

theorem v28_apply (r : Fin 8192) (d : Fin 512) : v28 A (ix2 r d) = meanRef (inA A) d := by
  unfold v28 v27
  rw [broadcast_rows_apply, v25_apply]

theorem v29_apply (r : Fin 8192) (d : Fin 512) : v29 A (ix2 r d) = wyRef (inA A) r d - meanRef (inA A) d := by
  unfold v29
  rw [subf_apply, v22_apply, v28_apply]

/-! ### The variance function, written out -/

theorem call0_cst_apply (i) : call0_cst A i = 0 := Ideal.ofBits_zero_f32

theorem call0_v0_apply (d : Fin 512) : call0_v0 A (ix1 d) = 0 + ∑ r : Fin 8192, wyRef (inA A) r d := by
  unfold call0_v0
  beta_reduce
  rw [reduce_rows_apply _ _ _ (by decide), call0_cst_apply]
  simp only [v22_apply]

theorem call0_v2_apply (i) : call0_v2 A i = ((8192 : ℝ) : EReal) := by
  unfold call0_v2
  rw [broadcastInDim_scalar_apply]
  exact Cert.Spec.ofBits_8192

theorem call0_v3_apply (u : Fin 1) (d : Fin 512) : call0_v3 A (ix2 u d) = meanRef (inA A) d := by
  unfold call0_v3 call0_v1
  rw [hostDivf_apply, broadcastInDim_row_apply, call0_v0_apply, call0_v2_apply]
  rfl

theorem call0_v4_apply (r : Fin 8192) (d : Fin 512) : call0_v4 A (ix2 r d) = meanRef (inA A) d := by
  unfold call0_v4
  rw [broadcastInDim_oneRow_apply, call0_v3_apply]

theorem call0_v6_apply (r : Fin 8192) (d : Fin 512) :
    call0_v6 A (ix2 r d) = (wyRef (inA A) r d - meanRef (inA A) d) * (wyRef (inA A) r d - meanRef (inA A) d) := by
  unfold call0_v6 call0_v5
  rw [mulf_apply, subf_apply, v22_apply, call0_v4_apply]

theorem call0_v7_apply (i) : call0_v7 A i = ((0 : ℝ) : EReal) := by
  unfold call0_v7 c_i32
  rw [sitofp_apply, constantI_apply]
  show ((((0#32 : BitVec 32).toInt : ℤ) : ℝ) : EReal) = ((0 : ℝ) : EReal)
  simp

theorem call0_v8_apply (i) : call0_v8 A i = ((8192 : ℝ) : EReal) - ((0 : ℝ) : EReal) := by
  unfold call0_v8 call0_cst_1
  rw [subf_apply, call0_v7_apply, constant_apply, Cert.Spec.ofBits_8192]

theorem call0_v9_apply (d : Fin 512) :
    call0_v9 A (ix1 d) = 0 + ∑ r : Fin 8192, (wyRef (inA A) r d - meanRef (inA A) d) * (wyRef (inA A) r d - meanRef (inA A) d) := by
  unfold call0_v9 call0_cst_2
  beta_reduce
  rw [reduce_rows_apply _ _ _ (by decide), constant_apply, Ideal.ofBits_zero_f32]
  simp only [call0_v6_apply]

theorem call0_v11_apply (d : Fin 512) : call0_v11 A (ix1 d) = varRef (inA A) d := by
  unfold call0_v11 call0_v10
  rw [hostDivf_apply, broadcastInDim_scalar_apply, call0_v9_apply, call0_v8_apply]
  rfl

/-- The row count less the zero correction is positive: the comparison that guards the variance is true. -/
theorem call0_v12_apply (i) : call0_v12 A i = 1#1 := by
  unfold call0_v12 call0_cst_3
  rw [cmpf_apply, call0_v8_apply, constant_apply, Ideal.ofBits_zero_f32, Ideal.cmpf_def]
  have h : (0 : EReal) < ((8192 : ℝ) : EReal) - ((0 : ℝ) : EReal) := by
    rw [← EReal.coe_sub]
    exact EReal.coe_pos.mpr (by norm_num)
  show BitVec.ofBool (decide ((0 : EReal) < ((8192 : ℝ) : EReal) - ((0 : ℝ) : EReal))) = 1#1
  rw [decide_eq_true h]
  rfl

/-- The selection takes the variance: its other operand (the not-a-number word, broadcast) is never read. -/
theorem v26_apply (d : Fin 512) : v26 A (ix1 d) = varRef (inA A) d := by
  unfold v26
  beta_reduce
  rw [select_apply, broadcastInDim_scalar_apply, call0_v12_apply, select_one, call0_v11_apply]

/-! ### The normalisation -/

theorem v30_apply (i) : v30 A i = Ideal.ofBits .f32 0x3727C5AC#32 := by
  unfold v30 cst_2
  rw [broadcastInDim_scalar_apply]
  rfl

theorem v32_apply (d : Fin 512) :
    v32 A (ix1 d) = Ideal.rsqrt (varRef (inA A) d + Ideal.ofBits .f32 0x3727C5AC#32) := by
  unfold v32 v31
  show Ideal.rsqrt (addf (v26 A) (v30 A) (ix1 d)) = _
  rw [addf_apply, v26_apply, v30_apply]

theorem v34_apply (r : Fin 8192) (d : Fin 512) :
    v34 A (ix2 r d) = Ideal.rsqrt (varRef (inA A) d + Ideal.ofBits .f32 0x3727C5AC#32) := by
  unfold v34 v33
  rw [broadcast_rows_apply, v32_apply]

theorem v37_apply (r : Fin 8192) (d : Fin 512) : v37 A (ix2 r d) = (inA A).gam d := by
  unfold v37 v36
  rw [broadcast_rows_apply]
  rfl

theorem v40_apply (r : Fin 8192) (d : Fin 512) : v40 A (ix2 r d) = (inA A).bet d := by
  unfold v40 v39
  rw [broadcast_rows_apply]
  rfl

theorem v42_apply (r : Fin 8192) (d : Fin 512) :
    v42 A (ix2 r d) = zRef (inA A) (Ideal.ofBits .f32 0x3727C5AC#32) r d := by
  unfold v42 v41 v38 v35
  rw [addf_apply, addf_apply, mulf_apply, mulf_apply, v29_apply, v34_apply, v37_apply, v40_apply, v0_apply]
  rfl

theorem v43_apply (b : Fin 8) (n : Fin 1024) (d : Fin 512) :
    v43 A (ix3 b n d) = zRef (inA A) (Ideal.ofBits .f32 0x3727C5AC#32) (rowOf b n) d := by
  unfold v43
  exact (shapeCast_unrows_apply (v42 A) _ b n d (rowOf b n) rfl).trans (v42_apply A _ d)

/-! ## The result -/

/-- The reference's result at `(b, n, d)` is the specification's closed formula at row `b · 1024 + n`. -/
theorem result_apply
    (a0 : (⟨S8x1024x512, .f32⟩ : BufTy).Contents (Elt Ideal)) (a1 : (⟨S8x1024x256, .f32⟩ : BufTy).Contents (Elt Ideal))
    (a2 : (⟨S256x256, .f32⟩ : BufTy).Contents (Elt Ideal)) (a3 : (⟨S256, .f32⟩ : BufTy).Contents (Elt Ideal))
    (a4 : (⟨S512x256, .f32⟩ : BufTy).Contents (Elt Ideal)) (a5 : (⟨S256, .f32⟩ : BufTy).Contents (Elt Ideal))
    (a6 : (⟨S256x256, .f32⟩ : BufTy).Contents (Elt Ideal)) (a7 : (⟨S256, .f32⟩ : BufTy).Contents (Elt Ideal))
    (a8 : (⟨S256x512, .f32⟩ : BufTy).Contents (Elt Ideal)) (a9 : (⟨S512, .f32⟩ : BufTy).Contents (Elt Ideal))
    (a10 : (⟨S512, .f32⟩ : BufTy).Contents (Elt Ideal)) (a11 : (⟨S512, .f32⟩ : BufTy).Contents (Elt Ideal))
    (b : Fin 8) (n : Fin 1024) (d : Fin 512) :
    result a0 a1 a2 a3 a4 a5 a6 a7 a8 a9 a10 a11 (ix3 b n d)
      = Cert.Spec.zRef (Cert.Spec.inOf a0 a1 a2 a3 a4 a5 a6 a7 a8 a9 a10 a11) (Ideal.ofBits .f32 0x3727C5AC#32)
          (Cert.Spec.rowOf b n) d :=
  v43_apply ⟨a0, a1, a2, a3, a4, a5, a6, a7, a8, a9, a10, a11⟩ b n d

end Cert.ReferenceIdeal.RefValue

end
-- ==== Proof.PreFinite.lean ====
/- The precondition decoded: each of the twelve argument arrays passes the test "the absolute value of every entry is
   below the word for +∞", the twelve tests joined by "and"; at the ideal values that says every entry is a real
   number. -/
import proofs.«154593_j40999757807684_2_alg».proof.Pre_finite_inputs
import proofs.«154593_j40999757807684_2_alg».proof.Proof.Gen.Pre_finite_inputs
import proofs.«154593_j40999757807684_2_alg».proof.Proof.Spec
import Idealize.ShloMosaic.Lib.ReduceAll
import Idealize.ShloMosaic.Lib.IdealHost
import Idealize.ShloMosaic.Lib.ValueIdx

noncomputable section

namespace Cert.PreFinite

open Idealize.ShloMosaic Idealize.ShloMosaic.ValueIdx Cert.Pre_finite_inputs Cert.Pre_finite_inputs.Gen

instance : Subsingleton (S_ : Shape).Idx := ⟨fun a b => funext fun d => d.elim0⟩

/-- The word with all exponent bits set and no fraction denotes +∞. -/
theorem ofBits_inf : Ideal.ofBits .f32 0x7F800000#32 = ⊤ := by
  simp [Ideal.ofBits, Ideal.ieee]

/-- An extended real whose absolute value is below +∞ is a real number. -/
theorem ne_of_abs_lt_top {x : EReal} (h : max x (-x) < ⊤) : x ≠ ⊤ ∧ x ≠ ⊥ := by
  refine ⟨fun e => ?_, fun e => ?_⟩
  · subst e; exact absurd h (by simp)
  · subst e; exact absurd h (by simp)

/-- One test of the precondition read back: if "all entries have absolute value below the word for +∞" came out
    true, every entry is a real number. -/
theorem finite_of_all {s : Shape} {axes : List (Fin s.rank)} (a : s.Idx → EReal)
    (hb : (S_ : Shape).BroadcastsInDim s (![] : Fin 0 → Fin s.rank)) (hr : s.ReducesTo axes S_) (hu : 0 < (S_ : Shape).numel)
    (e : Host.reduce IntOp.andi
          (cmpf .olt (Host.absf (F := Ideal) (φ := .f32) a) (broadcastInDim s ![] hb (constant (F := Ideal) S_ .f32 0x7F800000#32)))
          (constantI S_ 1 1#1) hr hu ix0 = 1#1) (i : s.Idx) : a i ≠ ⊤ ∧ a i ≠ ⊥ := by
  have h := Host.reduce_andi_all _ _ hr hu ix0 e i
  rw [cmpf_apply, broadcastInDim_scalar_apply, constant_apply, ofBits_inf] at h
  apply ne_of_abs_lt_top
  by_contra hlt
  have : (FloatOps.cmpf .olt (Host.absf (F := Ideal) (φ := .f32) a i) (⊤ : EReal) : BitVec 1) = 0#1 := by
    show BitVec.ofBool (decide (max (a i) (-(a i)) < (⊤ : EReal))) = 0#1
    rw [decide_eq_false hlt]; rfl
  rw [this] at h
  exact absurd h (by decide)

/-- The precondition says every entry of the twelve arrays is a real number. -/
theorem finite_of_pre (a0 : (⟨3, ![8, 1024, 512]⟩ : Shape).Idx → EReal) (a1 : (⟨3, ![8, 1024, 256]⟩ : Shape).Idx → EReal) (a2 : (⟨2, ![256, 256]⟩ : Shape).Idx → EReal) (a3 : (⟨1, ![256]⟩ : Shape).Idx → EReal) (a4 : (⟨2, ![512, 256]⟩ : Shape).Idx → EReal) (a5 : (⟨1, ![256]⟩ : Shape).Idx → EReal) (a6 : (⟨2, ![256, 256]⟩ : Shape).Idx → EReal) (a7 : (⟨1, ![256]⟩ : Shape).Idx → EReal) (a8 : (⟨2, ![256, 512]⟩ : Shape).Idx → EReal) (a9 : (⟨1, ![512]⟩ : Shape).Idx → EReal) (a10 : (⟨1, ![512]⟩ : Shape).Idx → EReal) (a11 : (⟨1, ![512]⟩ : Shape).Idx → EReal)
    (h : Cert.Pre_finite_inputs.fn (F := Ideal) a0 a1 a2 a3 a4 a5 a6 a7 a8 a9 a10 a11 = (fun _ => 1#1)) :
    (Cert.Spec.inOf a0 a1 a2 a3 a4 a5 a6 a7 a8 a9 a10 a11).Finite := by
  have h0 := congrFun h ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have f0 := finite_of_all a0 _ _ _ e0
  have f1 := finite_of_all a1 _ _ _ e1
  have f2 := finite_of_all a2 _ _ _ e2
  have f3 := finite_of_all a3 _ _ _ e3
  have f4 := finite_of_all a4 _ _ _ e4
  have f5 := finite_of_all a5 _ _ _ e5
  have f6 := finite_of_all a6 _ _ _ e6
  have f7 := finite_of_all a7 _ _ _ e7
  have f8 := finite_of_all a8 _ _ _ e8
  have f9 := finite_of_all a9 _ _ _ e9
  have f10 := finite_of_all a10 _ _ _ e10
  have f11 := finite_of_all a11 _ _ _ e11
  exact ⟨fun r k => f0 _, fun r k => f1 _, fun k j => f2 _, fun j => f3 _, fun k j => f4 _, fun j => f5 _,
    fun k j => f6 _, fun j => f7 _, fun k j => f8 _, fun j => f9 _, fun j => f10 _, fun j => f11 _⟩

end Cert.PreFinite

end
-- ==== Proof.K2Value.lean ====
/-
  The third launch's output array as one function of the arrays it reads, at the exact reals: the row block `t` of the
  output is the body's arithmetic on row block `t` of the two [8192, 512] operands and on the four [1, 512] rows, so the
  eight blocks together are, at every (row, column), ((w − mean) · inv · γ + β) + x.
-/
import proofs.«154593_j40999757807684_2_alg».proof.Proof.K2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at one entry of the block. -/
theorem pay2_apply (x0 x1 : Vec Ideal S1024x512 .f32) (x2 x3 x4 x5 : Vec Ideal S1x512 .f32) (p : Fin 1024) (q : Fin 512) :
    k2_pay1 x0 x1 x2 x3 x4 x5 (ix2 p q)
      = ((x0 (ix2 p q) - x2 (ix2 (0 : Fin 1) q)) * x3 (ix2 (0 : Fin 1) q)) * x4 (ix2 (0 : Fin 1) q) + x5 (ix2 (0 : Fin 1) q) + x1 (ix2 p q) := by
  unfold k2_pay1
  simp only [shapeCast_self, addf_apply, mulf_apply, subf_apply, broadcastTo_1b_ab_apply]

/-- A buffer's contents read as a function into the extended reals. -/
abbrev rd {s : Shape} (x : s.Idx → EReal) : s.Idx → EReal := x

/-- The output at row `r`, column `d`. -/
def z2 (c : Dev nD) (r : Fin 8192) (d : Fin 512) : EReal :=
  ((rd (s := S8192x512) (V c main_v10_0) (ix2 r d) - rd (s := S1x512) (V c main_v19) (ix2 (0 : Fin 1) d)) * rd (s := S1x512) (V c main_v22) (ix2 (0 : Fin 1) d))
      * rd (s := S1x512) (V c main_v6) (ix2 (0 : Fin 1) d) + rd (s := S1x512) (V c main_v7) (ix2 (0 : Fin 1) d) + rd (s := S8192x512) (V c main_v0) (ix2 r d)

/-- The whole output array. -/
def G2 (c : Dev nD) : S8192x512.Idx → EReal := fun i => z2 V c ⟨(i 0).val, (i 0).isLt⟩ ⟨(i 1).val, (i 1).isLt⟩

/-- The printed index maps over the grid: the row-blocked windows move with the point, the four rows stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem flushed2_6_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S1024x512) hz2, View.ld_unit_zero (S := S1x512) hz2]
  obtain ⟨e00, e01, e10, e11, e20, e21, e30, e31, e40, e41, e50, e51, e60, e61⟩ := idx_facts2 t
  have hN : t.val < 8 := lt_of_lt_of_eq t.isLt (show cfg2.N = 8 from N_2)
  funext j
  obtain ⟨p, q, rfl⟩ : ∃ (p : Fin 1024) (q : Fin 512), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = G2 V c (((cfg2.win 6).blk t).view.emb (ix2 p q))
  rw [pay2_apply]
  have hr : ∀ (x : S8192x512.Idx → EReal) (w : Fin 2 → Nat) (h0 : w 0 = t.val) (h1 : w 1 = 0) (y : S8192x512.Idx),
      (y 0).val = w 0 * 1024 + 1 * p.val → (y 1).val = w 1 * 512 + 1 * q.val → x y = x (ix2 ⟨t.val * 1024 + p.val, by have := p.isLt; omega⟩ q) := by
    intro x w h0 h1 y hy0 hy1
    refine congrArg x (funext fun a => Fin.ext ?_)
    match a with
    | ⟨0, _⟩ => show (y 0).val = t.val * 1024 + p.val; rw [hy0, h0]; omega
    | ⟨1, _⟩ => show (y 1).val = q.val; rw [hy1, h1]; omega
  have hrow : ∀ (x : S1x512.Idx → EReal) (w : Fin 2 → Nat) (h0 : w 0 = 0) (h1 : w 1 = 0) (y : S1x512.Idx),
      (y 0).val = w 0 * 1 + 1 * 0 → (y 1).val = w 1 * 512 + 1 * q.val → x y = x (ix2 (0 : Fin 1) q) := by
    intro x w h0 h1 y hy0 hy1
    refine congrArg x (funext fun a => Fin.ext ?_)
    match a with
    | ⟨0, _⟩ => show (y 0).val = 0; rw [hy0, h0]
    | ⟨1, _⟩ => show (y 1).val = q.val; rw [hy1, h1]; omega
  have b0 : iblk2 V c 0 t (ix2 p q) = rd (s := S8192x512) (V c main_v10_0) (ix2 ⟨t.val * 1024 + p.val, by have := p.isLt; omega⟩ q) := by
    show rd (s := S8192x512) (V c main_v10_0) (((cfg2.win 0).blk t).view.emb (ix2 p q)) = _
    exact hr _ (win2_0.index t) e00 e01 _ rfl rfl
  have b1 : iblk2 V c 1 t (ix2 p q) = rd (s := S8192x512) (V c main_v0) (ix2 ⟨t.val * 1024 + p.val, by have := p.isLt; omega⟩ q) := by
    show rd (s := S8192x512) (V c main_v0) (((cfg2.win 1).blk t).view.emb (ix2 p q)) = _
    exact hr _ (win2_1.index t) e10 e11 _ rfl rfl
  have b2 : iblk2 V c 2 t (ix2 (0 : Fin 1) q) = rd (s := S1x512) (V c main_v19) (ix2 (0 : Fin 1) q) := by
    show rd (s := S1x512) (V c main_v19) (((cfg2.win 2).blk t).view.emb (ix2 (0 : Fin 1) q)) = _
    exact hrow _ (win2_2.index t) e20 e21 _ rfl rfl
  have b3 : iblk2 V c 3 t (ix2 (0 : Fin 1) q) = rd (s := S1x512) (V c main_v22) (ix2 (0 : Fin 1) q) := by
    show rd (s := S1x512) (V c main_v22) (((cfg2.win 3).blk t).view.emb (ix2 (0 : Fin 1) q)) = _
    exact hrow _ (win2_3.index t) e30 e31 _ rfl rfl
  have b4 : iblk2 V c 4 t (ix2 (0 : Fin 1) q) = rd (s := S1x512) (V c main_v6) (ix2 (0 : Fin 1) q) := by
    show rd (s := S1x512) (V c main_v6) (((cfg2.win 4).blk t).view.emb (ix2 (0 : Fin 1) q)) = _
    exact hrow _ (win2_4.index t) e40 e41 _ rfl rfl
  have b5 : iblk2 V c 5 t (ix2 (0 : Fin 1) q) = rd (s := S1x512) (V c main_v7) (ix2 (0 : Fin 1) q) := by
    show rd (s := S1x512) (V c main_v7) (((cfg2.win 5).blk t).view.emb (ix2 (0 : Fin 1) q)) = _
    exact hrow _ (win2_5.index t) e50 e51 _ rfl rfl
  have g : G2 V c (((cfg2.win 6).blk t).view.emb (ix2 p q)) = z2 V c ⟨t.val * 1024 + p.val, by have := p.isLt; omega⟩ q := by
    unfold G2
    refine congrArg₂ (z2 V c) (Fin.ext ?_) (Fin.ext ?_)
    · show win2_6.index t (0 : Fin 2) * 1024 + 1 * p.val = t.val * 1024 + p.val
      rw [e60]; omega
    · show win2_6.index t (1 : Fin 2) * 512 + 1 * q.val = q.val
      rw [e61]; omega
  rw [b0, b1, b2, b3, b4, b5, g]
  rfl

/-- An index of the array is in point `t`'s block iff each coordinate is in the block's range on its axis. -/
theorem mem_blk2_6 (t : Fin cfg2.N) (i : S8192x512.Idx) :
    i ∈ ((cfg2.win 6).blk t).view.set ↔ ∀ a : Fin 2, win2_6.index t a * S1024x512.size a ≤ (i a).val ∧ (i a).val < win2_6.index t a * S1024x512.size a + S1024x512.size a := by
  show i ∈ ((View.whole main_v23).slice (win2_6.rect t)).set ↔ _
  rw [View.set_slice_whole, Rect.mem_set_unit]
  exact Iff.rfl

/-- THE OUTPUT ARRAY after the launch: every row lies in the block of the point that is its quotient by 1024. -/
theorem final2_6 (c : Dev nD) : (dat2 V c).arrAt 6 cfg2.N = G2 V c :=
  (dat2 V c).arrAt_eq_of_cover 6 (G2 V c) (fun t _ => flushed2_6_eq V c t) fun i => by
    have hi0 : (i 0).val < 8192 := (i 0).isLt
    have hi1 : (i 1).val < 512 := (i 1).isLt
    let t : Fin cfg2.N := ⟨(i 0).val / 1024, by rw [show cfg2.N = 8 from N_2]; omega⟩
    obtain ⟨-, -, -, -, -, -, -, -, -, -, -, -, e60, e61⟩ := idx_facts2 t
    refine ⟨t, flush2_6 t, ?_⟩
    rw [mem_blk2_6]
    intro a
    match a with
    | ⟨0, _⟩ => show win2_6.index t (0 : Fin 2) * 1024 ≤ (i 0).val ∧ (i 0).val < win2_6.index t (0 : Fin 2) * 1024 + 1024; rw [e60]; show (i 0).val / 1024 * 1024 ≤ _ ∧ _ < (i 0).val / 1024 * 1024 + 1024; omega
    | ⟨1, _⟩ => show win2_6.index t (1 : Fin 2) * 512 ≤ (i 1).val ∧ (i 1).val < win2_6.index t (1 : Fin 2) * 512 + 512; rw [e61]; omega

end Cert.KernelIdeal.Gen

end
-- ==== Proof.K1Pieces.lean ====
import proofs.«154593_j40999757807684_2_alg».proof.Proof.K1Frame
import Idealize.ShloMosaic.Lib.Pipeline.Value
import Idealize.ShloMosaic.Lib.Tactic

set_option maxRecDepth 16384

noncomputable section

namespace Cert.KernelIdeal.K1Value

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's found pieces are, as payloads of the loaded blocks (any float values) -/

theorem out4_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) :
    out1_A_4 c i arg2 harg2 arg3 harg3 arg4 harg4 arg5 harg5 arg6 harg6 arg7 harg7 arg8 harg8 arg9 harg9 arg10 harg10 hc0 hc1 x0 x1 x2 x3 = k1_pay7 x0 x1 x2 x3 := by
  unfold out1_A_4
  rw [View.read_writes_eq_canon _ _ _ (cover1_A_4 c i arg2 harg2 arg3 harg3 arg4 harg4 arg5 harg5 arg6 harg6 arg7 harg7 arg8 harg8 arg9 harg9 arg10 harg10 hc0 hc1 x0 x1 x2 x3)]
  unfold kernelRun1_A
  dsimp only
  try sl_unfold_words
  first | rw [View.canon_unit_zero (S := S1024x512) hz2] | rw [View.canon_cons_unit_zero (S := S1024x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem sc0_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) :
    sout1_A_0 c i arg2 harg2 arg3 harg3 arg4 harg4 arg5 harg5 arg6 harg6 arg7 harg7 arg8 harg8 arg9 harg9 arg10 harg10 hc0 hc1 x0 x1 x2 x3 = k1_pay8 x0 x1 x2 (k1_pay4 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3)]
  unfold kernelRun1_A
  dsimp only
  try sl_unfold_words
  first | rw [View.canon_unit_zero (S := S1x512) hz2] | rw [View.canon_cons_unit_zero (S := S1x512) hz2]
  rw [View.readCov_unit_zero (S := S1x512) _ hz2]
  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem sc1_A (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond1_0 i) (hc1 : ¬cond1_1 i)
    (x0 : Vec F S1024x256 .f32) (x1 : Vec F S256x256 .f32) (x2 : Vec F S256x512 .f32) (x3 : Vec F S1x512 .f32) :
    sout1_A_1 c i arg2 harg2 arg3 harg3 arg4 harg4 arg5 harg5 arg6 harg6 arg7 harg7 arg8 harg8 arg9 harg9 arg10 harg10 hc0 hc1 x0 x1 x2 x3 = k1_pay1 (k1_pay9 x0 x1 x2 (k1_pay5 (F := F))) := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3)]
  unfold kernelRun1_A
  dsimp only
  try sl_unfold_words
  first | rw [View.canon_unit_zero (S := S1x512) hz2] | rw [View.canon_cons_unit_zero (S := S1x512) hz2]
  rw [View.readCov_unit_zero (S := S1x512) _ hz2]
  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem out4_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) :
    out1_B_4 c i arg2 harg2 arg3 harg3 arg4 harg4 arg5 harg5 arg6 harg6 arg7 harg7 arg8 harg8 arg9 harg9 arg10 harg10 hc0 hc1 x0 x1 x2 x3 xs0 xs1 = k1_pay7 x0 x1 x2 x3 := by
  unfold out1_B_4
  rw [View.read_writes_eq_canon _ _ _ (cover1_B_4 c i arg2 harg2 arg3 harg3 arg4 harg4 arg5 harg5 arg6 harg6 arg7 harg7 arg8 harg8 arg9 harg9 arg10 harg10 hc0 hc1 x0 x1 x2 x3 xs0 xs1)]
  unfold kernelRun1_B
  dsimp only
  try sl_unfold_words
  first | rw [View.canon_unit_zero (S := S1024x512) hz2] | rw [View.canon_cons_unit_zero (S := S1024x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem sc0_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) :
    sout1_B_0 c i arg2 harg2 arg3 harg3 arg4 harg4 arg5 harg5 arg6 harg6 arg7 harg7 arg8 harg8 arg9 harg9 arg10 harg10 hc0 hc1 x0 x1 x2 x3 xs0 xs1 = k1_pay8 x0 x1 x2 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 xs0 xs1)]
  unfold kernelRun1_B
  dsimp only
  try sl_unfold_words
  first | rw [View.canon_unit_zero (S := S1x512) hz2] | rw [View.canon_cons_unit_zero (S := S1x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem sc1_B (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : ¬cond1_1 i)
    (x0 : Vec F S1024x256 .f32) (x1 : Vec F S256x256 .f32) (x2 : Vec F S256x512 .f32) (x3 : Vec F S1x512 .f32) (xs0 : Vec F S1x512 .f32) (xs1 : Vec F S1x512 .f32) :
    sout1_B_1 c i arg2 harg2 arg3 harg3 arg4 harg4 arg5 harg5 arg6 harg6 arg7 harg7 arg8 harg8 arg9 harg9 arg10 harg10 hc0 hc1 x0 x1 x2 x3 xs0 xs1 = k1_pay1 (k1_pay9 x0 x1 x2 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 xs0 xs1)]
  unfold kernelRun1_B
  dsimp only
  try sl_unfold_words
  first | rw [View.canon_unit_zero (S := S1x512) hz2] | rw [View.canon_cons_unit_zero (S := S1x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem out4_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    out1_C_4 c i arg2 harg2 arg3 harg3 arg4 harg4 arg5 harg5 arg6 harg6 arg7 harg7 arg8 harg8 arg9 harg9 arg10 harg10 hc0 hc1 x0 x1 x2 x3 xs0 xs1 = k1_pay7 x0 x1 x2 x3 := by
  unfold out1_C_4
  rw [View.read_writes_eq_canon _ _ _ (cover1_C_4 c i arg2 harg2 arg3 harg3 arg4 harg4 arg5 harg5 arg6 harg6 arg7 harg7 arg8 harg8 arg9 harg9 arg10 harg10 hc0 hc1 x0 x1 x2 x3 xs0 xs1)]
  unfold kernelRun1_C
  dsimp only
  try sl_unfold_words
  first | rw [View.canon_unit_zero (S := S1024x512) hz2] | rw [View.canon_cons_unit_zero (S := S1024x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem sc0_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    sout1_C_0 c i arg2 harg2 arg3 harg3 arg4 harg4 arg5 harg5 arg6 harg6 arg7 harg7 arg8 harg8 arg9 harg9 arg10 harg10 hc0 hc1 x0 x1 x2 x3 xs0 xs1 = k1_pay8 x0 x1 x2 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 xs0 xs1)]
  unfold kernelRun1_C
  dsimp only
  try sl_unfold_words
  first | rw [View.canon_unit_zero (S := S1x512) hz2] | rw [View.canon_cons_unit_zero (S := S1x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem sc1_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    sout1_C_1 c i arg2 harg2 arg3 harg3 arg4 harg4 arg5 harg5 arg6 harg6 arg7 harg7 arg8 harg8 arg9 harg9 arg10 harg10 hc0 hc1 x0 x1 x2 x3 xs0 xs1 = k1_pay1 (k1_pay9 x0 x1 x2 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 xs0 xs1)]
  unfold kernelRun1_C
  dsimp only
  try sl_unfold_words
  first | rw [View.canon_unit_zero (S := S1x512) hz2] | rw [View.canon_cons_unit_zero (S := S1x512) hz2]

  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem out5_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    out1_C_5 c i arg2 harg2 arg3 harg3 arg4 harg4 arg5 harg5 arg6 harg6 arg7 harg7 arg8 harg8 arg9 harg9 arg10 harg10 hc0 hc1 x0 x1 x2 x3 xs0 xs1 = k1_pay2 (k1_pay8 x0 x1 x2 xs0) := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 xs0 xs1)]
  unfold kernelRun1_C
  dsimp only
  try sl_unfold_words
  first | rw [View.canon_unit_zero (S := S1x1x512) hz3] | rw [View.canon_cons_unit_zero (S := S1x1x512) hz3]
  rw [View.readCov_unit_zero (S := S1x512) _ hz2]
  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

theorem out6_C (c : Dev nD) (i : grid1.Coords) (arg2 : Memref sig .tc .vmem S1024x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond1_0 i) (hc1 : cond1_1 i)
    (x0 : Vec F S1024x256 .f32) (x1 : Vec F S256x256 .f32) (x2 : Vec F S256x512 .f32) (x3 : Vec F S1x512 .f32) (xs0 : Vec F S1x512 .f32) (xs1 : Vec F S1x512 .f32) :
    out1_C_6 c i arg2 harg2 arg3 harg3 arg4 harg4 arg5 harg5 arg6 harg6 arg7 harg7 arg8 harg8 arg9 harg9 arg10 harg10 hc0 hc1 x0 x1 x2 x3 xs0 xs1 = k1_pay3 (k1_pay1 (k1_pay9 x0 x1 x2 xs1)) := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 xs0 xs1)]
  unfold kernelRun1_C
  dsimp only
  try sl_unfold_words
  first | rw [View.canon_unit_zero (S := S1x1x512) hz3] | rw [View.canon_cons_unit_zero (S := S1x1x512) hz3]
  rw [View.readCov_unit_zero (S := S1x512) _ hz2]
  simp only [View.readAt_eq_ld, harg2.read_unread, harg3.read_unread, harg4.read_unread, harg5.read_unread, harg9.read_unread, harg10.read_unread, View.ld_unit_zero (S := S1024x256) hz2, View.ld_unit_zero (S := S256x256) hz2, View.ld_unit_zero (S := S256x512) hz2, View.ld_unit_zero (S := S1x512) hz2]

/-! ## What the outputs and the carried scratches hold after each point, as payloads of the point's blocks -/

section Steps
variable (V : (c : Dev nD) → (b : Ref sig .tc) → Buf (Elt F) ((c : Thread nD τ).loc b))

/-- After any point output 4's buffer holds the affine map of the point's blocks. -/
theorem o4_eq (c : Dev nD) (t : Fin cfg1.N) :
    (outsAt1 V c t.val t.isLt).1 = k1_pay7 (iblk1 V c 0 t) (iblk1 V c 1 t) (iblk1 V c 2 t) (iblk1 V c 3 t) := by
  by_cases h0 : t.val % 4 = 0
  · have h1 : ¬t.val % 4 = 3 := by omega
    rw [outsAt1_A V c t h0 h1]; unfold outs1_A; dsimp only
    exact out4_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  · by_cases h1 : t.val % 4 = 3
    · rw [outsAt1_C V c t h0 h1]; unfold outs1_C; dsimp only
      exact out4_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]; unfold outs1_B; dsimp only
      exact out4_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At a first tile of a half the first scratch restarts from the zero row: the column sums of the point's product. -/
theorem s0_first (c : Dev nD) (t : Fin cfg1.N) (h0 : t.val % 4 = 0) :
    (outsAt1 V c t.val t.isLt).2.2.2.1 = k1_pay8 (iblk1 V c 0 t) (iblk1 V c 1 t) (iblk1 V c 2 t) (k1_pay4 (F := F)) := by
  have h1 : ¬t.val % 4 = 3 := by omega
  rw [outsAt1_A V c t h0 h1]; unfold outs1_A; dsimp only
  exact sc0_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

/-- At a first tile of a half the second scratch restarts from the zero row: the column sums of squares. -/
theorem s1_first (c : Dev nD) (t : Fin cfg1.N) (h0 : t.val % 4 = 0) :
    (outsAt1 V c t.val t.isLt).2.2.2.2 = k1_pay1 (k1_pay9 (iblk1 V c 0 t) (iblk1 V c 1 t) (iblk1 V c 2 t) (k1_pay5 (F := F))) := by
  have h1 : ¬t.val % 4 = 3 := by omega
  rw [outsAt1_A V c t h0 h1]; unfold outs1_A; dsimp only
  exact sc1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

/-- At a later tile the first scratch adds the point's column sums to what the point before left. -/
theorem s0_next (c : Dev nD) (t : Fin cfg1.N) (h0 : ¬t.val % 4 = 0) :
    (outsAt1 V c t.val t.isLt).2.2.2.1 = k1_pay8 (iblk1 V c 0 t) (iblk1 V c 1 t) (iblk1 V c 2 t) (outsAt1 V c (t.val - 1) (Nat.lt_of_le_of_lt (Nat.sub_le _ _) t.isLt)).2.2.2.1 := by
  by_cases h1 : t.val % 4 = 3
  · rw [outsAt1_C V c t h0 h1]; unfold outs1_C; dsimp only
    exact sc0_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
  · rw [outsAt1_B V c t h0 h1]; unfold outs1_B; dsimp only
    exact sc0_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At a later tile the second scratch adds the point's column sums of squares to what the point before left. -/
theorem s1_next (c : Dev nD) (t : Fin cfg1.N) (h0 : ¬t.val % 4 = 0) :
    (outsAt1 V c t.val t.isLt).2.2.2.2 = k1_pay1 (k1_pay9 (iblk1 V c 0 t) (iblk1 V c 1 t) (iblk1 V c 2 t) (outsAt1 V c (t.val - 1) (Nat.lt_of_le_of_lt (Nat.sub_le _ _) t.isLt)).2.2.2.2) := by
  by_cases h1 : t.val % 4 = 3
  · rw [outsAt1_C V c t h0 h1]; unfold outs1_C; dsimp only
    exact sc1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
  · rw [outsAt1_B V c t h0 h1]; unfold outs1_B; dsimp only
    exact sc1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At a last tile of a half output 5's buffer holds the first scratch as this point leaves it, with a unit axis added. -/
theorem o5_last (c : Dev nD) (t : Fin cfg1.N) (h1 : t.val % 4 = 3) :
    (outsAt1 V c t.val t.isLt).2.1 = k1_pay2 (outsAt1 V c t.val t.isLt).2.2.2.1 := by
  have h0 : ¬t.val % 4 = 0 := by omega
  rw [s0_next V c t h0]
  rw [outsAt1_C V c t h0 h1]; unfold outs1_C; dsimp only
  exact out5_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At a last tile of a half output 6's buffer holds the second scratch as this point leaves it, with a unit axis added. -/
theorem o6_last (c : Dev nD) (t : Fin cfg1.N) (h1 : t.val % 4 = 3) :
    (outsAt1 V c t.val t.isLt).2.2.1 = k1_pay3 (outsAt1 V c t.val t.isLt).2.2.2.2 := by
  have h0 : ¬t.val % 4 = 0 := by omega
  rw [s1_next V c t h0]
  rw [outsAt1_C V c t h0 h1]; unfold outs1_C; dsimp only
  exact out6_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

end Steps

end Cert.KernelIdeal.K1Value

end
-- ==== Proof.K1Pay.lean ====
import proofs.«154593_j40999757807684_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.K1Value

open Idealize.ShloMosaic Idealize.ShloMosaic.TcCoe Idealize.ShloMosaic.Tactic Idealize.SL.Sem
open Idealize.ShloMosaic.Pipeline (Dat)
open Cert.KernelIdeal Cert.KernelIdeal.Gen

open ValueIdx
open scoped BigOperators

/-! ## The two matrix products of the body, read at an index (extended reals) -/

theorem mm1_lhs0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm1_lhs1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem mm1_rhs0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem mm1_rhs1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix product into the zero accumulator, at an index: the sum over the contracted axis. -/
theorem mm1_apply (a : FVec Ideal S1024x256 .f32) (b : FVec Ideal S256x256 .f32) (s : Fin 1024) (j : Fin 256) :
    matmul dot_S1024x256_S256x256_S1024x256_1_0_0_1_n_n (some .fp32) a b (constant (F := Ideal) S1024x256 .f32 0x00000000#32) (ix2 s j) = ∑ k : Fin 256, a (ix2 s k) * b (ix2 k j) := by
  refine (Ideal.matmul_constant_zero_apply dot_S1024x256_S256x256_S1024x256_1_0_0_1_n_n (some .fp32) a b (ix2 s j)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 s j) ((ValueIdx.contrEquiv1 dot_S1024x256_S256x256_S1024x256_1_0_0_1_n_n 256 rfl rfl).symm k) = ix2 s k := funext fun a => Fin.ext (by
    match a with
    | ⟨0, _⟩ => exact mm1_lhs0 _ _
    | ⟨1, _⟩ => exact (mm1_lhs1 _ _).trans hk)
  have er : dot_S1024x256_S256x256_S1024x256_1_0_0_1_n_n.rhsIdx (ix2 s j) ((ValueIdx.contrEquiv1 dot_S1024x256_S256x256_S1024x256_1_0_0_1_n_n 256 rfl rfl).symm k) = ix2 k j := funext fun a => Fin.ext (by
    match a with
    | ⟨0, _⟩ => exact (mm1_rhs0 _ _).trans hk
    | ⟨1, _⟩ => exact mm1_rhs1 _ _)
  rw [el, er]

theorem mm2_lhs0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem mm2_lhs1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
theorem mm2_rhs0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
theorem mm2_rhs1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The matrix product into the zero accumulator, at an index: the sum over the contracted axis. -/
theorem mm2_apply (a : FVec Ideal S1024x256 .f32) (b : FVec Ideal S256x512 .f32) (s : Fin 1024) (j : Fin 512) :
    matmul dot_S1024x256_S256x512_S1024x512_1_0_0_1_n_n (some .fp32) a b (constant (F := Ideal) S1024x512 .f32 0x00000000#32) (ix2 s j) = ∑ k : Fin 256, a (ix2 s k) * b (ix2 k j) := by
  refine (Ideal.matmul_constant_zero_apply dot_S1024x256_S256x512_S1024x512_1_0_0_1_n_n (some .fp32) a b (ix2 s j)).trans ?_
  rw [← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 s j) ((ValueIdx.contrEquiv1 dot_S1024x256_S256x512_S1024x512_1_0_0_1_n_n 256 rfl rfl).symm k) = ix2 s k := funext fun a => Fin.ext (by
    match a with
    | ⟨0, _⟩ => exact mm2_lhs0 _ _
    | ⟨1, _⟩ => exact (mm2_lhs1 _ _).trans hk)
  have er : dot_S1024x256_S256x512_S1024x512_1_0_0_1_n_n.rhsIdx (ix2 s j) ((ValueIdx.contrEquiv1 dot_S1024x256_S256x512_S1024x512_1_0_0_1_n_n 256 rfl rfl).symm k) = ix2 k j := funext fun a => Fin.ext (by
    match a with
    | ⟨0, _⟩ => exact (mm2_rhs0 _ _).trans hk
    | ⟨1, _⟩ => exact mm2_rhs1 _ _)
  rw [el, er]

/-- The body's product `((x₀ · x₁) · 2⁻¹³) · x₂` at row `s`, column `d`. -/
theorem pay6_apply (x0 : Vec Ideal S1024x256 .f32) (x1 : Vec Ideal S256x256 .f32) (x2 : Vec Ideal S256x512 .f32) (s : Fin 1024) (d : Fin 512) :
    k1_pay6 (F := Ideal) x0 x1 x2 (ix2 s d)
      = ∑ j : Fin 256, ((∑ k : Fin 256, x0 (ix2 s k) * x1 (ix2 k j)) * Ideal.ofBits .f32 0x39000000#32) * x2 (ix2 j d) := by
  unfold k1_pay6
  refine (mm2_apply _ _ s d).trans ?_
  refine Finset.sum_congr rfl fun j _ => ?_
  refine congrArg (· * x2 (ix2 j d)) ?_
  show (matmul dot_S1024x256_S256x256_S1024x256_1_0_0_1_n_n (some .fp32) (shapeCast S1024x256 x0 shapeCasts_S1024x256_S1024x256) (shapeCast S256x256 x1 shapeCasts_S256x256_S256x256) (constant (F := Ideal) S1024x256 .f32 0x00000000#32) (ix2 s j)) * _ = _
  rw [shapeCast_self, shapeCast_self]
  refine congrArg (· * Ideal.ofBits .f32 0x39000000#32) ?_
  exact mm1_apply x0 x1 s j

/-- The index over column `d` of the column-sum's result whose row is `s`. -/
theorem lift_row (s : Fin 1024) (d : Fin 512) :
    reduces_S1024x512_S512.lift (ix1 d) s = ix2 s d := by
  funext a
  apply Fin.ext
  match a with
  | ⟨0, _⟩ => rfl
  | ⟨1, _⟩ => rfl

/-- A column sum (`multi_reduction <add>` over the rows) kept as a one-row matrix, at column `d`. -/
theorem colsum_apply (X : FVec Ideal S1024x512 .f32) (hacc : (0x00000000#32 : BitVec 32) = 0x00000000#32) (d : Fin 512) :
    shapeCast S1x512 (multiReduction (F := Ideal) .add [0] S512 X 0x00000000#32 reduces_S1024x512_S512 (.inl rfl) hacc) shapeCasts_S512_S1x512 (ix2 0 d)
      = ∑ s : Fin 1024, X (ix2 s d) := by
  refine (shapeCast_a_1a_apply _ shapeCasts_S512_S1x512 0 d).trans ?_
  refine (Ideal.multiReduction_add_single X 0x00000000#32 reduces_S1024x512_S512 (.inl rfl) hacc (ix1 d)).trans ?_
  exact Finset.sum_congr rfl fun s _ => congrArg X (lift_row s d)

/-- The stored block of output 4: the product plus the bias row. -/
theorem pay7_apply (x0 : Vec Ideal S1024x256 .f32) (x1 : Vec Ideal S256x256 .f32) (x2 : Vec Ideal S256x512 .f32) (x3 : Vec Ideal S1x512 .f32)
    (s : Fin 1024) (d : Fin 512) :
    k1_pay7 (F := Ideal) x0 x1 x2 x3 (ix2 s d) = k1_pay6 (F := Ideal) x0 x1 x2 (ix2 s d) + x3 (ix2 0 d) := by
  unfold k1_pay7
  show k1_pay6 (F := Ideal) x0 x1 x2 (ix2 s d) + broadcastTo S1024x512 (shapeCast S1x512 x3 shapeCasts_S1x512_S1x512) broadcasts_S1x512_S1024x512 (ix2 s d) = _
  rw [shapeCast_self]
  exact congrArg (k1_pay6 (F := Ideal) x0 x1 x2 (ix2 s d) + ·) (broadcastTo_1b_ab_apply x3 broadcasts_S1x512_S1024x512 s d)

/-- The first accumulator's update: what it held plus the column sums of the product. -/
theorem pay8_apply (x0 : Vec Ideal S1024x256 .f32) (x1 : Vec Ideal S256x256 .f32) (x2 : Vec Ideal S256x512 .f32) (acc : Vec Ideal S1x512 .f32)
    (d : Fin 512) :
    k1_pay8 (F := Ideal) x0 x1 x2 acc (ix2 0 d) = acc (ix2 0 d) + ∑ s : Fin 1024, k1_pay6 (F := Ideal) x0 x1 x2 (ix2 s d) := by
  unfold k1_pay8
  refine (congrFun (shapeCast_self _ shapeCasts_S1x512_S1x512) (ix2 0 d)).trans ?_
  exact congrArg (acc (ix2 0 d) + ·) (colsum_apply (k1_pay6 (F := Ideal) x0 x1 x2) rfl d)

/-- The second accumulator's update: what it held plus the column sums of the product's squares. -/
theorem pay9_apply (x0 : Vec Ideal S1024x256 .f32) (x1 : Vec Ideal S256x256 .f32) (x2 : Vec Ideal S256x512 .f32) (acc : Vec Ideal S1x512 .f32)
    (d : Fin 512) :
    k1_pay9 (F := Ideal) x0 x1 x2 acc (ix2 0 d)
      = acc (ix2 0 d) + ∑ s : Fin 1024, k1_pay6 (F := Ideal) x0 x1 x2 (ix2 s d) * k1_pay6 (F := Ideal) x0 x1 x2 (ix2 s d) := by
  unfold k1_pay9
  exact congrArg (acc (ix2 0 d) + ·) (colsum_apply (mulf (k1_pay6 (F := Ideal) x0 x1 x2) (k1_pay6 (F := Ideal) x0 x1 x2)) rfl d)

/-- A cast of a row to itself. -/
theorem pay1_eq (v : FVec Ideal S1x512 .f32) : k1_pay1 (F := Ideal) v = v := by
  unfold k1_pay1; exact shapeCast_self _ _

/-- The zero row the accumulators restart from. -/
theorem pay4_apply (d : Fin 512) : k1_pay4 (F := Ideal) (ix2 0 d) = 0 := by
  unfold k1_pay4
  refine (congrFun (shapeCast_self _ shapeCasts_S1x512_S1x512) (ix2 0 d)).trans ?_
  exact Ideal.ofBits_zero_f32
theorem pay5_apply (d : Fin 512) : k1_pay5 (F := Ideal) (ix2 0 d) = 0 := by
  unfold k1_pay5
  refine (congrFun (shapeCast_self _ shapeCasts_S1x512_S1x512) (ix2 0 d)).trans ?_
  exact Ideal.ofBits_zero_f32

/-- A row with a unit axis added in front, at `(0, 0, d)`. -/
theorem pay2_apply (v : Vec Ideal S1x512 .f32) (d : Fin 512) : k1_pay2 (F := Ideal) v (ix3 0 0 d) = v (ix2 0 d) := by
  unfold k1_pay2
  exact shapeCast_ab_1ab_apply v shapeCasts_S1x512_S1x1x512 0 0 d
theorem pay3_apply (v : Vec Ideal S1x512 .f32) (d : Fin 512) : k1_pay3 (F := Ideal) v (ix3 0 0 d) = v (ix2 0 d) := by
  unfold k1_pay3
  exact shapeCast_ab_1ab_apply v shapeCasts_S1x512_S1x1x512 0 0 d

end Cert.KernelIdeal.K1Value

end
-- ==== Proof.K1Value.lean ====
/-
  The value of the second call's region on the extended reals. With θ the rows (8192 × 256), M (256 × 256), W (256 × 512)
  and the bias row b as the region finds them, the body computes on each tile of 1024 rows y = (θ M) · 2⁻¹³ and
  pre = y W; it stores pre + b into the tile of the first output, and adds the column sums of pre and of pre² to two
  accumulators that restart from zero at the first tile of each half (four tiles) and are copied out after the last.
  So the first output ends at pre + b row by row, and the other two at the column sums of pre and of pre² over each half.
-/
import proofs.«154593_j40999757807684_2_alg».proof.Proof.K1Pieces
import proofs.«154593_j40999757807684_2_alg».proof.Proof.K1Pay
import proofs.«154593_j40999757807684_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.K1Value

open Idealize.ShloMosaic Idealize.ShloMosaic.TcCoe Idealize.ShloMosaic.Tactic Idealize.SL.Sem
open Idealize.ShloMosaic.Pipeline (Dat)
open Cert.KernelIdeal Cert.KernelIdeal.Gen

open ValueIdx
open scoped BigOperators

-- the TensorCore's buffer contents when region 1 is entered, at the extended reals
variable (V : (c : Dev nD) → (b : Ref sig .tc) → Buf (Elt Ideal) ((c : Thread nD τ).loc b))

/-! ## The region's mathematics: `y = (θ M) · 2⁻¹³`, `pre = y W` -/

/-- The four input arrays as the region finds them, as functions of their indices. -/
abbrev A0 (c : Dev nD) : S8192x256.Idx → EReal := V c main_v8_0
abbrev A1 (c : Dev nD) : S256x256.Idx → EReal := V c main_v9
abbrev A2 (c : Dev nD) : S256x512.Idx → EReal := V c main_arg8
abbrev A3 (c : Dev nD) : S1x512.Idx → EReal := V c main_v5
/-- Row `r`, column `j` of `(θ M) · 2⁻¹³`, of the arrays as the region finds them. -/
abbrev yV (c : Dev nD) (r : Fin 8192) (j : Fin 256) : EReal :=
  (∑ k : Fin 256, A0 V c (ix2 r k) * A1 V c (ix2 k j)) * Ideal.ofBits .f32 0x39000000#32
/-- Row `r`, column `d` of `y W`: the product before the bias. -/
abbrev preV (c : Dev nD) (r : Fin 8192) (d : Fin 512) : EReal :=
  ∑ j : Fin 256, yV V c r j * A2 V c (ix2 j d)

/-! ## The windows' blocks, read at an index -/

/-- The printed index maps, decided over the grid: the row-tiled windows 0 and 4 are on tile `t`, the resident windows
    on their one block, the per-half windows 5 and 6 on half `t / 4`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val / 4 ∧ win1_5.index t (1 : Fin 3) = 0 ∧ win1_5.index t (2 : Fin 3) = 0
    ∧ win1_6.index t (0 : Fin 3) = t.val / 4 ∧ win1_6.index t (1 : Fin 3) = 0 ∧ win1_6.index t (2 : Fin 3) = 0 :=
  (by decide +kernel : ∀ t : Fin grid1.N, _)

/-- Row `s` of tile `t`, among all rows. -/
def rowAt (t : Fin cfg1.N) (s : Fin 1024) : Fin 8192 :=
  ⟨t.val * 1024 + s.val, by have := t.isLt; have hN : cfg1.N = 8 := N_1; have := s.isLt; omega⟩

theorem ib0_apply (c : Dev nD) (t : Fin cfg1.N) (s : Fin 1024) (k : Fin 256) :
    (iblk1 V c 0 t : Vec Ideal S1024x256 .f32) (ix2 s k) = V c main_v8_0 (ix2 (rowAt t s) k) := by
  obtain ⟨e0, e1, -⟩ := idx_facts1 t
  unfold iblk1
  rw [View.read_apply]
  show V c main_v8_0 _ = V c main_v8_0 _
  refine congrArg (V c main_v8_0) ?_
  funext a; apply Fin.ext
  match a with
  | ⟨0, _⟩ => show win1_0.index t (0 : Fin 2) * 1024 + 1 * s.val = t.val * 1024 + s.val; rw [e0]; omega
  | ⟨1, _⟩ => show win1_0.index t (1 : Fin 2) * 256 + 1 * k.val = k.val; rw [e1]; omega

theorem ib1_apply (c : Dev nD) (t : Fin cfg1.N) (k : Fin 256) (j : Fin 256) :
    (iblk1 V c 1 t : Vec Ideal S256x256 .f32) (ix2 k j) = V c main_v9 (ix2 k j) := by
  obtain ⟨-, -, e0, e1, -⟩ := idx_facts1 t
  unfold iblk1
  rw [View.read_apply]
  show V c main_v9 _ = V c main_v9 _
  refine congrArg (V c main_v9) ?_
  funext a; apply Fin.ext
  match a with
  | ⟨0, _⟩ => show win1_1.index t (0 : Fin 2) * 256 + 1 * k.val = k.val; rw [e0]; omega
  | ⟨1, _⟩ => show win1_1.index t (1 : Fin 2) * 256 + 1 * j.val = j.val; rw [e1]; omega

theorem ib2_apply (c : Dev nD) (t : Fin cfg1.N) (j : Fin 256) (d : Fin 512) :
    (iblk1 V c 2 t : Vec Ideal S256x512 .f32) (ix2 j d) = V c main_arg8 (ix2 j d) := by
  obtain ⟨-, -, -, -, e0, e1, -⟩ := idx_facts1 t
  unfold iblk1
  rw [View.read_apply]
  show V c main_arg8 _ = V c main_arg8 _
  refine congrArg (V c main_arg8) ?_
  funext a; apply Fin.ext
  match a with
  | ⟨0, _⟩ => show win1_2.index t (0 : Fin 2) * 256 + 1 * j.val = j.val; rw [e0]; omega
  | ⟨1, _⟩ => show win1_2.index t (1 : Fin 2) * 512 + 1 * d.val = d.val; rw [e1]; omega

theorem ib3_apply (c : Dev nD) (t : Fin cfg1.N) (d : Fin 512) :
    (iblk1 V c 3 t : Vec Ideal S1x512 .f32) (ix2 0 d) = V c main_v5 (ix2 0 d) := by
  obtain ⟨-, -, -, -, -, -, e0, e1, -⟩ := idx_facts1 t
  unfold iblk1
  rw [View.read_apply]
  show V c main_v5 _ = V c main_v5 _
  refine congrArg (V c main_v5) ?_
  funext a; apply Fin.ext
  match a with
  | ⟨0, _⟩ => show win1_3.index t (0 : Fin 2) * 1 + 1 * 0 = 0; rw [e0]
  | ⟨1, _⟩ => show win1_3.index t (1 : Fin 2) * 512 + 1 * d.val = d.val; rw [e1]; omega

/-- The body's product of blocks whose entries are those of arrays `A`, `M`, `W` (row `s` of the first block being row
    `r` of `A`) is `((A M) · 2⁻¹³) W` at row `r`. -/
theorem block_pre (x0 : Vec Ideal S1024x256 .f32) (x1 : Vec Ideal S256x256 .f32) (x2 : Vec Ideal S256x512 .f32)
    (A : S8192x256.Idx → EReal) (M : S256x256.Idx → EReal) (W : S256x512.Idx → EReal) (r : Fin 8192) (s : Fin 1024)
    (h0 : ∀ k, x0 (ix2 s k) = A (ix2 r k)) (h1 : ∀ k j, x1 (ix2 k j) = M (ix2 k j)) (h2 : ∀ j d, x2 (ix2 j d) = W (ix2 j d)) (d : Fin 512) :
    k1_pay6 (F := Ideal) x0 x1 x2 (ix2 s d)
      = ∑ j : Fin 256, ((∑ k : Fin 256, A (ix2 r k) * M (ix2 k j)) * Ideal.ofBits .f32 0x39000000#32) * W (ix2 j d) := by
  rw [pay6_apply]; simp only [h0, h1, h2]

/-- The product of tile `t`'s blocks, at row `s`, is `pre` at that row of the arrays. -/
theorem P_eq (c : Dev nD) (t : Fin cfg1.N) (s : Fin 1024) (d : Fin 512) :
    k1_pay6 (F := Ideal) (iblk1 V c 0 t) (iblk1 V c 1 t) (iblk1 V c 2 t) (ix2 s d) = preV V c (rowAt t s) d :=
  block_pre (iblk1 V c 0 t) (iblk1 V c 1 t) (iblk1 V c 2 t) (A0 V c) (A1 V c) (A2 V c) (rowAt t s) s
    (ib0_apply V c t s) (ib1_apply V c t) (ib2_apply V c t) d

/-! ## Output 4: the affine map `y W + b`, tile by tile -/

/-- What output 4's array ends holding: `pre` plus the bias row. -/
abbrev G4 (c : Dev nD) : S8192x512.Idx → EReal := fun i => preV V c (i 0) (i 1) + A3 V c (ix2 0 (i 1))

/-- What point `t` writes back of output 4 is tile `t` of `G4`. -/
theorem flushed4_eq (c : Dev nD) (t : Fin cfg1.N) :
    (dat1 (F := Ideal) V c).flushed 4 t = ((cfg1.win 4).blk t).view.read (Elt Ideal) (G4 V c) := by
  obtain ⟨-, -, -, -, -, -, -, -, e0, e1, -⟩ := idx_facts1 t
  show (cfg1.win 4).cut (grid1.coords t) ((dat1 (F := Ideal) V c).after 4 t) = _
  rw [after1_4, o4_eq]
  funext j
  obtain ⟨s, d, rfl⟩ : ∃ (s : Fin 1024) (d : Fin 512), j = ix2 s d := ⟨j 0, j 1, eq_ix2 j⟩
  show k1_pay7 (F := Ideal) (iblk1 V c 0 t) (iblk1 V c 1 t) (iblk1 V c 2 t) (iblk1 V c 3 t) (ix2 s d) = G4 V c (((cfg1.win 4).blk t).view.emb (ix2 s d))
  have hemb : ((cfg1.win 4).blk t).view.emb (ix2 s d) = ix2 (rowAt t s) d := by
    funext a; apply Fin.ext
    match a with
    | ⟨0, _⟩ => show win1_4.index t (0 : Fin 2) * 1024 + 1 * s.val = t.val * 1024 + s.val; rw [e0]; omega
    | ⟨1, _⟩ => show win1_4.index t (1 : Fin 2) * 512 + 1 * d.val = d.val; rw [e1]; omega
  rw [hemb]
  refine (pay7_apply (iblk1 V c 0 t) (iblk1 V c 1 t) (iblk1 V c 2 t) (iblk1 V c 3 t) s d).trans ?_
  show _ + _ = preV V c (rowAt t s) d + A3 V c (ix2 0 d)
  rw [P_eq V c t s d, ib3_apply V c t d]

/-- An index of output 4's array is in point `t`'s block iff each coordinate is in the block's range on its axis. -/
theorem mem_blk4 (t : Fin cfg1.N) (i : S8192x512.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v10_0).slice (win1_4.rect t)).set ↔ _
  rw [View.set_slice_whole, Rect.mem_set_unit]
  exact Iff.rfl

/-- Every row is in the tile `row / 1024`, written back at that point. -/
theorem cover4 (i : S8192x512.Idx) : ∃ t : Fin cfg1.N, (cfg1.win 4).flush t = true ∧ i ∈ ((cfg1.win 4).blk t).view.set := by
  have hi0 : (i 0).val < 8192 := (i 0).isLt
  have hi1 : (i 1).val < 512 := (i 1).isLt
  have hN : cfg1.N = 8 := N_1
  obtain ⟨t, ht⟩ : ∃ t : Fin cfg1.N, t.val = (i 0).val / 1024 := ⟨⟨(i 0).val / 1024, by omega⟩, rfl⟩
  obtain ⟨-, -, -, -, -, -, -, -, e0, e1, -⟩ := idx_facts1 t
  refine ⟨t, flush1_4 t, ?_⟩
  rw [mem_blk4]
  intro a
  match a with
  | ⟨0, _⟩ => show win1_4.index t (0 : Fin 2) * 1024 ≤ (i 0).val ∧ (i 0).val < win1_4.index t (0 : Fin 2) * 1024 + 1024; rw [e0]; omega
  | ⟨1, _⟩ => show win1_4.index t (1 : Fin 2) * 512 ≤ (i 1).val ∧ (i 1).val < win1_4.index t (1 : Fin 2) * 512 + 512; rw [e1]; omega

/-- OUTPUT 4 after the region: `y W + b`, index by index. -/
theorem arr1_4 (c : Dev nD) (r : Fin 8192) (d : Fin 512) :
    (dat1 (F := Ideal) V c).arrAt 4 cfg1.N (ix2 r d) = preV V c r d + A3 V c (ix2 0 d) :=
  congrFun ((dat1 (F := Ideal) V c).arrAt_eq_of_cover 4 (G4 V c) (fun t _ => flushed4_eq V c t) cover4) (ix2 r d)

/-! ## The two accumulators: column sums of `pre` and of its squares over the tiles of a half -/

/-- The first accumulator after point `n`, at column `d`. -/
def S0 (c : Dev nD) (n : ℕ) (hn : n < cfg1.N) (d : Fin 512) : EReal := (outsAt1 (F := Ideal) V c n hn).2.2.2.1 (ix2 0 d)
/-- The second accumulator after point `n`, at column `d`. -/
def S1 (c : Dev nD) (n : ℕ) (hn : n < cfg1.N) (d : Fin 512) : EReal := (outsAt1 (F := Ideal) V c n hn).2.2.2.2 (ix2 0 d)
/-- The column sum of `pre` over the rows of tile `n`. -/
def R0 (c : Dev nD) (n : ℕ) (hn : n < cfg1.N) (d : Fin 512) : EReal := ∑ s : Fin 1024, preV V c (rowAt ⟨n, hn⟩ s) d
/-- The column sum of `pre`'s squares over the rows of tile `n`. -/
def R1 (c : Dev nD) (n : ℕ) (hn : n < cfg1.N) (d : Fin 512) : EReal :=
  ∑ s : Fin 1024, preV V c (rowAt ⟨n, hn⟩ s) d * preV V c (rowAt ⟨n, hn⟩ s) d

/-- At the first tile of a half the first accumulator is that tile's column sum (it restarts from zero). -/
theorem S0_first (c : Dev nD) (n : ℕ) (hn : n < cfg1.N) (h0 : n % 4 = 0) (d : Fin 512) : S0 V c n hn d = R0 V c n hn d := by
  unfold S0 R0
  have e := s0_first (F := Ideal) V c ⟨n, hn⟩ h0
  dsimp only at e
  rw [e]
  refine (pay8_apply (iblk1 V c 0 ⟨n, hn⟩) (iblk1 V c 1 ⟨n, hn⟩) (iblk1 V c 2 ⟨n, hn⟩) (k1_pay4 (F := Ideal)) d).trans ?_
  rw [pay4_apply, zero_add]
  exact Finset.sum_congr rfl fun s _ => P_eq V c ⟨n, hn⟩ s d

/-- At a later tile it adds that tile's column sum to what the tile before left. -/
theorem S0_next (c : Dev nD) (n : ℕ) (hn : n + 1 < cfg1.N) (h0 : ¬(n + 1) % 4 = 0) (d : Fin 512) :
    S0 V c (n + 1) hn d = S0 V c n (Nat.lt_of_succ_lt hn) d + R0 V c (n + 1) hn d := by
  unfold S0 R0
  have e := s0_next (F := Ideal) V c ⟨n + 1, hn⟩ h0
  dsimp only at e
  rw [e]
  refine (pay8_apply (iblk1 V c 0 ⟨n + 1, hn⟩) (iblk1 V c 1 ⟨n + 1, hn⟩) (iblk1 V c 2 ⟨n + 1, hn⟩) _ d).trans ?_
  refine congrArg₂ (· + ·) rfl ?_
  exact Finset.sum_congr rfl fun s _ => P_eq V c ⟨n + 1, hn⟩ s d

theorem S1_first (c : Dev nD) (n : ℕ) (hn : n < cfg1.N) (h0 : n % 4 = 0) (d : Fin 512) : S1 V c n hn d = R1 V c n hn d := by
  unfold S1 R1
  have e := s1_first (F := Ideal) V c ⟨n, hn⟩ h0
  dsimp only at e
  rw [e, pay1_eq]
  refine (pay9_apply (iblk1 V c 0 ⟨n, hn⟩) (iblk1 V c 1 ⟨n, hn⟩) (iblk1 V c 2 ⟨n, hn⟩) (k1_pay5 (F := Ideal)) d).trans ?_
  rw [pay5_apply, zero_add]
  exact Finset.sum_congr rfl fun s _ => by rw [P_eq V c ⟨n, hn⟩ s d]

theorem S1_next (c : Dev nD) (n : ℕ) (hn : n + 1 < cfg1.N) (h0 : ¬(n + 1) % 4 = 0) (d : Fin 512) :
    S1 V c (n + 1) hn d = S1 V c n (Nat.lt_of_succ_lt hn) d + R1 V c (n + 1) hn d := by
  unfold S1 R1
  have e := s1_next (F := Ideal) V c ⟨n + 1, hn⟩ h0
  dsimp only at e
  rw [e, pay1_eq]
  refine (pay9_apply (iblk1 V c 0 ⟨n + 1, hn⟩) (iblk1 V c 1 ⟨n + 1, hn⟩) (iblk1 V c 2 ⟨n + 1, hn⟩) _ d).trans ?_
  refine congrArg₂ (· + ·) rfl ?_
  exact Finset.sum_congr rfl fun s _ => by rw [P_eq V c ⟨n + 1, hn⟩ s d]

/-- The half a point belongs to. -/
def halfOf (t : Fin cfg1.N) : Fin 2 := ⟨t.val / 4, by have := t.isLt; have hN : cfg1.N = 8 := N_1; omega⟩

/-- Tile `n`'s rows are the rows `Spec.row` gives for its half and its place in the half. -/
theorem rowAt_eq (n : ℕ) (hn : n < cfg1.N) (h : Fin 2) (ii : Fin 4) (e : n = h.val * 4 + ii.val) (s : Fin 1024) :
    rowAt ⟨n, hn⟩ s = Cert.Spec.row h ii s := by
  apply Fin.ext
  show n * 1024 + s.val = (h.val * 4 + ii.val) * 1024 + s.val
  rw [e]

/-- After the last tile of a half the first accumulator is the column sum of `pre` over the half's four tiles. -/
theorem S0_last (c : Dev nD) (t : Fin cfg1.N) (h3 : t.val % 4 = 3) (d : Fin 512) :
    (outsAt1 (F := Ideal) V c t.val t.isLt).2.2.2.1 (ix2 0 d) = ∑ ii : Fin 4, ∑ s : Fin 1024, preV V c (Cert.Spec.row (halfOf t) ii s) d := by
  have hN : cfg1.N = 8 := N_1
  obtain ⟨n, hn⟩ := t
  dsimp only at h3
  obtain ⟨m, rfl⟩ : ∃ m, n = m + 1 + 1 + 1 := ⟨n - 3, by omega⟩
  show S0 V c (m + 1 + 1 + 1) hn d = _
  rw [S0_next V c (m + 1 + 1) hn (by omega) d, S0_next V c (m + 1) _ (by omega) d, S0_next V c m _ (by omega) d,
    S0_first V c m _ (by omega) d, Fin.sum_univ_four]
  unfold R0
  have hh : (halfOf ⟨m + 1 + 1 + 1, hn⟩).val * 4 = m := by show (m + 1 + 1 + 1) / 4 * 4 = m; omega
  refine congrArg₂ (· + ·) (congrArg₂ (· + ·) (congrArg₂ (· + ·) ?_ ?_) ?_) ?_
  · exact Finset.sum_congr rfl fun s _ => by rw [rowAt_eq m _ (halfOf ⟨m + 1 + 1 + 1, hn⟩) 0 (by rw [hh]; rfl) s]
  · exact Finset.sum_congr rfl fun s _ => by rw [rowAt_eq (m + 1) _ (halfOf ⟨m + 1 + 1 + 1, hn⟩) 1 (by rw [hh]; rfl) s]
  · exact Finset.sum_congr rfl fun s _ => by rw [rowAt_eq (m + 1 + 1) _ (halfOf ⟨m + 1 + 1 + 1, hn⟩) 2 (by rw [hh]; rfl) s]
  · exact Finset.sum_congr rfl fun s _ => by rw [rowAt_eq (m + 1 + 1 + 1) _ (halfOf ⟨m + 1 + 1 + 1, hn⟩) 3 (by rw [hh]; rfl) s]

/-- After the last tile of a half the second accumulator is the column sum of `pre`'s squares over the half's four tiles. -/
theorem S1_last (c : Dev nD) (t : Fin cfg1.N) (h3 : t.val % 4 = 3) (d : Fin 512) :
    (outsAt1 (F := Ideal) V c t.val t.isLt).2.2.2.2 (ix2 0 d)
      = ∑ ii : Fin 4, ∑ s : Fin 1024, preV V c (Cert.Spec.row (halfOf t) ii s) d * preV V c (Cert.Spec.row (halfOf t) ii s) d := by
  have hN : cfg1.N = 8 := N_1
  obtain ⟨n, hn⟩ := t
  dsimp only at h3
  obtain ⟨m, rfl⟩ : ∃ m, n = m + 1 + 1 + 1 := ⟨n - 3, by omega⟩
  show S1 V c (m + 1 + 1 + 1) hn d = _
  rw [S1_next V c (m + 1 + 1) hn (by omega) d, S1_next V c (m + 1) _ (by omega) d, S1_next V c m _ (by omega) d,
    S1_first V c m _ (by omega) d, Fin.sum_univ_four]
  unfold R1
  have hh : (halfOf ⟨m + 1 + 1 + 1, hn⟩).val * 4 = m := by show (m + 1 + 1 + 1) / 4 * 4 = m; omega
  refine congrArg₂ (· + ·) (congrArg₂ (· + ·) (congrArg₂ (· + ·) ?_ ?_) ?_) ?_
  · exact Finset.sum_congr rfl fun s _ => by rw [rowAt_eq m _ (halfOf ⟨m + 1 + 1 + 1, hn⟩) 0 (by rw [hh]; rfl) s]
  · exact Finset.sum_congr rfl fun s _ => by rw [rowAt_eq (m + 1) _ (halfOf ⟨m + 1 + 1 + 1, hn⟩) 1 (by rw [hh]; rfl) s]
  · exact Finset.sum_congr rfl fun s _ => by rw [rowAt_eq (m + 1 + 1) _ (halfOf ⟨m + 1 + 1 + 1, hn⟩) 2 (by rw [hh]; rfl) s]
  · exact Finset.sum_congr rfl fun s _ => by rw [rowAt_eq (m + 1 + 1 + 1) _ (halfOf ⟨m + 1 + 1 + 1, hn⟩) 3 (by rw [hh]; rfl) s]

/-! ## Outputs 5 and 6: the accumulators, written back after the last tile of each half -/

/-- What output 5's array ends holding: for each half, the column sums of `pre` over the half's rows. -/
abbrev G5 (c : Dev nD) : S2x1x512.Idx → EReal := fun i => ∑ ii : Fin 4, ∑ s : Fin 1024, preV V c (Cert.Spec.row (i 0) ii s) (i 2)
/-- What output 6's array ends holding: for each half, the column sums of `pre`'s squares over the half's rows. -/
abbrev G6 (c : Dev nD) : S2x1x512.Idx → EReal :=
  fun i => ∑ ii : Fin 4, ∑ s : Fin 1024, preV V c (Cert.Spec.row (i 0) ii s) (i 2) * preV V c (Cert.Spec.row (i 0) ii s) (i 2)

/-- What a writing-back point (the last tile of a half) writes of output 5 is that half's row of `G5`. -/
theorem flushed5_eq (c : Dev nD) (t : Fin cfg1.N) (hf : (cfg1.win 5).flush t = true) :
    (dat1 (F := Ideal) V c).flushed 5 t = ((cfg1.win 5).blk t).view.read (Elt Ideal) (G5 V c) := by
  have h3 : t.val % 4 = 3 := (flush1_5 t).mp hf
  obtain ⟨-, -, -, -, -, -, -, -, -, -, e0, e1, e2, -⟩ := idx_facts1 t
  show (cfg1.win 5).cut (grid1.coords t) ((dat1 (F := Ideal) V c).after 5 t) = _
  rw [after1_5, o5_last V c t h3]
  funext j
  obtain ⟨u, v, d, rfl⟩ : ∃ (u : Fin 1) (v : Fin 1) (d : Fin 512), j = ix3 u v d := ⟨j 0, j 1, j 2, eq_ix3 j⟩
  obtain rfl : u = 0 := Subsingleton.elim _ _
  obtain rfl : v = 0 := Subsingleton.elim _ _
  show k1_pay2 (F := Ideal) (outsAt1 (F := Ideal) V c t.val t.isLt).2.2.2.1 (ix3 0 0 d) = G5 V c (((cfg1.win 5).blk t).view.emb (ix3 0 0 d))
  have hemb : ((cfg1.win 5).blk t).view.emb (ix3 (0 : Fin 1) (0 : Fin 1) d) = ix3 (halfOf t) (0 : Fin 1) d := by
    funext a; apply Fin.ext
    match a with
    | ⟨0, _⟩ => show win1_5.index t (0 : Fin 3) * 1 + 1 * 0 = t.val / 4; rw [e0]; omega
    | ⟨1, _⟩ => show win1_5.index t (1 : Fin 3) * 1 + 1 * 0 = 0; rw [e1]
    | ⟨2, _⟩ => show win1_5.index t (2 : Fin 3) * 512 + 1 * d.val = d.val; rw [e2]; omega
  rw [hemb]
  refine (pay2_apply _ d).trans ?_
  exact S0_last V c t h3 d

theorem flushed6_eq (c : Dev nD) (t : Fin cfg1.N) (hf : (cfg1.win 6).flush t = true) :
    (dat1 (F := Ideal) V c).flushed 6 t = ((cfg1.win 6).blk t).view.read (Elt Ideal) (G6 V c) := by
  have h3 : t.val % 4 = 3 := (flush1_6 t).mp hf
  obtain ⟨-, -, -, -, -, -, -, -, -, -, -, -, -, e0, e1, e2⟩ := idx_facts1 t
  show (cfg1.win 6).cut (grid1.coords t) ((dat1 (F := Ideal) V c).after 6 t) = _
  rw [after1_6, o6_last V c t h3]
  funext j
  obtain ⟨u, v, d, rfl⟩ : ∃ (u : Fin 1) (v : Fin 1) (d : Fin 512), j = ix3 u v d := ⟨j 0, j 1, j 2, eq_ix3 j⟩
  obtain rfl : u = 0 := Subsingleton.elim _ _
  obtain rfl : v = 0 := Subsingleton.elim _ _
  show k1_pay3 (F := Ideal) (outsAt1 (F := Ideal) V c t.val t.isLt).2.2.2.2 (ix3 0 0 d) = G6 V c (((cfg1.win 6).blk t).view.emb (ix3 0 0 d))
  have hemb : ((cfg1.win 6).blk t).view.emb (ix3 (0 : Fin 1) (0 : Fin 1) d) = ix3 (halfOf t) (0 : Fin 1) d := by
    funext a; apply Fin.ext
    match a with
    | ⟨0, _⟩ => show win1_6.index t (0 : Fin 3) * 1 + 1 * 0 = t.val / 4; rw [e0]; omega
    | ⟨1, _⟩ => show win1_6.index t (1 : Fin 3) * 1 + 1 * 0 = 0; rw [e1]
    | ⟨2, _⟩ => show win1_6.index t (2 : Fin 3) * 512 + 1 * d.val = d.val; rw [e2]; omega
  rw [hemb]
  refine (pay3_apply _ d).trans ?_
  exact S1_last V c t h3 d

theorem mem_blk5 (t : Fin cfg1.N) (i : S2x1x512.Idx) :
    i ∈ ((cfg1.win 5).blk t).view.set ↔ ∀ a : Fin 3, win1_5.index t a * S1x1x512.size a ≤ (i a).val ∧ (i a).val < win1_5.index t a * S1x1x512.size a + S1x1x512.size a := by
  show i ∈ ((View.whole main_v10_1).slice (win1_5.rect t)).set ↔ _
  rw [View.set_slice_whole, Rect.mem_set_unit]
  exact Iff.rfl

theorem mem_blk6 (t : Fin cfg1.N) (i : S2x1x512.Idx) :
    i ∈ ((cfg1.win 6).blk t).view.set ↔ ∀ a : Fin 3, win1_6.index t a * S1x1x512.size a ≤ (i a).val ∧ (i a).val < win1_6.index t a * S1x1x512.size a + S1x1x512.size a := by
  show i ∈ ((View.whole main_v10_2).slice (win1_6.rect t)).set ↔ _
  rw [View.set_slice_whole, Rect.mem_set_unit]
  exact Iff.rfl

/-- Half `h`'s row is in the block of the half's last tile, which writes it back. -/
theorem cover5 (i : S2x1x512.Idx) : ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 512 := (i 2).isLt
  have hN : cfg1.N = 8 := N_1
  obtain ⟨t, ht⟩ : ∃ t : Fin cfg1.N, t.val = (i 0).val * 4 + 3 := ⟨⟨(i 0).val * 4 + 3, by omega⟩, rfl⟩
  obtain ⟨-, -, -, -, -, -, -, -, -, -, e0, e1, e2, -⟩ := idx_facts1 t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; rw [e0]; omega
  | ⟨1, _⟩ => show win1_5.index t (1 : Fin 3) * 1 ≤ (i 1).val ∧ (i 1).val < win1_5.index t (1 : Fin 3) * 1 + 1; rw [e1]; omega
  | ⟨2, _⟩ => show win1_5.index t (2 : Fin 3) * 512 ≤ (i 2).val ∧ (i 2).val < win1_5.index t (2 : Fin 3) * 512 + 512; rw [e2]; omega

theorem cover6 (i : S2x1x512.Idx) : ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 512 := (i 2).isLt
  have hN : cfg1.N = 8 := N_1
  obtain ⟨t, ht⟩ : ∃ t : Fin cfg1.N, t.val = (i 0).val * 4 + 3 := ⟨⟨(i 0).val * 4 + 3, by omega⟩, rfl⟩
  obtain ⟨-, -, -, -, -, -, -, -, -, -, -, -, -, e0, e1, e2⟩ := idx_facts1 t
  refine ⟨t, (flush1_6 t).mpr (by omega), ?_⟩
  rw [mem_blk6]
  intro a
  match a with
  | ⟨0, _⟩ => show win1_6.index t (0 : Fin 3) * 1 ≤ (i 0).val ∧ (i 0).val < win1_6.index t (0 : Fin 3) * 1 + 1; rw [e0]; omega
  | ⟨1, _⟩ => show win1_6.index t (1 : Fin 3) * 1 ≤ (i 1).val ∧ (i 1).val < win1_6.index t (1 : Fin 3) * 1 + 1; rw [e1]; omega
  | ⟨2, _⟩ => show win1_6.index t (2 : Fin 3) * 512 ≤ (i 2).val ∧ (i 2).val < win1_6.index t (2 : Fin 3) * 512 + 512; rw [e2]; omega

/-- OUTPUT 5 after the region: for each half, the column sums of `pre` over its four tiles. -/
theorem arr1_5 (c : Dev nD) (h : Fin 2) (d : Fin 512) :
    (dat1 (F := Ideal) V c).arrAt 5 cfg1.N (ix3 h 0 d) = ∑ ii : Fin 4, ∑ s : Fin 1024, preV V c (Cert.Spec.row h ii s) d :=
  congrFun ((dat1 (F := Ideal) V c).arrAt_eq_of_cover 5 (G5 V c) (flushed5_eq V c) cover5) (ix3 h 0 d)

/-- OUTPUT 6 after the region: for each half, the column sums of `pre`'s squares over its four tiles. -/
theorem arr1_6 (c : Dev nD) (h : Fin 2) (d : Fin 512) :
    (dat1 (F := Ideal) V c).arrAt 6 cfg1.N (ix3 h 0 d)
      = ∑ ii : Fin 4, ∑ s : Fin 1024, preV V c (Cert.Spec.row h ii s) d * preV V c (Cert.Spec.row h ii s) d :=
  congrFun ((dat1 (F := Ideal) V c).arrAt_eq_of_cover 6 (G6 V c) (flushed6_eq V c) cover6) (ix3 h 0 d)

end Cert.KernelIdeal.K1Value

end
-- ==== Proof.KValue.lean ====
/-
  What the program leaves in its result, read through the run's boundaries: the host stretches reshape the arguments into
  rows, the first launch leaves θ and the two halves' partial products φᵀ g, their sum is M, the second launch leaves
  w = (θ M · 2⁻¹³) W + b and the halves' partial sums of the product before the bias and of its square, the host glue turns
  those into the mean and the inverse deviation, the third launch normalises, and the last reshape lays the rows back out.
-/
import proofs.«154593_j40999757807684_2_alg».proof.Proof.KHalves
import proofs.«154593_j40999757807684_2_alg».proof.Proof.K2Value
import proofs.«154593_j40999757807684_2_alg».proof.Proof.K1Value
import proofs.«154593_j40999757807684_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)
open Cert.Spec (In inOf theta phi gx mK yK preK wyK sumK sqK meanPreK varK meanK zK row rowOf bOf nOf)
open scoped BigOperators

variable (m : (ℓ : Loc nD τ sig) → Buf (Elt Ideal) ℓ) (ρ : Dev nD → PrngReg) (c : Dev nD)

/-- The twelve argument arrays as the specification's rows. -/
abbrev inM : In :=
  inOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-! ## Layout operations and sums at coordinates -/

section Layout
variable {α : Type}

theorem cast_rows {B N D M : ℕ} (x : (⟨3, ![B, N, D]⟩ : Shape).Idx → α)
    (h : (⟨3, ![B, N, D]⟩ : Shape).ShapeCasts ⟨2, ![M, D]⟩) (b : Fin B) (n : Fin N) (d : Fin D) (r : Fin M)
    (hr : r.val = b.val * N + n.val) :
    shapeCast ⟨2, ![M, D]⟩ x h (ix2 r d) = x (ix3 b n d) :=
  shapeCast_apply x h _ _ (by
    rw [Shape.rowMajor_val_three, Shape.rowMajor_val_two]
    show (b.val * N + n.val) * D + d.val = r.val * D + d.val
    rw [hr])

theorem cast_unrows {B N D M : ℕ} (x : (⟨2, ![M, D]⟩ : Shape).Idx → α)
    (h : (⟨2, ![M, D]⟩ : Shape).ShapeCasts ⟨3, ![B, N, D]⟩) (b : Fin B) (n : Fin N) (d : Fin D) (r : Fin M)
    (hr : r.val = b.val * N + n.val) :
    shapeCast ⟨3, ![B, N, D]⟩ x h (ix3 b n d) = x (ix2 r d) :=
  shapeCast_apply x h _ _ (by
    rw [Shape.rowMajor_val_three, Shape.rowMajor_val_two]
    show r.val * D + d.val = (b.val * N + n.val) * D + d.val
    rw [hr])

end Layout

/-- The host's sum of an `[h, a, b]` array over its leading axis, at the ideal values, read at `(i, j)`: the initial
    value plus the sum over the leading coordinate. -/
theorem reduce_lead_apply {h a b : ℕ} {u : Shape} {φ : FTy} (x : FVec Ideal ⟨3, ![h, a, b]⟩ φ) (init : u.Idx → Ideal φ)
    (hr : (⟨3, ![h, a, b]⟩ : Shape).ReducesTo [0] ⟨2, ![a, b]⟩) (hr' : (⟨3, ![h, a, b]⟩ : Shape).Reduces [0] ⟨2, ![a, b]⟩)
    (hu : 0 < u.numel) (i : Fin a) (j : Fin b) :
    Host.reduceAdd x init hr hu (ix2 i j) = init (Shape.Idx.first hu) + ∑ k : Fin h, x (ix3 k i j) := by
  rw [hostReduceAdd_apply, Ideal.hostReduceAdd_single hr hr']
  refine congrArg (_ + ·) (Finset.sum_congr rfl fun k _ => ?_)
  exact congrArg x (funext fun q => Fin.ext (by match q with | ⟨0, _⟩ => rfl | ⟨1, _⟩ => rfl | ⟨2, _⟩ => rfl))

theorem row_eq (r : Fin 8192) : r.val = (bOf r).val * 1024 + (nOf r).val := by
  show r.val = r.val / 1024 * 1024 + r.val % 1024
  omega

/-! ## The first host stretch: the arguments as rows -/

theorem w1_v0 (r : Fin 8192) (k : Fin 512) :
    rd (s := S8192x512) (W1 m ρ c (Proc.devRef .tc main_v0)) (ix2 r k) = (inM m c).xh r k := by
  have e : W1 m ρ c (Proc.devRef .tc main_v0) = shapeCast S8192x512 (m ((c : Thread nD τ).loc main_arg0)) shapeCasts_S8x1024x512_S8192x512 := by
    show StableHlo.after hostOps0 (W0 m ρ c) (Proc.devRef .tc main_v0) = _
    after_results; rfl
  rw [e]
  exact cast_rows _ _ (bOf r) (nOf r) k r (row_eq r)

theorem w1_v1 (r : Fin 8192) (k : Fin 256) :
    rd (s := S8192x256) (W1 m ρ c (Proc.devRef .tc main_v1)) (ix2 r k) = (inM m c).xl r k := by
  have e : W1 m ρ c (Proc.devRef .tc main_v1) = shapeCast S8192x256 (m ((c : Thread nD τ).loc main_arg1)) shapeCasts_S8x1024x256_S8192x256 := by
    show StableHlo.after hostOps0 (W0 m ρ c) (Proc.devRef .tc main_v1) = _
    after_results; rfl
  rw [e]
  exact cast_rows _ _ (bOf r) (nOf r) k r (row_eq r)

theorem w1_v2 (j : Fin 256) :
    rd (s := S1x256) (W1 m ρ c (Proc.devRef .tc main_v2)) (ix2 (0 : Fin 1) j) = (inM m c).gb j := by
  have e : W1 m ρ c (Proc.devRef .tc main_v2) = shapeCast S1x256 (m ((c : Thread nD τ).loc main_arg3)) shapeCasts_S256_S1x256 := by
    show StableHlo.after hostOps0 (W0 m ρ c) (Proc.devRef .tc main_v2) = _
    after_results; rfl
  rw [e]
  exact shapeCast_a_1a_apply _ _ 0 j

theorem w1_v3 (j : Fin 256) :
    rd (s := S1x256) (W1 m ρ c (Proc.devRef .tc main_v3)) (ix2 (0 : Fin 1) j) = (inM m c).thb j := by
  have e : W1 m ρ c (Proc.devRef .tc main_v3) = shapeCast S1x256 (m ((c : Thread nD τ).loc main_arg5)) shapeCasts_S256_S1x256 := by
    show StableHlo.after hostOps0 (W0 m ρ c) (Proc.devRef .tc main_v3) = _
    after_results; rfl
  rw [e]
  exact shapeCast_a_1a_apply _ _ 0 j

theorem w1_v4 (j : Fin 256) :
    rd (s := S1x256) (W1 m ρ c (Proc.devRef .tc main_v4)) (ix2 (0 : Fin 1) j) = (inM m c).phb j := by
  have e : W1 m ρ c (Proc.devRef .tc main_v4) = shapeCast S1x256 (m ((c : Thread nD τ).loc main_arg7)) shapeCasts_S256_S1x256 := by
    show StableHlo.after hostOps0 (W0 m ρ c) (Proc.devRef .tc main_v4) = _
    after_results; rfl
  rw [e]
  exact shapeCast_a_1a_apply _ _ 0 j

theorem w1_v5 (d : Fin 512) :
    rd (s := S1x512) (W1 m ρ c (Proc.devRef .tc main_v5)) (ix2 (0 : Fin 1) d) = (inM m c).wb d := by
  have e : W1 m ρ c (Proc.devRef .tc main_v5) = shapeCast S1x512 (m ((c : Thread nD τ).loc main_arg9)) shapeCasts_S512_S1x512 := by
    show StableHlo.after hostOps0 (W0 m ρ c) (Proc.devRef .tc main_v5) = _
    after_results; rfl
  rw [e]
  exact shapeCast_a_1a_apply _ _ 0 d

theorem w1_v6 (d : Fin 512) :
    rd (s := S1x512) (W1 m ρ c (Proc.devRef .tc main_v6)) (ix2 (0 : Fin 1) d) = (inM m c).gam d := by
  have e : W1 m ρ c (Proc.devRef .tc main_v6) = shapeCast S1x512 (m ((c : Thread nD τ).loc main_arg10)) shapeCasts_S512_S1x512 := by
    show StableHlo.after hostOps0 (W0 m ρ c) (Proc.devRef .tc main_v6) = _
    after_results; rfl
  rw [e]
  exact shapeCast_a_1a_apply _ _ 0 d

theorem w1_v7 (d : Fin 512) :
    rd (s := S1x512) (W1 m ρ c (Proc.devRef .tc main_v7)) (ix2 (0 : Fin 1) d) = (inM m c).bet d := by
  have e : W1 m ρ c (Proc.devRef .tc main_v7) = shapeCast S1x512 (m ((c : Thread nD τ).loc main_arg11)) shapeCasts_S512_S1x512 := by
    show StableHlo.after hostOps0 (W0 m ρ c) (Proc.devRef .tc main_v7) = _
    after_results; rfl
  rw [e]
  exact shapeCast_a_1a_apply _ _ 0 d

theorem w1_arg2 (k j : Fin 256) :
    rd (s := S256x256) (W1 m ρ c (Proc.devRef .tc main_arg2)) (ix2 k j) = (inM m c).gw k j :=
  congrFun ((W1_of m ρ c main_arg2 (by decide)).trans rfl) (ix2 k j)
theorem w1_arg4 (k : Fin 512) (j : Fin 256) :
    rd (s := S512x256) (W1 m ρ c (Proc.devRef .tc main_arg4)) (ix2 k j) = (inM m c).thw k j :=
  congrFun ((W1_of m ρ c main_arg4 (by decide)).trans rfl) (ix2 k j)
theorem w1_arg6 (k j : Fin 256) :
    rd (s := S256x256) (W1 m ρ c (Proc.devRef .tc main_arg6)) (ix2 k j) = (inM m c).phw k j :=
  congrFun ((W1_of m ρ c main_arg6 (by decide)).trans rfl) (ix2 k j)
theorem w1_arg8 (k : Fin 256) (d : Fin 512) :
    rd (s := S256x512) (W1 m ρ c (Proc.devRef .tc main_arg8)) (ix2 k d) = (inM m c).ww k d :=
  congrFun ((W1_of m ρ c main_arg8 (by decide)).trans rfl) (ix2 k d)

/-! ## The first launch: θ, and the halves' partial products φᵀ g -/

section Regions

-- what the first launch leaves in its two result arrays, read at an index, from any entry contents
variable
  (arr0_8 : ∀ (V : (c : Dev nD) → (b : Ref sig .tc) → Buf (Elt Ideal) ((c : Thread nD τ).loc b)) (c : Dev nD) (r : Fin 8192) (j : Fin 256),
    ((dat0 (F := Ideal) V c).arrAt 8 cfg0.N : S8192x256.Idx → EReal) (ix2 r j)
      = (∑ k : Fin 512, rd (s := S8192x512) (V c main_v0) (ix2 r k) * rd (s := S512x256) (V c main_arg4) (ix2 k j))
          + rd (s := S1x256) (V c main_v3) (ix2 (0 : Fin 1) j))
  (arr0_9 : ∀ (V : (c : Dev nD) → (b : Ref sig .tc) → Buf (Elt Ideal) ((c : Thread nD τ).loc b)) (c : Dev nD) (h : Fin 2) (k j : Fin 256),
    ((dat0 (F := Ideal) V c).arrAt 9 cfg0.N : S2x256x256.Idx → EReal) (ix3 h k j)
      = ∑ i : Fin 4, ∑ s : Fin 1024,
          ((∑ k' : Fin 256, rd (s := S8192x256) (V c main_v1) (ix2 (row h i s) k') * rd (s := S256x256) (V c main_arg6) (ix2 k' k))
              + rd (s := S1x256) (V c main_v4) (ix2 (0 : Fin 1) k))
          * ((∑ k' : Fin 256, rd (s := S8192x256) (V c main_v1) (ix2 (row h i s) k') * rd (s := S256x256) (V c main_arg2) (ix2 k' j))
              + rd (s := S1x256) (V c main_v2) (ix2 (0 : Fin 1) j)))

include arr0_8 in
theorem w2_v8_0 (r : Fin 8192) (j : Fin 256) :
    rd (s := S8192x256) (W2 (F := Ideal) half0 m ρ c (Proc.devRef .tc main_v8_0)) (ix2 r j) = theta (inM m c) r j := by
  have e : W2 (F := Ideal) half0 m ρ c (Proc.devRef .tc main_v8_0) = (dat0 (F := Ideal) (VB1 m ρ) c).arrAt 8 cfg0.N :=
    W2_arr half0 m ρ c 8
  rw [e]
  refine @Eq.trans EReal _ _ _ (arr0_8 (VB1 m ρ) c r j) ?_
  exact congrArg₂ (· + ·) (Finset.sum_congr rfl fun k _ => congrArg₂ (· * ·) (w1_v0 m ρ c r k) (w1_arg4 m ρ c k j)) (w1_v3 m ρ c j)

include arr0_9 in
theorem w2_v8_1 (h : Fin 2) (k j : Fin 256) :
    rd (s := S2x256x256) (W2 (F := Ideal) half0 m ρ c (Proc.devRef .tc main_v8_1)) (ix3 h k j)
      = ∑ i : Fin 4, ∑ s : Fin 1024, phi (inM m c) (row h i s) k * gx (inM m c) (row h i s) j := by
  have e : W2 (F := Ideal) half0 m ρ c (Proc.devRef .tc main_v8_1) = (dat0 (F := Ideal) (VB1 m ρ) c).arrAt 9 cfg0.N :=
    W2_arr half0 m ρ c 9
  rw [e]
  refine @Eq.trans EReal _ _ _ (arr0_9 (VB1 m ρ) c h k j) ?_
  refine Finset.sum_congr rfl fun i _ => Finset.sum_congr rfl fun s _ => ?_
  exact congrArg₂ (· * ·)
    (congrArg₂ (· + ·) (Finset.sum_congr rfl fun k' _ => congrArg₂ (· * ·) (w1_v1 m ρ c (row h i s) k') (w1_arg6 m ρ c k' k)) (w1_v4 m ρ c k))
    (congrArg₂ (· + ·) (Finset.sum_congr rfl fun k' _ => congrArg₂ (· * ·) (w1_v1 m ρ c (row h i s) k') (w1_arg2 m ρ c k' j)) (w1_v2 m ρ c j))

/-! ## The second host stretch: M, the sum of the two halves -/

include arr0_9 in
theorem w3_v9 (k j : Fin 256) :
    rd (s := S256x256) (W3 (F := Ideal) half0 m ρ c (Proc.devRef .tc main_v9)) (ix2 k j) = mK (inM m c) k j := by
  have e : W3 (F := Ideal) half0 m ρ c (Proc.devRef .tc main_v9)
      = Host.reduceAdd (F := Ideal) (φ := .f32) (rd (s := S2x256x256) (W2 (F := Ideal) half0 m ρ c (Proc.devRef .tc main_v8_1)))
          (constant (F := Ideal) S_ .f32 0x00000000#32) reducesTo_S2x256x256_S256x256_d0 h_S_ := by
    show StableHlo.after hostOps1 (W2 half0 m ρ c) (Proc.devRef .tc main_v9) = _
    after_results <;> rfl
  rw [e]
  refine @Eq.trans EReal _ _ _ (reduce_lead_apply (rd (s := S2x256x256) (W2 (F := Ideal) half0 m ρ c (Proc.devRef .tc main_v8_1))) _ _ (by decide) h_S_ k j) ?_
  rw [constant_apply, Ideal.ofBits_zero_f32, zero_add]
  unfold mK
  exact Finset.sum_congr rfl fun h _ => w2_v8_1 m ρ c arr0_9 h k j

include arr0_8 in
theorem w3_v8_0 (r : Fin 8192) (j : Fin 256) :
    rd (s := S8192x256) (W3 (F := Ideal) half0 m ρ c (Proc.devRef .tc main_v8_0)) (ix2 r j) = theta (inM m c) r j := by
  rw [W3_of half0 m ρ c main_v8_0 (by decide)]
  exact w2_v8_0 m ρ c arr0_8 r j

theorem w3_arg8 (k : Fin 256) (d : Fin 512) :
    rd (s := S256x512) (W3 (F := Ideal) half0 m ρ c (Proc.devRef .tc main_arg8)) (ix2 k d) = (inM m c).ww k d := by
  rw [W3_of half0 m ρ c main_arg8 (by decide), W2_of_ne half0 m ρ c main_arg8 (by decide)]
  exact w1_arg8 m ρ c k d

theorem w3_v5 (d : Fin 512) :
    rd (s := S1x512) (W3 (F := Ideal) half0 m ρ c (Proc.devRef .tc main_v5)) (ix2 (0 : Fin 1) d) = (inM m c).wb d := by
  rw [W3_of half0 m ρ c main_v5 (by decide), W2_of_ne half0 m ρ c main_v5 (by decide)]
  exact w1_v5 m ρ c d

/-! ## The second launch: w = (θ M · 2⁻¹³) W + b, and the halves' partial sums of the product and of its square -/

include arr0_8 arr0_9 in
theorem yV3 (r : Fin 8192) (j : Fin 256) :
    K1Value.yV (VB3 (F := Ideal) half0 m ρ) c r j = yK (inM m c) r j := by
  unfold yK
  rw [← Cert.Spec.ofBits_inv8192]
  refine congrArg (· * Ideal.ofBits .f32 0x39000000#32) (Finset.sum_congr rfl fun k _ => ?_)
  exact congrArg₂ (· * ·) (w3_v8_0 m ρ c arr0_8 r k) (w3_v9 m ρ c arr0_9 k j)

include arr0_8 arr0_9 in
theorem preV3 (r : Fin 8192) (d : Fin 512) :
    K1Value.preV (VB3 (F := Ideal) half0 m ρ) c r d = preK (inM m c) r d := by
  unfold preK
  exact Finset.sum_congr rfl fun j _ => congrArg₂ (· * ·) (yV3 m ρ c arr0_8 arr0_9 r j) (w3_arg8 m ρ c j d)

include arr0_8 arr0_9 in
theorem w4_v10_0 (r : Fin 8192) (d : Fin 512) :
    rd (s := S8192x512) (W4 (F := Ideal) half0 half1 m ρ c (Proc.devRef .tc main_v10_0)) (ix2 r d) = wyK (inM m c) r d := by
  have e : W4 (F := Ideal) half0 half1 m ρ c (Proc.devRef .tc main_v10_0) = (dat1 (F := Ideal) (VB3 half0 m ρ) c).arrAt 4 cfg1.N :=
    W4_arr half0 half1 m ρ c 4
  rw [e]
  refine @Eq.trans EReal _ _ _ (K1Value.arr1_4 (VB3 half0 m ρ) c r d) ?_
  unfold wyK
  exact congrArg₂ (· + ·) (preV3 m ρ c arr0_8 arr0_9 r d) (w3_v5 m ρ c d)

include arr0_8 arr0_9 in
theorem w4_v10_1 (h : Fin 2) (d : Fin 512) :
    rd (s := S2x1x512) (W4 (F := Ideal) half0 half1 m ρ c (Proc.devRef .tc main_v10_1)) (ix3 h (0 : Fin 1) d)
      = ∑ i : Fin 4, ∑ s : Fin 1024, preK (inM m c) (row h i s) d := by
  have e : W4 (F := Ideal) half0 half1 m ρ c (Proc.devRef .tc main_v10_1) = (dat1 (F := Ideal) (VB3 half0 m ρ) c).arrAt 5 cfg1.N :=
    W4_arr half0 half1 m ρ c 5
  rw [e]
  refine @Eq.trans EReal _ _ _ (K1Value.arr1_5 (VB3 half0 m ρ) c h d) ?_
  exact Finset.sum_congr rfl fun i _ => Finset.sum_congr rfl fun s _ => preV3 m ρ c arr0_8 arr0_9 (row h i s) d

include arr0_8 arr0_9 in
theorem w4_v10_2 (h : Fin 2) (d : Fin 512) :
    rd (s := S2x1x512) (W4 (F := Ideal) half0 half1 m ρ c (Proc.devRef .tc main_v10_2)) (ix3 h (0 : Fin 1) d)
      = ∑ i : Fin 4, ∑ s : Fin 1024, preK (inM m c) (row h i s) d * preK (inM m c) (row h i s) d := by
  have e : W4 (F := Ideal) half0 half1 m ρ c (Proc.devRef .tc main_v10_2) = (dat1 (F := Ideal) (VB3 half0 m ρ) c).arrAt 6 cfg1.N :=
    W4_arr half0 half1 m ρ c 6
  rw [e]
  refine @Eq.trans EReal _ _ _ (K1Value.arr1_6 (VB3 half0 m ρ) c h d) ?_
  exact Finset.sum_congr rfl fun i _ => Finset.sum_congr rfl fun s _ =>
    congrArg₂ (· * ·) (preV3 m ρ c arr0_8 arr0_9 (row h i s) d) (preV3 m ρ c arr0_8 arr0_9 (row h i s) d)

theorem w4_v5 (d : Fin 512) :
    rd (s := S1x512) (W4 (F := Ideal) half0 half1 m ρ c (Proc.devRef .tc main_v5)) (ix2 (0 : Fin 1) d) = (inM m c).wb d := by
  rw [W4_in half0 half1 m ρ c 3 rfl]
  exact w3_v5 m ρ c d

/-! ## The third host stretch: the mean and the inverse deviation -/

/-- The two halves' partial sums added. -/
abbrev T11 : S1x512.Idx → EReal :=
  Host.reduceAdd (F := Ideal) (φ := .f32) (rd (s := S2x1x512) (W4 (F := Ideal) half0 half1 m ρ c (Proc.devRef .tc main_v10_1)))
    (constant (F := Ideal) S_ .f32 0x00000000#32) reducesTo_S2x1x512_S1x512_d0 h_S_
abbrev T12 : S1x512.Idx → EReal :=
  Host.reduceAdd (F := Ideal) (φ := .f32) (rd (s := S2x1x512) (W4 (F := Ideal) half0 half1 m ρ c (Proc.devRef .tc main_v10_2)))
    (constant (F := Ideal) S_ .f32 0x00000000#32) reducesTo_S2x1x512_S1x512_d0 h_S_
/-- The word for 2⁻¹³ in every column. -/
abbrev Cinv : S1x512.Idx → EReal := broadcastInDim S1x512 ![] bcast_S_S1x512 (constant (F := Ideal) S_ .f32 0x39000000#32)
abbrev Ceps : S1x512.Idx → EReal := broadcastInDim S1x512 ![] bcast_S_S1x512 (constant (F := Ideal) S_ .f32 0x3727C5AC#32)
abbrev T14 : S1x512.Idx → EReal := mulf (F := Ideal) (φ := .f32) (T11 m ρ c) Cinv

theorem w5_v19_eq : W5 (F := Ideal) half0 half1 m ρ c (Proc.devRef .tc main_v19)
    = addf (F := Ideal) (φ := .f32) (T14 m ρ c) (rd (s := S1x512) (W4 (F := Ideal) half0 half1 m ρ c (Proc.devRef .tc main_v5))) := by
  show StableHlo.after hostOps2 (W4 half0 half1 m ρ c) (Proc.devRef .tc main_v19) = _
  after_results <;> rfl

theorem w5_v22_eq : W5 (F := Ideal) half0 half1 m ρ c (Proc.devRef .tc main_v22)
    = Host.rsqrt (F := Ideal) (φ := .f32)
        (addf (F := Ideal) (φ := .f32)
          (subf (F := Ideal) (φ := .f32) (mulf (F := Ideal) (φ := .f32) (T12 m ρ c) Cinv)
            (mulf (F := Ideal) (φ := .f32) (T14 m ρ c) (T14 m ρ c)))
          Ceps) := by
  show StableHlo.after hostOps2 (W4 half0 half1 m ρ c) (Proc.devRef .tc main_v22) = _
  after_results <;> rfl

include arr0_8 arr0_9 in
theorem t11_apply (d : Fin 512) : T11 m ρ c (ix2 (0 : Fin 1) d) = sumK (inM m c) d := by
  refine @Eq.trans EReal _ _ _ (reduce_lead_apply (rd (s := S2x1x512) (W4 (F := Ideal) half0 half1 m ρ c (Proc.devRef .tc main_v10_1))) _ _ (by decide) h_S_ 0 d) ?_
  rw [constant_apply, Ideal.ofBits_zero_f32, zero_add]
  unfold sumK
  exact Finset.sum_congr rfl fun h _ => w4_v10_1 m ρ c arr0_8 arr0_9 h d

include arr0_8 arr0_9 in
theorem t12_apply (d : Fin 512) : T12 m ρ c (ix2 (0 : Fin 1) d) = sqK (inM m c) d := by
  refine @Eq.trans EReal _ _ _ (reduce_lead_apply (rd (s := S2x1x512) (W4 (F := Ideal) half0 half1 m ρ c (Proc.devRef .tc main_v10_2))) _ _ (by decide) h_S_ 0 d) ?_
  rw [constant_apply, Ideal.ofBits_zero_f32, zero_add]
  unfold sqK
  exact Finset.sum_congr rfl fun h _ => w4_v10_2 m ρ c arr0_8 arr0_9 h d

theorem cinv_apply (i : S1x512.Idx) : Cinv i = ((1 / 8192 : ℝ) : EReal) := by
  unfold Cinv
  rw [broadcastInDim_scalar_apply, constant_apply, Cert.Spec.ofBits_inv8192]

theorem ceps_apply (i : S1x512.Idx) : Ceps i = Ideal.ofBits .f32 0x3727C5AC#32 := by
  unfold Ceps
  rw [broadcastInDim_scalar_apply, constant_apply]

include arr0_8 arr0_9 in
theorem t14_apply (d : Fin 512) : T14 m ρ c (ix2 (0 : Fin 1) d) = meanPreK (inM m c) d := by
  unfold T14
  rw [mulf_apply, t11_apply m ρ c arr0_8 arr0_9, cinv_apply]
  rfl

include arr0_8 arr0_9 in
theorem w5_v19 (d : Fin 512) :
    rd (s := S1x512) (W5 (F := Ideal) half0 half1 m ρ c (Proc.devRef .tc main_v19)) (ix2 (0 : Fin 1) d) = meanK (inM m c) d := by
  rw [w5_v19_eq]
  show addf (F := Ideal) (φ := .f32) (T14 m ρ c) _ (ix2 (0 : Fin 1) d) = _
  rw [addf_apply, t14_apply m ρ c arr0_8 arr0_9, w4_v5]
  rfl

include arr0_8 arr0_9 in
theorem w5_v22 (d : Fin 512) :
    rd (s := S1x512) (W5 (F := Ideal) half0 half1 m ρ c (Proc.devRef .tc main_v22)) (ix2 (0 : Fin 1) d)
      = Ideal.rsqrt (varK (inM m c) d + Ideal.ofBits .f32 0x3727C5AC#32) := by
  rw [w5_v22_eq]
  show Ideal.rsqrt (addf (F := Ideal) (φ := .f32) _ Ceps (ix2 (0 : Fin 1) d)) = _
  rw [addf_apply, subf_apply, mulf_apply, mulf_apply, t12_apply m ρ c arr0_8 arr0_9, t14_apply m ρ c arr0_8 arr0_9, cinv_apply, ceps_apply]
  rfl

/-! ## What the third launch is entered at -/

include arr0_8 arr0_9 in
theorem w5_v10_0 (r : Fin 8192) (d : Fin 512) :
    rd (s := S8192x512) (W5 (F := Ideal) half0 half1 m ρ c (Proc.devRef .tc main_v10_0)) (ix2 r d) = wyK (inM m c) r d := by
  rw [W5_of half0 half1 m ρ c main_v10_0 (by decide)]
  exact w4_v10_0 m ρ c arr0_8 arr0_9 r d

theorem w5_v0 (r : Fin 8192) (d : Fin 512) :
    rd (s := S8192x512) (W5 (F := Ideal) half0 half1 m ρ c (Proc.devRef .tc main_v0)) (ix2 r d) = (inM m c).xh r d := by
  rw [W5_of half0 half1 m ρ c main_v0 (by decide), W4_of_ne half0 half1 m ρ c main_v0 (by decide),
    W3_of half0 m ρ c main_v0 (by decide), W2_in half0 m ρ c 0 rfl]
  exact w1_v0 m ρ c r d

theorem w5_v6 (d : Fin 512) :
    rd (s := S1x512) (W5 (F := Ideal) half0 half1 m ρ c (Proc.devRef .tc main_v6)) (ix2 (0 : Fin 1) d) = (inM m c).gam d := by
  rw [W5_of half0 half1 m ρ c main_v6 (by decide), W4_of_ne half0 half1 m ρ c main_v6 (by decide),
    W3_of half0 m ρ c main_v6 (by decide), W2_of_ne half0 m ρ c main_v6 (by decide)]
  exact w1_v6 m ρ c d

theorem w5_v7 (d : Fin 512) :
    rd (s := S1x512) (W5 (F := Ideal) half0 half1 m ρ c (Proc.devRef .tc main_v7)) (ix2 (0 : Fin 1) d) = (inM m c).bet d := by
  rw [W5_of half0 half1 m ρ c main_v7 (by decide), W4_of_ne half0 half1 m ρ c main_v7 (by decide),
    W3_of half0 m ρ c main_v7 (by decide), W2_of_ne half0 m ρ c main_v7 (by decide)]
  exact w1_v7 m ρ c d

/-! ## The third launch and the last reshape -/

include arr0_8 arr0_9 in
theorem z2_eq (r : Fin 8192) (d : Fin 512) :
    z2 (VB5 (F := Ideal) half0 half1 m ρ) c r d = zK (inM m c) (Ideal.ofBits .f32 0x3727C5AC#32) r d := by
  unfold z2 zK
  exact congrArg₂ (· + ·)
    (congrArg₂ (· + ·)
      (congrArg₂ (· * ·)
        (congrArg₂ (· * ·)
          (congrArg₂ (· - ·) (w5_v10_0 m ρ c arr0_8 arr0_9 r d) (w5_v19 m ρ c arr0_8 arr0_9 d))
          (w5_v22 m ρ c arr0_8 arr0_9 d))
        (w5_v6 m ρ c d))
      (w5_v7 m ρ c d))
    (w5_v0 m ρ c r d)

include arr0_8 arr0_9 in
theorem w6_v23 (r : Fin 8192) (d : Fin 512) :
    rd (s := S8192x512) (W6 (F := Ideal) half0 half1 half2 m ρ c (Proc.devRef .tc main_v23)) (ix2 r d)
      = zK (inM m c) (Ideal.ofBits .f32 0x3727C5AC#32) r d := by
  have e : W6 (F := Ideal) half0 half1 half2 m ρ c (Proc.devRef .tc main_v23) = (dat2 (F := Ideal) (VB5 half0 half1 m ρ) c).arrAt 6 cfg2.N :=
    W6_arr half0 half1 half2 m ρ c 6
  rw [e, final2_6]
  exact z2_eq m ρ c arr0_8 arr0_9 r d

include arr0_8 arr0_9 in
/-- THE KERNEL PROGRAM'S RESULT at `(b, n, d)`: the specification's closed formula of the side that forms the
    256 × 256 matrix first, at row `b · 1024 + n`. -/
theorem kernel_value' (b : Fin 8) (n : Fin 1024) (d : Fin 512) :
    rd (s := S8x1024x512) (W7 (F := Ideal) half0 half1 half2 m ρ c (Proc.devRef .tc main_v24)) (ix3 b n d)
      = zK (inM m c) (Ideal.ofBits .f32 0x3727C5AC#32) (rowOf b n) d := by
  have e : W7 (F := Ideal) half0 half1 half2 m ρ c (Proc.devRef .tc main_v24)
      = shapeCast S8x1024x512 (rd (s := S8192x512) (W6 (F := Ideal) half0 half1 half2 m ρ c (Proc.devRef .tc main_v23))) shapeCasts_S8192x512_S8x1024x512 := by
    show StableHlo.after hostOps3 (W6 half0 half1 half2 m ρ c) (Proc.devRef .tc main_v24) = _
    after_results <;> rfl
  rw [e]
  exact (cast_unrows _ _ b n d (rowOf b n) rfl).trans (w6_v23 m ρ c arr0_8 arr0_9 (rowOf b n) d)

end Regions

end Cert.KernelIdeal.Gen

end
-- ==== Proof.K0Pieces.lean ====
import proofs.«154593_j40999757807684_2_alg».proof.Proof.K0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the runs found, read back: each case's pieces as the body's arithmetic of the blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves in output 8 the projection of the blocks of windows 0, 4, 5: its one covering store's payload. -/
theorem out8_A (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay5 x0 x4 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  try sl_unfold_words
  rw [View.canon_unit_zero hz2]
  simp only [View.readAt_eq_ld, harg2.read_unread, harg6.read_unread, harg7.read_unread, View.ld_unit_zero (S := S1024x512) hz2, View.ld_unit_zero (S := S512x256) hz2, View.ld_unit_zero (S := S1x256) hz2]

/-- Case B leaves in output 8 the projection of the blocks of windows 0, 4, 5: its one covering store's payload. -/
theorem out8_B (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay5 x0 x4 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  try sl_unfold_words
  rw [View.canon_unit_zero hz2]
  simp only [View.readAt_eq_ld, harg2.read_unread, harg6.read_unread, harg7.read_unread, View.ld_unit_zero (S := S1024x512) hz2, View.ld_unit_zero (S := S512x256) hz2, View.ld_unit_zero (S := S1x256) hz2]

/-- Case C leaves in output 8 the projection of the blocks of windows 0, 4, 5: its one covering store's payload. -/
theorem out8_C (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay5 x0 x4 x5 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  try sl_unfold_words
  rw [View.canon_unit_zero hz2]
  simp only [View.readAt_eq_ld, harg2.read_unread, harg6.read_unread, harg7.read_unread, View.ld_unit_zero (S := S1024x512) hz2, View.ld_unit_zero (S := S512x256) hz2, View.ld_unit_zero (S := S1x256) hz2]

/-- Case A leaves in the scratch one accumulation step over the zero block it has just stored there. -/
theorem sout_A (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) : sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay1 (k0_pay6 x1 x6 x7) (k0_pay7 x1 x2 x3) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S256x256) hz2, View.readCov_unit_zero (S := S256x256) _ hz2]
  simp only [View.readAt_eq_ld, harg3.read_unread, harg4.read_unread, harg5.read_unread, harg8.read_unread, harg9.read_unread, View.ld_unit_zero (S := S1024x256) hz2, View.ld_unit_zero (S := S256x256) hz2, View.ld_unit_zero (S := S1x256) hz2]

/-- Case B leaves in the scratch one accumulation step over what the point before left there. -/
theorem sout_B (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : ¬cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay1 (k0_pay6 x1 x6 x7) (k0_pay7 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero hz2]
  simp only [View.readAt_eq_ld, harg3.read_unread, harg4.read_unread, harg5.read_unread, harg8.read_unread, harg9.read_unread, harg12.read_unread, View.ld_unit_zero (S := S1024x256) hz2, View.ld_unit_zero (S := S256x256) hz2, View.ld_unit_zero (S := S1x256) hz2]

/-- Case C leaves in the scratch one accumulation step over what the point before left there. -/
theorem sout_C (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay1 (k0_pay6 x1 x6 x7) (k0_pay7 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz2]
  simp only [View.readAt_eq_ld, harg3.read_unread, harg4.read_unread, harg5.read_unread, harg8.read_unread, harg9.read_unread, harg12.read_unread, View.ld_unit_zero (S := S1024x256) hz2, View.ld_unit_zero (S := S256x256) hz2, View.ld_unit_zero (S := S1x256) hz2]

/-- Case C copies the scratch it has just updated to output 9, under a leading unit axis. -/
theorem out9_C (c : Dev nD) (i : grid0.Coords) (arg2 : Memref sig .tc .vmem S1024x512 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1x256x256 .f32) (harg11 : arg11.IsWhole) (arg12 : Memref sig .tc .vmem S256x256 .f32) (harg12 : arg12.IsWhole) (hc0 : ¬cond0_0 i) (hc1 : cond0_1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs0 : Vec F S256x256 .f32) : out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay2 (k0_pay1 (k0_pay6 x1 x6 x7) (k0_pay7 x1 x2 x3) xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz3, View.readCov_unit_zero (S := S256x256) _ hz2]
  simp only [View.readAt_eq_ld, harg3.read_unread, harg4.read_unread, harg5.read_unread, harg8.read_unread, harg9.read_unread, harg12.read_unread, View.ld_unit_zero (S := S1024x256) hz2, View.ld_unit_zero (S := S256x256) hz2, View.ld_unit_zero (S := S1x256) hz2]

end Cert.KernelIdeal.Gen

end
-- ==== Proof.K0Pay.lean ====
import proofs.«154593_j40999757807684_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.K0V

open Cert.KernelIdeal Cert.KernelIdeal.Gen Idealize.ShloMosaic Idealize.ShloMosaic.TcCoe Idealize.SL.Sem
open Idealize.ShloMosaic.ValueIdx
open Idealize.ShloMosaic.Pipeline (Dat)

/-! # The body's arithmetic read at an index, over the extended reals

Each contraction of the body is a sum over its one contracted axis; a change of float format is the identity; a row
broadcast reads the row. -/

/-! ## Contraction A: [S1024x512] against [S512x256] over 512 terms -/

theorem lhsA_0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhsA_1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem rhsA_0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem rhsA_1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
/-- The contraction into a zero accumulator, read at an output index: the sum over the contracted axis. -/
theorem mmA {φ₁ φ₂ : FTy} (l : FVec Ideal S1024x512 φ₁) (r : FVec Ideal S512x256 φ₂) (p : Fin 1024) (q : Fin 256) :
    matmul dot_S1024x512_S512x256_S1024x256_1_0_0_1_n_n none l r (constant (F := Ideal) S1024x256 .f32 0x00000000#32) (ix2 p q) = ∑ k : Fin 512, l (ix2 p k) * r (ix2 k q) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
    match a with
    | ⟨0, _⟩ => exact lhsA_0 _ _
    | ⟨1, _⟩ => exact (lhsA_1 _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
    match a with
    | ⟨0, _⟩ => exact (rhsA_0 _ _).trans hk
    | ⟨1, _⟩ => exact rhsA_1 _ _)
  rw [el, er]

/-! ## Contraction B: [S1024x256] against [S256x256] over 256 terms -/

theorem lhsB_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsB_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhsB_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhsB_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- The contraction into a zero accumulator, read at an output index: the sum over the contracted axis. -/
theorem mmB {φ₁ φ₂ : FTy} (l : FVec Ideal S1024x256 φ₁) (r : FVec Ideal S256x256 φ₂) (p : Fin 1024) (q : Fin 256) :
    matmul dot_S1024x256_S256x256_S1024x256_1_0_0_1_n_n none l r (constant (F := Ideal) S1024x256 .f32 0x00000000#32) (ix2 p q) = ∑ k : Fin 256, l (ix2 p k) * r (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## Contraction C: [S1024x256] against [S1024x256] over 1024 terms -/

theorem lhsC_0 (i : S256x256.Idx) (q : dot_S1024x256_S1024x256_S256x256_0_0_1_1_n_n.contr.Idx) : (dot_S1024x256_S1024x256_S256x256_0_0_1_1_n_n.lhsIdx i q 0).val = (q ⟨0, by decide⟩).val :=
  dot_S1024x256_S1024x256_S256x256_0_0_1_1_n_n.lhsIdx_val_of_single rfl i q
theorem lhsC_1 (i : S256x256.Idx) (q : dot_S1024x256_S1024x256_S256x256_0_0_1_1_n_n.contr.Idx) : (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
theorem rhsC_0 (i : S256x256.Idx) (q : dot_S1024x256_S1024x256_S256x256_0_0_1_1_n_n.contr.Idx) : (dot_S1024x256_S1024x256_S256x256_0_0_1_1_n_n.rhsIdx i q 0).val = (q ⟨0, by decide⟩).val :=
  dot_S1024x256_S1024x256_S256x256_0_0_1_1_n_n.rhsIdx_val_of_single rfl i q
theorem rhsC_1 (i : S256x256.Idx) (q : dot_S1024x256_S1024x256_S256x256_0_0_1_1_n_n.contr.Idx) : (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl
/-- The contraction into a zero accumulator, read at an output index: the sum over the contracted axis. -/
theorem mmC {φ₁ φ₂ : FTy} (l : FVec Ideal S1024x256 φ₁) (r : FVec Ideal S1024x256 φ₂) (p : Fin 256) (q : Fin 256) :
    matmul dot_S1024x256_S1024x256_S256x256_0_0_1_1_n_n none l r (constant (F := Ideal) S256x256 .f32 0x00000000#32) (ix2 p q) = ∑ k : Fin 1024, l (ix2 k p) * r (ix2 k q) := by
  simp only [matmul]
  rw [Ideal.matmul_constant_zero_apply, ← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 p q) ((contrEquiv1 dot_S1024x256_S1024x256_S256x256_0_0_1_1_n_n 1024 rfl rfl).symm k) = ix2 k p := funext fun a => Fin.ext (by
    match a with
    | ⟨0, _⟩ => exact (lhsC_0 _ _).trans hk
    | ⟨1, _⟩ => exact lhsC_1 _ _)
  have er : dot_S1024x256_S1024x256_S256x256_0_0_1_1_n_n.rhsIdx (ix2 p q) ((contrEquiv1 dot_S1024x256_S1024x256_S256x256_0_0_1_1_n_n 1024 rfl rfl).symm k) = ix2 k q := funext fun a => Fin.ext (by
    match a with
    | ⟨0, _⟩ => exact (rhsC_0 _ _).trans hk
    | ⟨1, _⟩ => exact rhsC_1 _ _)
  rw [el, er]

/-! ## The payloads -/

/-- The output projection's block: rows of the first operand against the weight's columns, plus the bias row. -/
theorem pay5_apply (x0 : FVec Ideal S1024x512 .f32) (x4 : FVec Ideal S512x256 .f32) (x5 : FVec Ideal S1x256 .f32) (r : Fin 1024) (j : Fin 256) :
    k0_pay5 (F := Ideal) x0 x4 x5 (ix2 r j) = (∑ k : Fin 512, x0 (ix2 r k) * x4 (ix2 k j)) + x5 (ix2 (0 : Fin 1) j) := by
  unfold k0_pay5
  try dsimp only
  refine (addf_apply _ _ _).trans ?_
  refine congrArg₂ (· + ·) ?_ ?_
  · refine (mmA _ _ r j).trans ?_
    refine Finset.sum_congr rfl fun k _ => ?_
    exact congrArg₂ (· * ·) (congrFun (shapeCast_self x0 _) (ix2 r k)) rfl
  · refine (broadcastTo_1b_ab_apply _ _ r j).trans ?_
    exact congrFun (shapeCast_self x5 _) (ix2 (0 : Fin 1) j)

/-- A projected row block: rows of the second operand against a weight's columns, plus its bias row. -/
theorem pay6_apply (x1 : FVec Ideal S1024x256 .f32) (x6 : FVec Ideal S256x256 .f32) (x7 : FVec Ideal S1x256 .f32) (s : Fin 1024) (k : Fin 256) :
    k0_pay6 (F := Ideal) x1 x6 x7 (ix2 s k) = (∑ k' : Fin 256, x1 (ix2 s k') * x6 (ix2 k' k)) + x7 (ix2 (0 : Fin 1) k) := by
  unfold k0_pay6 k0_pay4
  try dsimp only
  refine (addf_apply _ _ _).trans ?_
  refine congrArg₂ (· + ·) ?_ ?_
  · refine (mmB _ _ s k).trans ?_
    refine Finset.sum_congr rfl fun k' _ => ?_
    exact congrArg₂ (· * ·) (congrFun (shapeCast_self x1 _) (ix2 s k')) rfl
  · refine (broadcastTo_1b_ab_apply _ _ s k).trans ?_
    exact congrFun (shapeCast_self x7 _) (ix2 (0 : Fin 1) k)

theorem pay7_apply (x1 : FVec Ideal S1024x256 .f32) (x2 : FVec Ideal S256x256 .f32) (x3 : FVec Ideal S1x256 .f32) (s : Fin 1024) (j : Fin 256) :
    k0_pay7 (F := Ideal) x1 x2 x3 (ix2 s j) = (∑ k' : Fin 256, x1 (ix2 s k') * x2 (ix2 k' j)) + x3 (ix2 (0 : Fin 1) j) := by
  unfold k0_pay7 k0_pay4
  try dsimp only
  refine (addf_apply _ _ _).trans ?_
  refine congrArg₂ (· + ·) ?_ ?_
  · refine (mmB _ _ s j).trans ?_
    refine Finset.sum_congr rfl fun k' _ => ?_
    exact congrArg₂ (· * ·) (congrFun (shapeCast_self x1 _) (ix2 s k')) rfl
  · refine (broadcastTo_1b_ab_apply _ _ s j).trans ?_
    exact congrFun (shapeCast_self x3 _) (ix2 (0 : Fin 1) j)

/-- The accumulation step: what the scratch held plus the two projected blocks contracted over their rows. -/
theorem pay1_apply (v31 v32 : FVec Ideal S1024x256 .bf16) (v34 : FVec Ideal S256x256 .f32) (k j : Fin 256) :
    k0_pay1 (F := Ideal) v31 v32 v34 (ix2 k j) = v34 (ix2 k j) + ∑ s : Fin 1024, v31 (ix2 s k) * v32 (ix2 s j) := by
  unfold k0_pay1
  try dsimp only
  refine (congrFun (shapeCast_self _ _) (ix2 k j)).trans ?_
  refine (addf_apply _ _ _).trans ?_
  exact congrArg (v34 (ix2 k j) + ·) (mmC v31 v32 k j)

/-- The reset stores zero. -/
theorem pay3_apply (k j : Fin 256) : k0_pay3 (F := Ideal) (ix2 k j) = 0 := by
  unfold k0_pay3
  try dsimp only
  refine (congrFun (shapeCast_self _ _) (ix2 k j)).trans ?_
  exact Ideal.ofBits_zero_f32

/-- The copy-out adds a leading unit axis. -/
theorem pay2_apply (v42 : FVec Ideal S256x256 .f32) (u : Fin 1) (k j : Fin 256) :
    k0_pay2 (F := Ideal) v42 (ix3 u k j) = v42 (ix2 k j) := by
  unfold k0_pay2
  try dsimp only
  exact shapeCast_ab_1ab_apply v42 _ u k j

end Cert.KernelIdeal.K0V

end
-- ==== Proof.K0Acc.lean ====
import proofs.«154593_j40999757807684_2_alg».proof.Proof.K0Pieces
import proofs.«154593_j40999757807684_2_alg».proof.Proof.K0Pay
import proofs.«154593_j40999757807684_2_alg».proof.Proof.Spec

set_option maxRecDepth 16384

noncomputable section

namespace Cert.KernelIdeal.K0V

open Cert.KernelIdeal Cert.KernelIdeal.Gen Idealize.ShloMosaic Idealize.ShloMosaic.TcCoe Idealize.SL.Sem
open Idealize.ShloMosaic.ValueIdx
open Idealize.ShloMosaic.Pipeline (Dat)

/-! # Region 0 over the extended reals: the blocks read off the arrays, one accumulation step, the running sum -/

variable (V : (c : Dev nD) → (b : Ref sig .tc) → Buf (Elt Ideal) ((c : Thread nD τ).loc b))

/-- Row `s` of the tile of 1024 rows at position `p` (positions past the last tile wrap, and are never used). -/
def rowN (p : ℕ) (s : Fin 1024) : Fin 8192 := ⟨(p * 1024 + s.val) % 8192, Nat.mod_lt _ (by decide)⟩

theorem rowN_val (p : ℕ) (hp : p < 8) (s : Fin 1024) : (rowN p s).val = p * 1024 + s.val := by
  have := s.isLt
  show (p * 1024 + s.val) % 8192 = _
  omega

/-- The arrays of the region's windows as it finds them, as functions on their index sets. -/
abbrev A0 (c : Dev nD) : S8192x512.Idx → EReal := V c main_v0
abbrev A1 (c : Dev nD) : S8192x256.Idx → EReal := V c main_v1
abbrev A2 (c : Dev nD) : S256x256.Idx → EReal := V c main_arg2
abbrev A3 (c : Dev nD) : S1x256.Idx → EReal := V c main_v2
abbrev A4 (c : Dev nD) : S512x256.Idx → EReal := V c main_arg4
abbrev A5 (c : Dev nD) : S1x256.Idx → EReal := V c main_v3
abbrev A6 (c : Dev nD) : S256x256.Idx → EReal := V c main_arg6
abbrev A7 (c : Dev nD) : S1x256.Idx → EReal := V c main_v4
/-- The input windows' blocks at a point, likewise. -/
abbrev B0 (c : Dev nD) (t : Fin cfg0.N) : S1024x512.Idx → EReal := iblk0 V c 0 t
abbrev B1 (c : Dev nD) (t : Fin cfg0.N) : S1024x256.Idx → EReal := iblk0 V c 1 t
abbrev B2 (c : Dev nD) (t : Fin cfg0.N) : S256x256.Idx → EReal := iblk0 V c 2 t
abbrev B3 (c : Dev nD) (t : Fin cfg0.N) : S1x256.Idx → EReal := iblk0 V c 3 t
abbrev B4 (c : Dev nD) (t : Fin cfg0.N) : S512x256.Idx → EReal := iblk0 V c 4 t
abbrev B5 (c : Dev nD) (t : Fin cfg0.N) : S1x256.Idx → EReal := iblk0 V c 5 t
abbrev B6 (c : Dev nD) (t : Fin cfg0.N) : S256x256.Idx → EReal := iblk0 V c 6 t
abbrev B7 (c : Dev nD) (t : Fin cfg0.N) : S1x256.Idx → EReal := iblk0 V c 7 t

/-- Row `r` of the low-width operand projected by the weight of window 6 and the bias of window 7, at column `k`. -/
def phiV (c : Dev nD) (r : Fin 8192) (k : Fin 256) : EReal :=
  (∑ k' : Fin 256, A1 V c (ix2 r k') * A6 V c (ix2 k' k)) + A7 V c (ix2 (0 : Fin 1) k)

/-- Row `r` of the low-width operand projected by the weight of window 2 and the bias of window 3, at column `j`. -/
def gV (c : Dev nD) (r : Fin 8192) (j : Fin 256) : EReal :=
  (∑ k' : Fin 256, A1 V c (ix2 r k') * A2 V c (ix2 k' j)) + A3 V c (ix2 (0 : Fin 1) j)

/-- Row `r` of the high-width operand projected by the weight of window 4 and the bias of window 5, at column `j`. -/
def thetaV (c : Dev nD) (r : Fin 8192) (j : Fin 256) : EReal :=
  (∑ k : Fin 512, A0 V c (ix2 r k) * A4 V c (ix2 k j)) + A5 V c (ix2 (0 : Fin 1) j)

/-- One tile's term of the accumulated product: the two projections of the tile's rows contracted over the rows. -/
def T (c : Dev nD) (p : ℕ) (k j : Fin 256) : EReal := ∑ s : Fin 1024, phiV V c (rowN p s) k * gV V c (rowN p s) j

/-! ## The index maps, decided over the grid -/

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 3) = t.val / 4 ∧ win0_9.index t (1 : Fin 3) = 0 ∧ win0_9.index t (2 : Fin 3) = 0) :=
  (by decide +kernel : ∀ t : Fin grid0.N, _)

/-! ## The input windows' blocks, read off their arrays -/

theorem blk0 (c : Dev nD) (t : Fin cfg0.N) (a : Fin 1024) (b : Fin 512) :
    B0 V c t (ix2 a b) = A0 V c (ix2 (rowN t.val a) b) := by
  have hN : t.val < 8 := lt_of_lt_of_eq t.isLt (show cfg0.N = 8 from N_0)
  have e := (idx_facts t).1
  show V c main_v0 (((cfg0.win 0).blk t).view.emb (ix2 a b)) = _
  refine congrArg (V c main_v0) (funext fun x => Fin.ext ?_)
  match x with
  | ⟨0, _⟩ =>
    show win0_0.index t (0 : Fin 2) * 1024 + 1 * a.val = (rowN t.val a).val
    rw [e.1, rowN_val t.val hN a]; omega
  | ⟨1, _⟩ =>
    show win0_0.index t (1 : Fin 2) * 512 + 1 * b.val = b.val
    rw [e.2]; omega

theorem blk1 (c : Dev nD) (t : Fin cfg0.N) (a : Fin 1024) (b : Fin 256) :
    B1 V c t (ix2 a b) = A1 V c (ix2 (rowN t.val a) b) := by
  have hN : t.val < 8 := lt_of_lt_of_eq t.isLt (show cfg0.N = 8 from N_0)
  have e := (idx_facts t).2.1
  show V c main_v1 (((cfg0.win 1).blk t).view.emb (ix2 a b)) = _
  refine congrArg (V c main_v1) (funext fun x => Fin.ext ?_)
  match x with
  | ⟨0, _⟩ =>
    show win0_1.index t (0 : Fin 2) * 1024 + 1 * a.val = (rowN t.val a).val
    rw [e.1, rowN_val t.val hN a]; omega
  | ⟨1, _⟩ =>
    show win0_1.index t (1 : Fin 2) * 256 + 1 * b.val = b.val
    rw [e.2]; omega

theorem blk2 (c : Dev nD) (t : Fin cfg0.N) (a : Fin 256) (b : Fin 256) :
    B2 V c t (ix2 a b) = A2 V c (ix2 a b) := by
  have hN : t.val < 8 := lt_of_lt_of_eq t.isLt (show cfg0.N = 8 from N_0)
  have e := (idx_facts t).2.2.1
  show V c main_arg2 (((cfg0.win 2).blk t).view.emb (ix2 a b)) = _
  refine congrArg (V c main_arg2) (funext fun x => Fin.ext ?_)
  match x with
  | ⟨0, _⟩ =>
    show win0_2.index t (0 : Fin 2) * 256 + 1 * a.val = a.val
    rw [e.1]; omega
  | ⟨1, _⟩ =>
    show win0_2.index t (1 : Fin 2) * 256 + 1 * b.val = b.val
    rw [e.2]; omega

theorem blk3 (c : Dev nD) (t : Fin cfg0.N) (u : Fin 1) (b : Fin 256) :
    B3 V c t (ix2 u b) = A3 V c (ix2 u b) := by
  have hN : t.val < 8 := lt_of_lt_of_eq t.isLt (show cfg0.N = 8 from N_0)
  have e := (idx_facts t).2.2.2.1
  show V c main_v2 (((cfg0.win 3).blk t).view.emb (ix2 u b)) = _
  refine congrArg (V c main_v2) (funext fun x => Fin.ext ?_)
  match x with
  | ⟨0, _⟩ =>
    show win0_3.index t (0 : Fin 2) * 1 + 1 * u.val = u.val
    rw [e.1]; omega
  | ⟨1, _⟩ =>
    show win0_3.index t (1 : Fin 2) * 256 + 1 * b.val = b.val
    rw [e.2]; omega

theorem blk4 (c : Dev nD) (t : Fin cfg0.N) (a : Fin 512) (b : Fin 256) :
    B4 V c t (ix2 a b) = A4 V c (ix2 a b) := by
  have hN : t.val < 8 := lt_of_lt_of_eq t.isLt (show cfg0.N = 8 from N_0)
  have e := (idx_facts t).2.2.2.2.1
  show V c main_arg4 (((cfg0.win 4).blk t).view.emb (ix2 a b)) = _
  refine congrArg (V c main_arg4) (funext fun x => Fin.ext ?_)
  match x with
  | ⟨0, _⟩ =>
    show win0_4.index t (0 : Fin 2) * 512 + 1 * a.val = a.val
    rw [e.1]; omega
  | ⟨1, _⟩ =>
    show win0_4.index t (1 : Fin 2) * 256 + 1 * b.val = b.val
    rw [e.2]; omega

theorem blk5 (c : Dev nD) (t : Fin cfg0.N) (u : Fin 1) (b : Fin 256) :
    B5 V c t (ix2 u b) = A5 V c (ix2 u b) := by
  have hN : t.val < 8 := lt_of_lt_of_eq t.isLt (show cfg0.N = 8 from N_0)
  have e := (idx_facts t).2.2.2.2.2.1
  show V c main_v3 (((cfg0.win 5).blk t).view.emb (ix2 u b)) = _
  refine congrArg (V c main_v3) (funext fun x => Fin.ext ?_)
  match x with
  | ⟨0, _⟩ =>
    show win0_5.index t (0 : Fin 2) * 1 + 1 * u.val = u.val
    rw [e.1]; omega
  | ⟨1, _⟩ =>
    show win0_5.index t (1 : Fin 2) * 256 + 1 * b.val = b.val
    rw [e.2]; omega

theorem blk6 (c : Dev nD) (t : Fin cfg0.N) (a : Fin 256) (b : Fin 256) :
    B6 V c t (ix2 a b) = A6 V c (ix2 a b) := by
  have hN : t.val < 8 := lt_of_lt_of_eq t.isLt (show cfg0.N = 8 from N_0)
  have e := (idx_facts t).2.2.2.2.2.2.1
  show V c main_arg6 (((cfg0.win 6).blk t).view.emb (ix2 a b)) = _
  refine congrArg (V c main_arg6) (funext fun x => Fin.ext ?_)
  match x with
  | ⟨0, _⟩ =>
    show win0_6.index t (0 : Fin 2) * 256 + 1 * a.val = a.val
    rw [e.1]; omega
  | ⟨1, _⟩ =>
    show win0_6.index t (1 : Fin 2) * 256 + 1 * b.val = b.val
    rw [e.2]; omega

theorem blk7 (c : Dev nD) (t : Fin cfg0.N) (u : Fin 1) (b : Fin 256) :
    B7 V c t (ix2 u b) = A7 V c (ix2 u b) := by
  have hN : t.val < 8 := lt_of_lt_of_eq t.isLt (show cfg0.N = 8 from N_0)
  have e := (idx_facts t).2.2.2.2.2.2.2.1
  show V c main_v4 (((cfg0.win 7).blk t).view.emb (ix2 u b)) = _
  refine congrArg (V c main_v4) (funext fun x => Fin.ext ?_)
  match x with
  | ⟨0, _⟩ =>
    show win0_7.index t (0 : Fin 2) * 1 + 1 * u.val = u.val
    rw [e.1]; omega
  | ⟨1, _⟩ =>
    show win0_7.index t (1 : Fin 2) * 256 + 1 * b.val = b.val
    rw [e.2]; omega

/-! ## One accumulation step -/

/-- Over any blocks: the step adds, at `(k, j)`, the two projections of the block of window 1 contracted over its rows. -/
theorem step_gen (x1 : FVec Ideal S1024x256 .f32) (x2 : FVec Ideal S256x256 .f32) (x3 : FVec Ideal S1x256 .f32)
    (x6 : FVec Ideal S256x256 .f32) (x7 : FVec Ideal S1x256 .f32) (acc : FVec Ideal S256x256 .f32) (k j : Fin 256) :
    k0_pay1 (F := Ideal) (k0_pay6 x1 x6 x7) (k0_pay7 x1 x2 x3) acc (ix2 k j)
      = acc (ix2 k j) + ∑ s : Fin 1024, ((∑ k' : Fin 256, x1 (ix2 s k') * x6 (ix2 k' k)) + x7 (ix2 (0 : Fin 1) k))
          * ((∑ k' : Fin 256, x1 (ix2 s k') * x2 (ix2 k' j)) + x3 (ix2 (0 : Fin 1) j)) := by
  refine (pay1_apply _ _ acc k j).trans ?_
  refine congrArg (acc (ix2 k j) + ·) (Finset.sum_congr rfl fun s _ => ?_)
  exact congrArg₂ (· * ·) (pay6_apply x1 x6 x7 s k) (pay7_apply x1 x2 x3 s j)

/-- At point `t`: the step adds tile `t`'s term. -/
theorem step_at (c : Dev nD) (t : Fin cfg0.N) (acc : FVec Ideal S256x256 .f32) (k j : Fin 256) :
    k0_pay1 (F := Ideal) (k0_pay6 (iblk0 V c 1 t) (iblk0 V c 6 t) (iblk0 V c 7 t)) (k0_pay7 (iblk0 V c 1 t) (iblk0 V c 2 t) (iblk0 V c 3 t)) acc (ix2 k j)
      = acc (ix2 k j) + T V c t.val k j := by
  refine (step_gen (iblk0 V c 1 t) (iblk0 V c 2 t) (iblk0 V c 3 t) (iblk0 V c 6 t) (iblk0 V c 7 t) acc k j).trans ?_
  refine congrArg (acc (ix2 k j) + ·) (Finset.sum_congr rfl fun s _ => ?_)
  exact congrArg₂ (· * ·)
    (congrArg₂ (· + ·) (Finset.sum_congr rfl fun k' _ => congrArg₂ (· * ·) (blk1 V c t s k') (blk6 V c t k' k)) (blk7 V c t 0 k))
    (congrArg₂ (· + ·) (Finset.sum_congr rfl fun k' _ => congrArg₂ (· * ·) (blk1 V c t s k') (blk2 V c t k' j)) (blk3 V c t 0 j))

/-- At point `t`: output 8's block is the projection of tile `t`'s rows of the high-width operand. -/
theorem proj_at (c : Dev nD) (t : Fin cfg0.N) (r : Fin 1024) (j : Fin 256) :
    k0_pay5 (F := Ideal) (iblk0 V c 0 t) (iblk0 V c 4 t) (iblk0 V c 5 t) (ix2 r j) = thetaV V c (rowN t.val r) j := by
  refine (pay5_apply (iblk0 V c 0 t) (iblk0 V c 4 t) (iblk0 V c 5 t) r j).trans ?_
  exact congrArg₂ (· + ·) (Finset.sum_congr rfl fun k _ => congrArg₂ (· * ·) (blk0 V c t r k) (blk4 V c t k j)) (blk5 V c t 0 j)

/-! ## What the scratch and output 8 hold after each point -/

set_option maxHeartbeats 2000000 in
/-- Output 8 after point `t`, in every case: the projection of the point's blocks. -/
theorem out8_at (c : Dev nD) (t : Fin cfg0.N) :
    (outsAt0 V c t.val t.isLt).1 = k0_pay5 (F := Ideal) (iblk0 V c 0 t) (iblk0 V c 4 t) (iblk0 V c 5 t) := by
  have hN : t.val < 8 := lt_of_lt_of_eq t.isLt (show cfg0.N = 8 from N_0)
  by_cases h0 : t.val % 4 = 0
  · have h1 : ¬t.val % 4 = 3 := by omega
    rw [outsAt0_A V c t h0 h1]
    exact out8_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)
  · by_cases h1 : t.val % 4 = 3
    · rw [outsAt0_C V c t h0 h1]
      exact out8_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2
    · rw [outsAt0_B V c t h0 h1]
      exact out8_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2

set_option maxHeartbeats 2000000 in
/-- At a first point of a group of four the scratch holds the tile's term alone (the reset stored zero). -/
theorem scratch_first (c : Dev nD) (t : Fin cfg0.N) (h0 : t.val % 4 = 0) (k j : Fin 256) :
    (outsAt0 V c t.val t.isLt).2.2 (ix2 k j) = T V c t.val k j := by
  have h1 : ¬t.val % 4 = 3 := by omega
  rw [outsAt0_A V c t h0 h1]
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) (ix2 k j)).trans ?_
  refine (step_at V c t (k0_pay3 (F := Ideal)) k j).trans ?_
  rw [pay3_apply, zero_add]

set_option maxHeartbeats 2000000 in
/-- At any other point it holds what the point before left plus the tile's term. -/
theorem scratch_next (c : Dev nD) (t : Fin cfg0.N) (h0 : ¬t.val % 4 = 0) (k j : Fin 256) :
    (outsAt0 V c t.val t.isLt).2.2 (ix2 k j)
      = (outsAt0 V c (t.val - 1) (Nat.lt_of_le_of_lt (Nat.sub_le _ _) t.isLt)).2.2 (ix2 k j) + T V c t.val k j := by
  by_cases h1 : t.val % 4 = 3
  · rw [outsAt0_C V c t h0 h1]
    refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) (ix2 k j)).trans ?_
    exact step_at V c t (outsAt0 V c (t.val - 1) (Nat.lt_of_le_of_lt (Nat.sub_le _ _) t.isLt)).2.2 k j
  · rw [outsAt0_B V c t h0 h1]
    refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) (ix2 k j)).trans ?_
    exact step_at V c t (outsAt0 V c (t.val - 1) (Nat.lt_of_le_of_lt (Nat.sub_le _ _) t.isLt)).2.2 k j

end Cert.KernelIdeal.K0V

end
-- ==== Proof.K0Value.lean ====
import proofs.«154593_j40999757807684_2_alg».proof.Proof.K0Acc

set_option maxRecDepth 16384

noncomputable section

namespace Cert.KernelIdeal.K0V

open Cert.KernelIdeal Cert.KernelIdeal.Gen Idealize.ShloMosaic Idealize.ShloMosaic.TcCoe Idealize.SL.Sem
open Idealize.ShloMosaic.ValueIdx
open Idealize.ShloMosaic.Pipeline (Dat)

/-! # Region 0's two result arrays over the extended reals

Output 8 is written back at every point, tile by tile: it ends as the projection of every row. Output 9 is written back at
the last point of each group of four: it ends, per group, as the sum of the four tiles' terms. -/

variable (V : (c : Dev nD) → (b : Ref sig .tc) → Buf (Elt Ideal) ((c : Thread nD τ).loc b))

/-! ## The running sum in the scratch -/

/-- The running sum: after point `n` the scratch holds the terms of the tiles of `n`'s group of four up to `n`. -/
theorem scratch_sum (c : Dev nD) : ∀ (n : ℕ) (h : n < cfg0.N) (k j : Fin 256),
    (outsAt0 V c n h).2.2 (ix2 k j) = ∑ i ∈ Finset.range (n % 4 + 1), T V c (n / 4 * 4 + i) k j
  | 0, h, k, j => by
    refine (scratch_first V c ⟨0, h⟩ rfl k j).trans ?_
    simp
  | n + 1, h, k, j => by
    by_cases h0 : (n + 1) % 4 = 0
    · refine (scratch_first V c ⟨n + 1, h⟩ h0 k j).trans ?_
      rw [h0, Finset.range_one, Finset.sum_singleton]
      show T V c (n + 1) k j = _
      congr 1; omega
    · refine (scratch_next V c ⟨n + 1, h⟩ h0 k j).trans ?_
      show (outsAt0 V c n _).2.2 (ix2 k j) + T V c (n + 1) k j = _
      rw [scratch_sum c n (Nat.lt_of_succ_lt h) k j]
      have e1 : (n + 1) % 4 = n % 4 + 1 := by omega
      have e2 : (n + 1) / 4 = n / 4 := by omega
      have e3 : n / 4 * 4 + (n % 4 + 1) = n + 1 := by omega
      rw [e1, e2, Finset.sum_range_succ (fun i => T V c (n / 4 * 4 + i) k j) (n % 4 + 1), e3]

/-! ## Output 8 -/

/-- What output 8's array ends holding: the projection of each row of the high-width operand. -/
def G8 (c : Dev nD) : S8192x256.Idx → EReal := fun i => thetaV V c (i 0) (i 1)

/-- What point `t` writes back is block `t` of it. -/
theorem flushed8_eq (c : Dev nD) (t : Fin cfg0.N) :
    (dat0 V c).flushed 8 t = ((cfg0.win 8).blk t).view.read (Elt Ideal) (G8 V c) := by
  have hN : t.val < 8 := lt_of_lt_of_eq t.isLt (show cfg0.N = 8 from N_0)
  have e := (idx_facts t).2.2.2.2.2.2.2.2.1
  show (cfg0.win 8).cut (grid0.coords t) ((dat0 V c).after 8 t) = _
  rw [after0_8, out8_at V c t]
  funext (y : S1024x256.Idx)
  obtain ⟨r, j, rfl⟩ : ∃ (r : Fin 1024) (j : Fin 256), y = ix2 r j := ⟨y 0, y 1, eq_ix2 y⟩
  show k0_pay5 (F := Ideal) (iblk0 V c 0 t) (iblk0 V c 4 t) (iblk0 V c 5 t) (ix2 r j) = G8 V c (((cfg0.win 8).blk t).view.emb (ix2 r j))
  rw [proj_at V c t r j]
  have he : ((cfg0.win 8).blk t).view.emb (ix2 r j) = ix2 (rowN t.val r) j := funext fun x => Fin.ext (by
    match x with
    | ⟨0, _⟩ => show win0_8.index t (0 : Fin 2) * 1024 + 1 * r.val = (rowN t.val r).val; rw [e.1, rowN_val t.val hN r]; omega
    | ⟨1, _⟩ => show win0_8.index t (1 : Fin 2) * 256 + 1 * j.val = j.val; rw [e.2]; omega)
  rw [he]
  rfl

/-- An index of the array is in point `t`'s block iff each coordinate is in the block's range on its axis. -/
theorem mem_blk8 (t : Fin cfg0.N) (i : S8192x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v8_0).slice (win0_8.rect t)).set ↔ _
  rw [View.set_slice_whole, Rect.mem_set_unit]
  exact Iff.rfl

/-- Every row lies in the block of the tile it belongs to. -/
theorem cover8 (i : S8192x256.Idx) : ∃ t : Fin cfg0.N, (cfg0.win 8).flush t = true ∧ i ∈ ((cfg0.win 8).blk t).view.set := by
  have hi0 : (i 0).val < 8192 := (i 0).isLt
  have hi1 : (i 1).val < 256 := (i 1).isLt
  have hN : cfg0.N = 8 := N_0
  have hlt : (i 0).val / 1024 < cfg0.N := by rw [hN]; omega
  refine ⟨⟨(i 0).val / 1024, hlt⟩, flush0_8 _, ?_⟩
  have e := (idx_facts ⟨(i 0).val / 1024, hlt⟩).2.2.2.2.2.2.2.2.1
  rw [mem_blk8]
  intro a
  match a with
  | ⟨0, _⟩ =>
    show win0_8.index ⟨(i 0).val / 1024, hlt⟩ (0 : Fin 2) * 1024 ≤ (i 0).val ∧ (i 0).val < win0_8.index ⟨(i 0).val / 1024, hlt⟩ (0 : Fin 2) * 1024 + 1024
    rw [e.1]; show (i 0).val / 1024 * 1024 ≤ (i 0).val ∧ (i 0).val < (i 0).val / 1024 * 1024 + 1024; omega
  | ⟨1, _⟩ =>
    show win0_8.index ⟨(i 0).val / 1024, hlt⟩ (1 : Fin 2) * 256 ≤ (i 1).val ∧ (i 1).val < win0_8.index ⟨(i 0).val / 1024, hlt⟩ (1 : Fin 2) * 256 + 256
    rw [e.2]; omega

/-- Output 8's array after the region. -/
theorem final8 (c : Dev nD) : (dat0 V c).arrAt 8 cfg0.N = G8 V c :=
  (dat0 V c).arrAt_eq_of_cover 8 (G8 V c) (fun t _ => flushed8_eq V c t) cover8

/-- Read at an index: row `r` of the high-width operand against column `j` of the weight, plus the bias. -/
theorem arr0_8 (c : Dev nD) (r : Fin 8192) (j : Fin 256) :
    ((dat0 (F := Ideal) V c).arrAt 8 cfg0.N : S8192x256.Idx → EReal) (ix2 r j)
      = (∑ k : Fin 512, A0 V c (ix2 r k) * A4 V c (ix2 k j)) + A5 V c (ix2 (0 : Fin 1) j) :=
  (congrFun (final8 V c) (ix2 r j)).trans rfl

/-! ## Output 9 -/

/-- What output 9's array ends holding: per group of four tiles, the sum over the tiles and their rows of the products of
    the two projections. -/
def G9 (c : Dev nD) : S2x256x256.Idx → EReal := fun i =>
  ∑ ii : Fin 4, ∑ s : Fin 1024, phiV V c (Cert.Spec.row (i 0) ii s) (i 1) * gV V c (Cert.Spec.row (i 0) ii s) (i 2)

set_option maxHeartbeats 4000000 in
/-- At a last point of a group output 9's buffer is a copy of the scratch as the point leaves it. -/
theorem out9_at (c : Dev nD) (t : Fin cfg0.N) (h0 : ¬t.val % 4 = 0) (h1 : t.val % 4 = 3) :
    (outsAt0 V c t.val t.isLt).2.1 = k0_pay2 (F := Ideal) ((outsAt0 V c t.val t.isLt).2.2) := by
  rw [outsAt0_C V c t h0 h1]
  exact (out9_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2).trans
    (congrArg (k0_pay2 (F := Ideal)) (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2).symm)

/-- What a writing point `t` writes back is its block of `G9`. -/
theorem flushed9_eq (c : Dev nD) (t : Fin cfg0.N) (hf : (cfg0.win 9).flush t = true) :
    (dat0 V c).flushed 9 t = ((cfg0.win 9).blk t).view.read (Elt Ideal) (G9 V c) := by
  have hN : t.val < 8 := lt_of_lt_of_eq t.isLt (show cfg0.N = 8 from N_0)
  have h3 : t.val % 4 = 3 := (flush0_9 t).mp hf
  have h0 : ¬t.val % 4 = 0 := by omega
  have e := (idx_facts t).2.2.2.2.2.2.2.2.2
  show (cfg0.win 9).cut (grid0.coords t) ((dat0 V c).after 9 t) = _
  rw [after0_9, out9_at V c t h0 h3]
  funext (y : S1x256x256.Idx)
  obtain ⟨u, k, j, rfl⟩ : ∃ (u : Fin 1) (k j : Fin 256), y = ix3 u k j := ⟨y 0, y 1, y 2, eq_ix3 y⟩
  show k0_pay2 (F := Ideal) ((outsAt0 V c t.val t.isLt).2.2) (ix3 u k j) = G9 V c (((cfg0.win 9).blk t).view.emb (ix3 u k j))
  refine (pay2_apply _ u k j).trans ?_
  rw [scratch_sum V c t.val t.isLt k j]
  have hh : t.val / 4 < 2 := by omega
  have he : ((cfg0.win 9).blk t).view.emb (ix3 u k j) = ix3 (⟨t.val / 4, hh⟩ : Fin 2) k j := funext fun x => Fin.ext (by
    have hu : u.val = 0 := by omega
    match x with
    | ⟨0, _⟩ => show win0_9.index t (0 : Fin 3) * 1 + 1 * u.val = t.val / 4; rw [e.1]; omega
    | ⟨1, _⟩ => show win0_9.index t (1 : Fin 3) * 256 + 1 * k.val = k.val; rw [e.2.1]; omega
    | ⟨2, _⟩ => show win0_9.index t (2 : Fin 3) * 256 + 1 * j.val = j.val; rw [e.2.2]; omega)
  rw [he]
  show _ = ∑ ii : Fin 4, ∑ s : Fin 1024, phiV V c (Cert.Spec.row ⟨t.val / 4, hh⟩ ii s) k * gV V c (Cert.Spec.row ⟨t.val / 4, hh⟩ ii s) j
  have h4 : t.val % 4 + 1 = 4 := by omega
  rw [h4, Finset.sum_range]
  refine Finset.sum_congr rfl fun ii _ => ?_
  unfold T
  refine Finset.sum_congr rfl fun s _ => ?_
  have hr : rowN (t.val / 4 * 4 + ii.val) s = Cert.Spec.row ⟨t.val / 4, hh⟩ ii s := Fin.ext (by
    have := ii.isLt
    rw [rowN_val _ (by omega) s]
    rfl)
  rw [hr]

theorem mem_blk9 (t : Fin cfg0.N) (i : S2x256x256.Idx) :
    i ∈ ((cfg0.win 9).blk t).view.set ↔ ∀ a : Fin 3, win0_9.index t a * S1x256x256.size a ≤ (i a).val ∧ (i a).val < win0_9.index t a * S1x256x256.size a + S1x256x256.size a := by
  show i ∈ ((View.whole main_v8_1).slice (win0_9.rect t)).set ↔ _
  rw [View.set_slice_whole, Rect.mem_set_unit]
  exact Iff.rfl

/-- Every index lies in the block written at the last point of its group. -/
theorem cover9 (i : S2x256x256.Idx) : ∃ t : Fin cfg0.N, (cfg0.win 9).flush t = true ∧ i ∈ ((cfg0.win 9).blk t).view.set := by
  have hi0 : (i 0).val < 2 := (i 0).isLt
  have hi1 : (i 1).val < 256 := (i 1).isLt
  have hi2 : (i 2).val < 256 := (i 2).isLt
  have hN : cfg0.N = 8 := N_0
  have hlt : (i 0).val * 4 + 3 < cfg0.N := by rw [hN]; omega
  refine ⟨⟨(i 0).val * 4 + 3, hlt⟩, (flush0_9 _).mpr (by show ((i 0).val * 4 + 3) % 4 = 3; omega), ?_⟩
  have e := (idx_facts ⟨(i 0).val * 4 + 3, hlt⟩).2.2.2.2.2.2.2.2.2
  rw [mem_blk9]
  intro a
  match a with
  | ⟨0, _⟩ =>
    show win0_9.index ⟨(i 0).val * 4 + 3, hlt⟩ (0 : Fin 3) * 1 ≤ (i 0).val ∧ (i 0).val < win0_9.index ⟨(i 0).val * 4 + 3, hlt⟩ (0 : Fin 3) * 1 + 1
    rw [e.1]; show ((i 0).val * 4 + 3) / 4 * 1 ≤ (i 0).val ∧ (i 0).val < ((i 0).val * 4 + 3) / 4 * 1 + 1; omega
  | ⟨1, _⟩ =>
    show win0_9.index ⟨(i 0).val * 4 + 3, hlt⟩ (1 : Fin 3) * 256 ≤ (i 1).val ∧ (i 1).val < win0_9.index ⟨(i 0).val * 4 + 3, hlt⟩ (1 : Fin 3) * 256 + 256
    rw [e.2.1]; omega
  | ⟨2, _⟩ =>
    show win0_9.index ⟨(i 0).val * 4 + 3, hlt⟩ (2 : Fin 3) * 256 ≤ (i 2).val ∧ (i 2).val < win0_9.index ⟨(i 0).val * 4 + 3, hlt⟩ (2 : Fin 3) * 256 + 256
    rw [e.2.2]; omega

/-- Output 9's array after the region. -/
theorem final9 (c : Dev nD) : (dat0 V c).arrAt 9 cfg0.N = G9 V c :=
  (dat0 V c).arrAt_eq_of_cover 9 (G9 V c) (flushed9_eq V c) cover9

/-- Read at an index: for group `h`, the sum over its four tiles and their rows of the products of the two projections. -/
theorem arr0_9 (c : Dev nD) (h : Fin 2) (k j : Fin 256) :
    ((dat0 (F := Ideal) V c).arrAt 9 cfg0.N : S2x256x256.Idx → EReal) (ix3 h k j)
      = ∑ i : Fin 4, ∑ s : Fin 1024, phiV V c (Cert.Spec.row h i s) k * gV V c (Cert.Spec.row h i s) j :=
  (congrFun (final9 V c) (ix3 h k j)).trans rfl

end Cert.KernelIdeal.K0V

end
-- ==== Proof.KValueFinal.lean ====
/-
  The program's result at an index with nothing assumed: the first launch's two result arrays, read at an index, put into
  the chain of boundaries.
-/
import proofs.«154593_j40999757807684_2_alg».proof.Proof.KValue
import proofs.«154593_j40999757807684_2_alg».proof.Proof.K0Value

set_option maxRecDepth 16384

noncomputable section

namespace Cert.KernelIdeal.Gen

open Idealize.ShloMosaic Idealize.ShloMosaic.TcCoe Idealize.ShloMosaic.ValueIdx

/-- THE KERNEL PROGRAM'S RESULT at `(b, n, d)`: the specification's closed formula of the side that forms the
    256 × 256 matrix first, at row `b · 1024 + n`. -/
theorem kernel_value (m : (ℓ : Loc nD τ sig) → Buf (Elt Ideal) ℓ) (ρ : Dev nD → PrngReg) (c : Dev nD)
    (b : Fin 8) (n : Fin 1024) (d : Fin 512) :
    rd (s := S8x1024x512) (W7 (F := Ideal) half0 half1 half2 m ρ c (Proc.devRef .tc main_v24)) (ix3 b n d)
      = Cert.Spec.zK (inM m c) (Ideal.ofBits .f32 0x3727C5AC#32) (Cert.Spec.rowOf b n) d :=
  kernel_value' m ρ c (fun V c r j => Cert.KernelIdeal.K0V.arr0_8 V c r j)
    (fun V c h k j => (Cert.KernelIdeal.K0V.arr0_9 V c h k j).trans rfl) b n d

end Cert.KernelIdeal.Gen

end
-- ==== Proof.lean ====
/-
  The certificate's five claims. The two kernel programs' frames come from one run of the program as four host stretches
  around three launches, written once for any instance of the float operations; the reference's frame is its run with the
  result dropped. The ideal pass rewrote nothing, so the idealization claim is trivial. For the algebraic claim both
  programs' results are read as functions of the twelve argument arrays — the kernel's as "form M = φᵀ g first, then
  y = (θ M) · 2⁻¹³, and normalise with the mean and variance got from the sum and the sum of squares before the bias", the
  reference's as "form (θ φᵀ) / 8192 first, then y, and normalise with the mean and the mean of squared deviations" — and on
  finite inputs, which the precondition gives, these are one function: the products reassociate and the two readings of mean
  and variance agree (finite sums of reals).
-/
import proofs.«154593_j40999757807684_2_alg».proof.Defs
import proofs.«154593_j40999757807684_2_alg».proof.Proof.Gen.Kernel
import proofs.«154593_j40999757807684_2_alg».proof.Proof.Gen.KernelIdeal
import proofs.«154593_j40999757807684_2_alg».proof.Proof.Gen.ReferenceIdeal
import proofs.«154593_j40999757807684_2_alg».proof.Proof.Gen.Pre_finite_inputs
import proofs.«154593_j40999757807684_2_alg».proof.Proof.KHalves
import proofs.«154593_j40999757807684_2_alg».proof.Proof.KHalves_B
import proofs.«154593_j40999757807684_2_alg».proof.Proof.RefRun
import proofs.«154593_j40999757807684_2_alg».proof.Proof.RefValue
import proofs.«154593_j40999757807684_2_alg».proof.Proof.PreFinite
import proofs.«154593_j40999757807684_2_alg».proof.Proof.Spec
import proofs.«154593_j40999757807684_2_alg».proof.Proof.KValueFinal
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame' (F := Bits) m ρ

theorem frame_ki : Cert.frame_KernelIdeal := fun m ρ _ => Cert.KernelIdeal.Gen.frame' (F := Ideal) m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- The common result on core `c`: the reference's closed formula of the kernel program's argument arrays. -/
def res (m : (ℓ : Loc Cert.KernelIdeal.nD Cert.KernelIdeal.τ Cert.KernelIdeal.sig) → Buf (Elt Ideal) ℓ) (c : Dev Cert.KernelIdeal.nD) :
    Cert.KernelIdeal.S8x1024x512.Idx → EReal := fun j =>
  Cert.Spec.zRef (Cert.Spec.inOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
    (Ideal.ofBits .f32 0x3727C5AC#32) (Cert.Spec.rowOf ⟨(j 0).val, (j 0).isLt⟩ ⟨(j 1).val, (j 1).isLt⟩) ⟨(j 2).val, (j 2).isLt⟩

theorem algebraic : Cert.algebraic_KernelIdeal_ReferenceIdeal := by
  intro m ρ m' ρ' hpre hagree
  refine ⟨fun c => res m c, ?_, ?_⟩
  · refine (θ_run Cert.KernelIdeal.defs _ _).mono (fun r h c => ⟨?_, (h c _ (Cert.KernelIdeal.Gen.mem_uc Cert.KernelIdeal.main_arg0 (by decide))).trans (Cert.KernelIdeal.Gen.W7_main_arg0 _ _ _ m ρ c),
      (h c _ (Cert.KernelIdeal.Gen.mem_uc Cert.KernelIdeal.main_arg1 (by decide))).trans (Cert.KernelIdeal.Gen.W7_main_arg1 _ _ _ m ρ c),
      (h c _ (Cert.KernelIdeal.Gen.mem_uc Cert.KernelIdeal.main_arg2 (by decide))).trans (Cert.KernelIdeal.Gen.W7_main_arg2 _ _ _ m ρ c),
      (h c _ (Cert.KernelIdeal.Gen.mem_uc Cert.KernelIdeal.main_arg3 (by decide))).trans (Cert.KernelIdeal.Gen.W7_main_arg3 _ _ _ m ρ c),
      (h c _ (Cert.KernelIdeal.Gen.mem_uc Cert.KernelIdeal.main_arg4 (by decide))).trans (Cert.KernelIdeal.Gen.W7_main_arg4 _ _ _ m ρ c),
      (h c _ (Cert.KernelIdeal.Gen.mem_uc Cert.KernelIdeal.main_arg5 (by decide))).trans (Cert.KernelIdeal.Gen.W7_main_arg5 _ _ _ m ρ c),
      (h c _ (Cert.KernelIdeal.Gen.mem_uc Cert.KernelIdeal.main_arg6 (by decide))).trans (Cert.KernelIdeal.Gen.W7_main_arg6 _ _ _ m ρ c),
      (h c _ (Cert.KernelIdeal.Gen.mem_uc Cert.KernelIdeal.main_arg7 (by decide))).trans (Cert.KernelIdeal.Gen.W7_main_arg7 _ _ _ m ρ c),
      (h c _ (Cert.KernelIdeal.Gen.mem_uc Cert.KernelIdeal.main_arg8 (by decide))).trans (Cert.KernelIdeal.Gen.W7_main_arg8 _ _ _ m ρ c),
      (h c _ (Cert.KernelIdeal.Gen.mem_uc Cert.KernelIdeal.main_arg9 (by decide))).trans (Cert.KernelIdeal.Gen.W7_main_arg9 _ _ _ m ρ c),
      (h c _ (Cert.KernelIdeal.Gen.mem_uc Cert.KernelIdeal.main_arg10 (by decide))).trans (Cert.KernelIdeal.Gen.W7_main_arg10 _ _ _ m ρ c),
      (h c _ (Cert.KernelIdeal.Gen.mem_uc Cert.KernelIdeal.main_arg11 (by decide))).trans (Cert.KernelIdeal.Gen.W7_main_arg11 _ _ _ m ρ c)⟩)
      (Cert.KernelIdeal.Gen.run_main' (F := Ideal) m ρ)
    refine (h c _ (Cert.KernelIdeal.Gen.mem_uc Cert.KernelIdeal.main_v24 (by decide))).trans (funext fun j => ?_)
    obtain ⟨b, n, d, rfl⟩ : ∃ (b : Fin 8) (n : Fin 1024) (d : Fin 512), j = ix3 b n d := ⟨j 0, j 1, j 2, eq_ix3 j⟩
    refine (Cert.KernelIdeal.Gen.kernel_value m ρ c b n d).trans ?_
    exact Cert.Spec.zK_eq_zRef_of_finite _ (Cert.PreFinite.finite_of_pre _ _ _ _ _ _ _ _ _ _ _ _ (hpre c)) _ _ _
  · refine (θ_run Cert.ReferenceIdeal.defs _ _).mono (fun r h c => ⟨(h c).1.trans (funext fun j => ?_), (h c).2⟩)
      (Cert.ReferenceIdeal.RefRun.run m' ρ')
    obtain ⟨b, n, d, rfl⟩ : ∃ (b : Fin 8) (n : Fin 1024) (d : Fin 512), j = ix3 b n d := ⟨j 0, j 1, j 2, eq_ix3 j⟩
    obtain ⟨e0, e1, e2, e3, e4, e5, e6, e7, e8, e9, e10, e11⟩ := hagree c
    rw [Cert.ReferenceIdeal.RefValue.result_apply, e0, e1, e2, e3, e4, e5, e6, e7, e8, e9, e10, e11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
